-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x2000 : S_.BroadcastsInDim S500x2000 (![] : Fin 0 → Fin S500x2000.rank)
  reducesTo_S500x2000_S_d0_1 : S500x2000.ReducesTo [0, 1] S_
  bcast_S_S2000 : S_.BroadcastsInDim S2000 (![] : Fin 0 → Fin S2000.rank)
  reducesTo_S2000_S_d0 : S2000.ReducesTo [0] S_
  bcast_S_S2000x10 : S_.BroadcastsInDim S2000x10 (![] : Fin 0 → Fin S2000x10.rank)
  reducesTo_S2000x10_S_d0_1 : S2000x10.ReducesTo [0, 1] S_
  bcast_S_S10 : S_.BroadcastsInDim S10 (![] : Fin 0 → Fin S10.rank)
  reducesTo_S10_S_d0 : S10.ReducesTo [0] S_
  bcast_S_S10x2000 : S_.BroadcastsInDim S10x2000 (![] : Fin 0 → Fin S10x2000.rank)
  reducesTo_S10x2000_S_d0_1 : S10x2000.ReducesTo [0, 1] S_
  bcast_S_S2000x500 : S_.BroadcastsInDim S2000x500 (![] : Fin 0 → Fin S2000x500.rank)
  reducesTo_S2000x500_S_d0_1 : S2000x500.ReducesTo [0, 1] S_
  bcast_S_S500x512 : S_.BroadcastsInDim S500x512 (![] : Fin 0 → Fin S500x512.rank)
  reducesTo_S500x512_S_d0_1 : S500x512.ReducesTo [0, 1] S_
  bcast_S_S512 : S_.BroadcastsInDim S512 (![] : Fin 0 → Fin S512.rank)
  reducesTo_S512_S_d0 : S512.ReducesTo [0] S_
  bcast_S_S10x10 : S_.BroadcastsInDim S10x10 (![] : Fin 0 → Fin S10x10.rank)
  reducesTo_S10x10_S_d0_1 : S10x10.ReducesTo [0, 1] S_

variable [Facts]

def fn_part5 {F : FTy → Type} [FloatOps F] (main_v83 : IVec S_ 1) (main_v84 : FVec F S10x10 .f32) (main_cst_32 : FVec F S_ .f32) : IVec S_ 1 :=
  let main_v85 : FVec F S10x10 .f32 := broadcastInDim S10x10 ![] bcast_S_S10x10 main_cst_32
  let main_v86 : IVec S10x10 1 := cmpf .olt main_v84 main_v85
  let main_c_33 : IVec S_ 1 := constantI S_ 1 1#1
  let main_v87 : IVec S_ 1 := (fun x v => Host.reduce IntOp.andi x v reducesTo_S10x10_S_d0_1 h_S_) main_v86 main_c_33
  let main_v88 : IVec S_ 1 := andi main_v83 main_v87
  main_v88

def fn_part4 {F : FTy → Type} [FloatOps F] (main_arg14 : FVec F S500 .f32) (main_arg15 : FVec F S500x512 .f32) (main_arg16 : FVec F S512 .f32) (main_arg17 : FVec F S10x10 .f32) (main_v63 : IVec S_ 1) (main_v67 : IVec S_ 1) : IVec S_ 1 :=
  let main_v68 : IVec S_ 1 := andi main_v63 main_v67
  let main_v69 : FVec F S500 .f32 := Host.absf main_arg14
  let main_cst_26 : FVec F S_ .f32 := constant S_ .f32 0x7F800000#32
  let main_v70 : FVec F S500 .f32 := broadcastInDim S500 ![] bcast_S_S500 main_cst_26
  let main_v71 : IVec S500 1 := cmpf .olt main_v69 main_v70
  let main_c_27 : IVec S_ 1 := constantI S_ 1 1#1
  let main_v72 : IVec S_ 1 := (fun x v => Host.reduce IntOp.andi x v reducesTo_S500_S_d0 h_S_) main_v71 main_c_27
  let main_v73 : IVec S_ 1 := andi main_v68 main_v72
  let main_v74 : FVec F S500x512 .f32 := Host.absf main_arg15
  let main_cst_28 : FVec F S_ .f32 := constant S_ .f32 0x7F800000#32
  let main_v75 : FVec F S500x512 .f32 := broadcastInDim S500x512 ![] bcast_S_S500x512 main_cst_28
  let main_v76 : IVec S500x512 1 := cmpf .olt main_v74 main_v75
  let main_c_29 : IVec S_ 1 := constantI S_ 1 1#1
  let main_v77 : IVec S_ 1 := (fun x v => Host.reduce IntOp.andi x v reducesTo_S500x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S10x10 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2000x500 .f32) (main_arg12 : FVec F S500 .f32) (main_arg13 : FVec F S500x500 .f32) (main_arg14 : FVec F S500 .f32) (main_arg15 : FVec F S500x512 .f32) (main_arg16 : FVec F S512 .f32) (main_arg17 : FVec F S10x10 .f32) (main_v48 : IVec S_ 1) (main_v49 : FVec F S2000 .f32) (main_v50 : FVec F S2000 .f32) : IVec S_ 1 :=
  let main_v51 : IVec S2000 1 := cmpf .olt main_v49 main_v50
  let main_c_19 : IVec S_ 1 := constantI S_ 1 1#1
  let main_v52 : IVec S_ 1 := (fun x v => Host.reduce IntOp.andi x v reducesTo_S2000_S_d0 h_S_) main_v51 main_c_19
  let main_v53 : IVec S_ 1 := andi main_v48 main_v52
  let main_v54 : FVec F S2000x500 .f32 := Host.absf main_arg11
  let main_cst_20 : FVec F S_ .f32 := constant S_ .f32 0x7F800000#32
  let main_v55 : FVec F S2000x500 .f32 := broadcastInDim S2000x500 ![] bcast_S_S2000x500 main_cst_20
  let main_v56 : IVec S2000x500 1 := cmpf .olt main_v54 main_v55
  let main_c_21 : IVec S_ 1 := constantI S_ 1 1#1
  let main_v57 : IVec S_ 1 := (fun x v => Host.reduce IntOp.andi x v reducesTo_S2000x500_S_d0_1 h_S_) main_v56 main_c_21
  let main_v58 : IVec S_ 1 := andi main_v53 main_v57
  let main_v59 : FVec F S500 .f32 := Host.absf main_arg12
  let main_cst_22 : FVec F S_ .f32 := constant S_ .f32 0x7F800000#32
  let main_v60 : FVec F S500 .f32 := broadcastInDim S500 ![] bcast_S_S500 main_cst_22
  let main_v61 : IVec S500 1 := cmpf .olt main_v59 main_v60
  let main_c_23 : IVec S_ 1 := constantI S_ 1 1#1
  let main_v62 : IVec S_ 1 := (fun x v => Host.reduce IntOp.andi x v reducesTo_S500_S_d0 h_S_) main_v61 main_c_23
  let main_v63 : IVec S_ 1 := andi main_v58 main_v62
  let main_v64 : FVec F S500x500 .f32 := Host.absf main_arg13
  let main_cst_24 : FVec F S_ .f32 := constant S_ .f32 0x7F800000#32
  let main_v65 : FVec F S500x500 .f32 := broadcastInDim S500x500 ![] bcast_S_S500x500 main_cst_24
  let main_v66 : IVec S500x500 1 := cmpf .olt main_v64 main_v65
  let main_c_25 : IVec S_ 1 := constantI S_ 1 1#1
  let main_v67 : IVec S_ 1 := (fun x v => Host.reduce IntOp.andi x v reducesTo_S500x500_S_d0_1 h_S_) main_v66 main_c_25
  fn_part4 (F := F) main_arg14 main_arg15 main_arg16 main_arg17 main_v63 main_v67

def fn_part2 {F : FTy → Type} [FloatOps F] (main_arg7 : FVec F S2000x10 .f32) (main_arg8 : FVec F S10 .f32) (main_arg9 : FVec F S10x2000 .f32) (main_arg10 : FVec F S2000 .f32) (main_arg11 : FVec F S2000x500 .f32) (main_arg12 : FVec F S500 .f32) (main_arg13 : FVec F S500x500 .f32) (main_arg14 : FVec F S500 .f32) (main_arg15 : FVec F S500x512 .f32) (main_arg16 : FVec F S512 .f32) (main_arg17 : FVec F S10x10 .f32) (main_v33 : IVec S_ 1) : IVec S_ 1 :=
  let main_v34 : FVec F S2000x10 .f32 := Host.absf main_arg7
  let main_cst_12 : FVec F S_ .f32 := constant S_ .f32 0x7F800000#32
  let main_v35 : FVec F S2000x10 .f32 := broadcastInDim S2000x10 ![] bcast_S_S2000x10 main_cst_12
  let main_v36 : IVec S2000x10 1 := cmpf .olt main_v34 main_v35
  let main_c_13 : IVec S_ 1 := constantI S_ 1 1#1
  let main_v37 : IVec S_ 1 := (fun x v => Host.reduce IntOp.andi x v reducesTo_S2000x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x2000 .f32 := Host.absf main_arg9
  let main_cst_16 : FVec F S_ .f32 := constant S_ .f32 0x7F800000#32
  let main_v45 : FVec F S10x2000 .f32 := broadcastInDim S10x2000 ![] bcast_S_S10x2000 main_cst_16
  let main_v46 : IVec S10x2000 1 := cmpf .olt main_v44 main_v45
  let main_c_17 : IVec S_ 1 := constantI S_ 1 1#1
  let main_v47 : IVec S_ 1 := (fun x v => Host.reduce IntOp.andi x v reducesTo_S10x2000_S_d0_1 h_S_) main_v46 main_c_17
  let main_v48 : IVec S_ 1 := andi main_v43 main_v47
  let main_v49 : FVec F S2000 .f32 := Host.absf main_arg10
  let main_cst_18 : FVec F S_ .f32 := constant S_ .f32 0x7F800000#32
  let main_v50 : FVec F S2000 .f32 := broadcastInDim S2000 ![] bcast_S_S2000 main_cst_18
  fn_part3 (F := F) main_arg11 main_arg12 main_arg13 main_arg14 main_arg15 main_arg16 main_arg17 main_v48 main_v49 main_v50

def fn_part1 {F : FTy → Type} [FloatOps F] (main_arg4 : FVec F S500 .f32) (main_arg5 : FVec F S500x2000 .f32) (main_arg6 : FVec F S2000 .f32) (main_arg7 : FVec F S2000x10 .f32) (main_arg8 : FVec F S10 .f32) (main_arg9 : FVec F S10x2000 .f32) (main_arg10 : FVec F S2000 .f32) (main_arg11 : FVec F S2000x500 .f32) (main_arg12 : FVec F S500 .f32) (main_arg13 : FVec F S500x500 .f32) (main_arg14 : FVec F S500 .f32) (main_arg15 : FVec F S500x512 .f32) (main_arg16 : FVec F S512 .f32) (main_arg17 : FVec F S10x10 .f32) (main_v13 : IVec S_ 1) (main_v16 : IVec S500x500 1) : IVec S_ 1 :=
  let main_c_5 : IVec S_ 1 := constantI S_ 1 1#1
  let main_v17 : IVec S_ 1 := (fun x v => Host.reduce IntOp.andi x v reducesTo_S500x500_S_d0_1 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500x2000 .f32 := Host.absf main_arg5
  let main_cst_8 : FVec F S_ .f32 := constant S_ .f32 0x7F800000#32
  let main_v25 : FVec F S500x2000 .f32 := broadcastInDim S500x2000 ![] bcast_S_S500x2000 main_cst_8
  let main_v26 : IVec S500x2000 1 := cmpf .olt main_v24 main_v25
  let main_c_9 : IVec S_ 1 := constantI S_ 1 1#1
  let main_v27 : IVec S_ 1 := (fun x v => Host.reduce IntOp.andi x v reducesTo_S500x2000_S_d0_1 h_S_) main_v26 main_c_9
  let main_v28 : IVec S_ 1 := andi main_v23 main_v27
  let main_v29 : FVec F S2000 .f32 := Host.absf main_arg6
  let main_cst_10 : FVec F S_ .f32 := constant S_ .f32 0x7F800000#32
  let main_v30 : FVec F S2000 .f32 := broadcastInDim S2000 ![] bcast_S_S2000 main_cst_10
  let main_v31 : IVec S2000 1 := cmpf .olt main_v29 main_v30
  let main_c_11 : IVec S_ 1 := constantI S_ 1 1#1
  let main_v32 : IVec S_ 1 := (fun x v => Host.reduce IntOp.andi x v reducesTo_S2000_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x512 .f32) (main_arg1 : FVec F S512x500 .f32) (main_arg2 : FVec F S500 .f32) (main_arg3 : FVec F S500x500 .f32) (main_arg4 : FVec F S500 .f32) (main_arg5 : FVec F S500x2000 .f32) (main_arg6 : FVec F S2000 .f32) (main_arg7 : FVec F S2000x10 .f32) (main_arg8 : FVec F S10 .f32) (main_arg9 : FVec F S10x2000 .f32) (main_arg10 : FVec F S2000 .f32) (main_arg11 : FVec F S2000x500 .f32) (main_arg12 : FVec F S500 .f32) (main_arg13 : FVec F S500x500 .f32) (main_arg14 : FVec F S500 .f32) (main_arg15 : FVec F S500x512 .f32) (main_arg16 : FVec F S512 .f32) (main_arg17 : FVec F S10x10 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x500 .f32 := Host.absf main_arg1
  let main_cst_0 : FVec F S_ .f32 := constant S_ .f32 0x7F800000#32
  let main_v5 : FVec F S512x500 .f32 := broadcastInDim S512x500 ![] bcast_S_S512x500 main_cst_0
  let main_v6 : IVec S512x500 1 := cmpf .olt main_v4 main_v5
  let main_c_1 : IVec S_ 1 := constantI S_ 1 1#1
  let main_v7 : IVec S_ 1 := (fun x v => Host.reduce IntOp.andi x v reducesTo_S512x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500x500 .f32 := Host.absf main_arg3
  let main_cst_4 : FVec F S_ .f32 := constant S_ .f32 0x7F800000#32
  let main_v15 : FVec F S500x500 .f32 := broadcastInDim S500x500 ![] bcast_S_S500x500 main_cst_4
  let main_v16 : IVec S500x500 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x512 : Shape := ⟨2, ![10000, 512]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S1x500 : Shape := ⟨2, ![1, 500]⟩
abbrev S1x2000 : Shape := ⟨2, ![1, 2000]⟩
abbrev S1x10 : Shape := ⟨2, ![1, 10]⟩
abbrev S1x512 : Shape := ⟨2, ![1, 512]⟩
abbrev S10000x10 : Shape := ⟨2, ![10000, 10]⟩
abbrev S2000x512 : Shape := ⟨2, ![2000, 512]⟩
abbrev S400x512 : Shape := ⟨2, ![400, 512]⟩
abbrev S400x500 : Shape := ⟨2, ![400, 500]⟩
abbrev S400x2000 : Shape := ⟨2, ![400, 2000]⟩
abbrev S400x10 : Shape := ⟨2, ![400, 10]⟩
abbrev S400 : Shape := ⟨1, ![400]⟩
abbrev S400x1 : Shape := ⟨2, ![400, 1]⟩

abbrev nBuf : Space → Nat
  | .hbm => 29
  | .vmem => 25
  | .smem => 0
  | _ => 0

abbrev bufTy : (tb : Table) → Fin (tcTables nBuf tb) → BufTy
  | .hbm, ⟨0, _⟩ => ⟨S10000x512, .f32⟩
  | .hbm, ⟨1, _⟩ => ⟨S512x500, .f32⟩
  | .hbm, ⟨2, _⟩ => ⟨S500, .f32⟩
  | .hbm, ⟨3, _⟩ => ⟨S500x500, .f32⟩
  | .hbm, ⟨4, _⟩ => ⟨S500, .f32⟩
  | .hbm, ⟨5, _⟩ => ⟨S500x2000, .f32⟩
  | .hbm, ⟨6, _⟩ => ⟨S2000, .f32⟩
  | .hbm, ⟨7, _⟩ => ⟨S2000x10, .f32⟩
  | .hbm, ⟨8, _⟩ => ⟨S10, .f32⟩
  | .hbm, ⟨9, _⟩ => ⟨S10x2000, .f32⟩
  | .hbm, ⟨10, _⟩ => ⟨S2000, .f32⟩
  | .hbm, ⟨11, _⟩ => ⟨S2000x500, .f32⟩
  | .hbm, ⟨12, _⟩ => ⟨S500, .f32⟩
  | .hbm, ⟨13, _⟩ => ⟨S500x500, .f32⟩
  | .hbm, ⟨14, _⟩ => ⟨S500, .f32⟩
  | .hbm, ⟨15, _⟩ => ⟨S500x512, .f32⟩
  | .hbm, ⟨16, _⟩ => ⟨S512, .f32⟩
  | .hbm, ⟨17, _⟩ => ⟨S10x10, .f32⟩
  | .hbm, ⟨18, _⟩ => ⟨S1x500, .f32⟩
  | .hbm, ⟨19, _⟩ => ⟨S1x500, .f32⟩
  | .hbm, ⟨20, _⟩ => ⟨S1x2000, .f32⟩
  | .hbm, ⟨21, _⟩ => ⟨S1x10, .f32⟩
  | .hbm, ⟨22, _⟩ => ⟨S1x2000, .f32⟩
  | .hbm, ⟨23, _⟩ => ⟨S1x500, .f32⟩
  | .hbm, ⟨24, _⟩ => ⟨S1x500, .f32⟩
  | .hbm, ⟨25, _⟩ => ⟨S1x512, .f32⟩
  | .hbm, ⟨26, _⟩ => ⟨S10000x512, .f32⟩
  | .hbm, ⟨27, _⟩ => ⟨S10000x10, .f32⟩
  | .hbm, ⟨28, _⟩ => ⟨S10000x10, .f32⟩
  | .local _ .vmem, ⟨0, _⟩ => ⟨S2000x512, .f32⟩
  | .local _ .vmem, ⟨1, _⟩ => ⟨S2000x512, .f32⟩
  | .local _ .vmem, ⟨2, _⟩ => ⟨S512x500, .f32⟩
  | .local _ .vmem, ⟨3, _⟩ => ⟨S1x500, .f32⟩
  | .local _ .vmem, ⟨4, _⟩ => ⟨S500x500, .f32⟩
  | .local _ .vmem, ⟨5, _⟩ => ⟨S1x500, .f32⟩
  | .local _ .vmem, ⟨6, _⟩ => ⟨S500x2000, .f32⟩
  | .local _ .vmem, ⟨7, _⟩ => ⟨S1x2000, .f32⟩
  | .local _ .vmem, ⟨8, _⟩ => ⟨S2000x10, .f32⟩
  | .local _ .vmem, ⟨9, _⟩ => ⟨S1x10, .f32⟩
  | .local _ .vmem, ⟨10, _⟩ => ⟨S10x2000, .f32⟩
  | .local _ .vmem, ⟨11, _⟩ => ⟨S1x2000, .f32⟩
  | .local _ .vmem, ⟨12, _⟩ => ⟨S2000x500, .f32⟩
  | .local _ .vmem, ⟨13, _⟩ => ⟨S1x500, .f32⟩
  | .local _ .vmem, ⟨14, _⟩ => ⟨S500x500, .f32⟩
  | .local _ .vmem, ⟨15, _⟩ => ⟨S1x500, .f32⟩
  | .local _ .vmem, ⟨16, _⟩ => ⟨S500x512, .f32⟩
  | .local _ .vmem, ⟨17, _⟩ => ⟨S1x512, .f32⟩
  | .local _ .vmem, ⟨18, _⟩ => ⟨S10x10, .f32⟩
  | .local _ .vmem, ⟨19, _⟩ => ⟨S2000x512, .f32⟩
  | .local _ .vmem, ⟨20, _⟩ => ⟨S2000x512, .f32⟩
  | .local _ .vmem, ⟨21, _⟩ => ⟨S2000x10, .f32⟩
  | .local _ .vmem, ⟨22, _⟩ => ⟨S2000x10, .f32⟩
  | .local _ .vmem, ⟨23, _⟩ => ⟨S2000x10, .f32⟩
  | .local _ .vmem, ⟨24, _⟩ => ⟨S2000x10, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x2000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2000x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x2000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2000x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x500 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S500x500 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x500 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S500x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S10x10 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2000x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x10 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2000x10 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S500_S1x500 : S500.ShapeCasts S1x500
  shapeCasts_S2000_S1x2000 : S2000.ShapeCasts S1x2000
  shapeCasts_S10_S1x10 : S10.ShapeCasts S1x10
  shapeCasts_S512_S1x512 : S512.ShapeCasts S1x512
  inb_S10x10_S10x10_0_0 : ∀ a, (![0, 0] : Fin 2 → Nat) a + S10x10.size a ≤ S10x10.size a
  h_S10x10 : 0 < S10x10.numel
  reduces_S10x10_S10 : S10x10.Reduces [1] S10
  inb_S2000x512_S400x512_0_0 : ∀ a, (![0, 0] : Fin 2 → Nat) a + S400x512.size a ≤ S2000x512.size a
  h_S400x512 : 0 < S400x512.numel
  inb_S2000x512_S400x512_400_0 : ∀ a, (![400, 0] : Fin 2 → Nat) a + S400x512.size a ≤ S2000x512.size a
  inb_S2000x512_S400x512_800_0 : ∀ a, (![800, 0] : Fin 2 → Nat) a + S400x512.size a ≤ S2000x512.size a
  inb_S2000x512_S400x512_1200_0 : ∀ a, (![1200, 0] : Fin 2 → Nat) a + S400x512.size a ≤ S2000x512.size a
  inb_S2000x512_S400x512_1600_0 : ∀ a, (![1600, 0] : Fin 2 → Nat) a + S400x512.size a ≤ S2000x512.size a
  inb_S512x500_S512x500_0_0 : ∀ a, (![0, 0] : Fin 2 → Nat) a + S512x500.size a ≤ S512x500.size a
  h_S512x500 : 0 < S512x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S400x500 : S1x500.Broadcasts S400x500
  inb_S500x500_S500x500_0_0 : ∀ a, (![0, 0] : Fin 2 → Nat) a + S500x500.size a ≤ S500x500.size a
  h_S500x500 : 0 < S500x500.numel
  inb_S500x2000_S500x2000_0_0 : ∀ a, (![0, 0] : Fin 2 → Nat) a + S500x2000.size a ≤ S500x2000.size a
  h_S500x2000 : 0 < S500x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S400x2000 : S1x2000.Broadcasts S400x2000
  inb_S2000x10_S2000x10_0_0 : ∀ a, (![0, 0] : Fin 2 → Nat) a + S2000x10.size a ≤ S2000x10.size a
  h_S2000x10 : 0 < S2000x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  inb_S2000x10_S400x10_0_0 : ∀ a, (![0, 0] : Fin 2 → Nat) a + S400x10.size a ≤ S2000x10.size a
  h_S400x10 : 0 < S400x10.numel
  reduces_S400x10_S400 : S400x10.Reduces [1] S400
  shapeCasts_S400_S400x1 : S400.ShapeCasts S400x1
  transposes_S10x10_p1_0_S10x10 : S10x10.Transposes [1, 0] S10x10
  broadcasts_S400x1_S400x10 : S400x1.Broadcasts S400x10
  inb_S10x2000_S10x2000_0_0 : ∀ a, (![0, 0] : Fin 2 → Nat) a + S10x2000.size a ≤ S10x2000.size a
  h_S10x2000 : 0 < S10x2000.numel
  inb_S2000x500_S2000x500_0_0 : ∀ a, (![0, 0] : Fin 2 → Nat) a + S2000x500.size a ≤ S2000x500.size a
  h_S2000x500 : 0 < S2000x500.numel
  inb_S2000x10_S400x10_400_0 : ∀ a, (![400, 0] : Fin 2 → Nat) a + S400x10.size a ≤ S2000x10.size a
  inb_S2000x10_S400x10_800_0 : ∀ a, (![800, 0] : Fin 2 → Nat) a + S400x10.size a ≤ S2000x10.size a
  inb_S500x512_S500x512_0_0 : ∀ a, (![0, 0] : Fin 2 → Nat) a + S500x512.size a ≤ S500x512.size a
  h_S500x512 : 0 < S500x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S2000x10_S400x10_1200_0 : ∀ a, (![1200, 0] : Fin 2 → Nat) a + S400x10.size a ≤ S2000x10.size a
  inb_S2000x10_S400x10_1600_0 : ∀ a, (![1600, 0] : Fin 2 → Nat) a + S400x10.size a ≤ S2000x10.size a
  dot_S400x512_S512x500_S400x500_1_0_0_1_n_n_wf : DotDims.WF S400x512 S512x500 S400x500 [1] [0] [0] [1] [] []
  dot_S400x500_S500x500_S400x500_1_0_0_1_n_n_wf : DotDims.WF S400x500 S500x500 S400x500 [1] [0] [0] [1] [] []
  dot_S400x500_S500x2000_S400x2000_1_0_0_1_n_n_wf : DotDims.WF S400x500 S500x2000 S400x2000 [1] [0] [0] [1] [] []
  dot_S400x2000_S2000x10_S400x10_1_0_0_1_n_n_wf : DotDims.WF S400x2000 S2000x10 S400x10 [1] [0] [0] [1] [] []
  dot_S400x10_S10x10_S400x10_1_0_0_1_n_n_wf : DotDims.WF S400x10 S10x10 S400x10 [1] [0] [0] [1] [] []
  dot_S400x10_S10x2000_S400x2000_1_0_0_1_n_n_wf : DotDims.WF S400x10 S10x2000 S400x2000 [1] [0] [0] [1] [] []
  dot_S400x2000_S2000x500_S400x500_1_0_0_1_n_n_wf : DotDims.WF S400x2000 S2000x500 S400x500 [1] [0] [0] [1] [] []
  dot_S400x500_S500x512_S400x512_1_0_0_1_n_n_wf : DotDims.WF S400x500 S500x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .f32 = 32 ∨ (Rect.block (s := S512x500) S512x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x500.size a ≤ S500x500.size a
  hwx0_3 : ∀ i : grid0.Coords, EltTy.bits .f32 = 32 ∨ (Rect.block (s := S500x500) S500x500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x2000.size a ≤ S500x2000.size a
  hwx0_5 : ∀ i : grid0.Coords, EltTy.bits .f32 = 32 ∨ (Rect.block (s := S500x2000) S500x2000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2000.size a ≤ S1x2000.size a
  hwx0_6 : ∀ i : grid0.Coords, EltTy.bits .f32 = 32 ∨ (Rect.block (s := S1x2000) S1x2000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2000x10.size a ≤ S2000x10.size a
  hwx0_7 : ∀ i : grid0.Coords, EltTy.bits .f32 = 32 ∨ (Rect.block (s := S2000x10) S2000x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x2000.size a ≤ S10x2000.size a
  hwx0_9 : ∀ i : grid0.Coords, EltTy.bits .f32 = 32 ∨ (Rect.block (s := S10x2000) S10x2000.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2000.size a ≤ S1x2000.size a
  hwx0_10 : ∀ i : grid0.Coords, EltTy.bits .f32 = 32 ∨ (Rect.block (s := S1x2000) S1x2000.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2000x500.size a ≤ S2000x500.size a
  hwx0_11 : ∀ i : grid0.Coords, EltTy.bits .f32 = 32 ∨ (Rect.block (s := S2000x500) S2000x500.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x500.size a ≤ S1x500.size a
  hwx0_12 : ∀ i : grid0.Coords, EltTy.bits .f32 = 32 ∨ (Rect.block (s := S1x500) S1x500.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S500x500.size a ≤ S500x500.size a
  hwx0_13 : ∀ i : grid0.Coords, EltTy.bits .f32 = 32 ∨ (Rect.block (s := S500x500) S500x500.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x500.size a ≤ S1x500.size a
  hwx0_14 : ∀ i : grid0.Coords, EltTy.bits .f32 = 32 ∨ (Rect.block (s := S1x500) S1x500.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S500x512.size a ≤ S500x512.size a
  hwx0_15 : ∀ i : grid0.Coords, EltTy.bits .f32 = 32 ∨ (Rect.block (s := S500x512) S500x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S10x10.size a ≤ S10x10.size a
  hwx0_17 : ∀ i : grid0.Coords, EltTy.bits .f32 = 32 ∨ (Rect.block (s := S10x10) S10x10.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x512.size a ≤ S10000x512.size a
  hwx0_18 : ∀ i : grid0.Coords, EltTy.bits .f32 = 32 ∨ (Rect.block (s := S10000x512) S2000x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x10.size a ≤ S10000x10.size a
  hwx0_19 : ∀ i : grid0.Coords, EltTy.bits .f32 = 32 ∨ (Rect.block (s := S10000x10) S2000x10.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2000x10.size a ≤ S10000x10.size a
  hwx0_20 : ∀ i : grid0.Coords, EltTy.bits .f32 = 32 ∨ (Rect.block (s := S10000x10) S2000x10.size (cc0_transform_20 i) (hinb0_20 i)).WholeWords (EltTy.packing .f32)

variable [Facts₀]

def dot_S400x512_S512x500_S400x500_1_0_0_1_n_n : DotDims S400x512 S512x500 S400x500 where
  lhsContracting := [1]
  rhsContracting := [0]
  lhsNonContracting := [0]
  rhsNonContracting := [1]
  lhsBatch := []
  rhsBatch := []
  wf := dot_S400x512_S512x500_S400x500_1_0_0_1_n_n_wf
def dot_S400x500_S500x500_S400x500_1_0_0_1_n_n : DotDims S400x500 S500x500 S400x500 where
  lhsContracting := [1]
  rhsContracting := [0]
  lhsNonContracting := [0]
  rhsNonContracting := [1]
  lhsBatch := []
  rhsBatch := []
  wf := dot_S400x500_S500x500_S400x500_1_0_0_1_n_n_wf
def dot_S400x500_S500x2000_S400x2000_1_0_0_1_n_n : DotDims S400x500 S500x2000 S400x2000 where
  lhsContracting := [1]
  rhsContracting := [0]
  lhsNonContracting := [0]
  rhsNonContracting := [1]
  lhsBatch := []
  rhsBatch := []
  wf := dot_S400x500_S500x2000_S400x2000_1_0_0_1_n_n_wf
def dot_S400x2000_S2000x10_S400x10_1_0_0_1_n_n : DotDims S400x2000 S2000x10 S400x10 where
  lhsContracting := [1]
  rhsContracting := [0]
  lhsNonContracting := [0]
  rhsNonContracting := [1]
  lhsBatch := []
  rhsBatch := []
  wf := dot_S400x2000_S2000x10_S400x10_1_0_0_1_n_n_wf
def dot_S400x10_S10x10_S400x10_1_0_0_1_n_n : DotDims S400x10 S10x10 S400x10 where
  lhsContracting := [1]
  rhsContracting := [0]
  lhsNonContracting := [0]
  rhsNonContracting := [1]
  lhsBatch := []
  rhsBatch := []
  wf := dot_S400x10_S10x10_S400x10_1_0_0_1_n_n_wf
def dot_S400x10_S10x2000_S400x2000_1_0_0_1_n_n : DotDims S400x10 S10x2000 S400x2000 where
  lhsContracting := [1]
  rhsContracting := [0]
  lhsNonContracting := [0]
  rhsNonContracting := [1]
  lhsBatch := []
  rhsBatch := []
  wf := dot_S400x10_S10x2000_S400x2000_1_0_0_1_n_n_wf
def dot_S400x2000_S2000x500_S400x500_1_0_0_1_n_n : DotDims S400x2000 S2000x500 S400x500 where
  lhsContracting := [1]
  rhsContracting := [0]
  lhsNonContracting := [0]
  rhsNonContracting := [1]
  lhsBatch := []
  rhsBatch := []
  wf := dot_S400x2000_S2000x500_S400x500_1_0_0_1_n_n_wf
def dot_S400x500_S500x512_S400x512_1_0_0_1_n_n : DotDims S400x500 S500x512 S400x512 where
  lhsContracting := [1]
  rhsContracting := [0]
  lhsNonContracting := [0]
  rhsNonContracting := [1]
  lhsBatch := []
  rhsBatch := []
  wf := dot_S400x500_S500x512_S400x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S500x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S500x2000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2000x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S10x2000.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x2000.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2000x500.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x500.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S500x500.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x500.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S500x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S10x10.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8_0) S2000x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8_1) S2000x10.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_2) S2000x10.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S10000x500 : Shape := ⟨2, ![10000, 500]⟩
abbrev S1x500 : Shape := ⟨2, ![1, 500]⟩
abbrev S_ : Shape := ⟨0, ![]⟩
abbrev S10000x2000 : Shape := ⟨2, ![10000, 2000]⟩
abbrev S1x2000 : Shape := ⟨2, ![1, 2000]⟩
abbrev S10000x10 : Shape := ⟨2, ![10000, 10]⟩
abbrev S1x10 : Shape := ⟨2, ![1, 10]⟩
abbrev S1x512 : Shape := ⟨2, ![1, 512]⟩
abbrev S10000x1x10 : Shape := ⟨3, ![10000, 1, 10]⟩
abbrev S1x10x10 : Shape := ⟨3, ![1, 10, 10]⟩
abbrev S10000x10x10 : Shape := ⟨3, ![10000, 10, 10]⟩
abbrev S10000 : Shape := ⟨1, ![10000]⟩
abbrev S10000x1 : Shape := ⟨2, ![10000, 1]⟩

abbrev nBuf : Space → Nat
  | .hbm => 93
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x500, .f32⟩
  | .hbm, ⟨2, _⟩ => ⟨S500, .f32⟩
  | .hbm, ⟨3, _⟩ => ⟨S500x500, .f32⟩
  | .hbm, ⟨4, _⟩ => ⟨S500, .f32⟩
  | .hbm, ⟨5, _⟩ => ⟨S500x2000, .f32⟩
  | .hbm, ⟨6, _⟩ => ⟨S2000, .f32⟩
  | .hbm, ⟨7, _⟩ => ⟨S2000x10, .f32⟩
  | .hbm, ⟨8, _⟩ => ⟨S10, .f32⟩
  | .hbm, ⟨9, _⟩ => ⟨S10x2000, .f32⟩
  | .hbm, ⟨10, _⟩ => ⟨S2000, .f32⟩
  | .hbm, ⟨11, _⟩ => ⟨S2000x500, .f32⟩
  | .hbm, ⟨12, _⟩ => ⟨S500, .f32⟩
  | .hbm, ⟨13, _⟩ => ⟨S500x500, .f32⟩
  | .hbm, ⟨14, _⟩ => ⟨S500, .f32⟩
  | .hbm, ⟨15, _⟩ => ⟨S500x512, .f32⟩
  | .hbm, ⟨16, _⟩ => ⟨S512, .f32⟩
  | .hbm, ⟨17, _⟩ => ⟨S10x10, .f32⟩
  | .hbm, ⟨18, _⟩ => ⟨S10000x500, .f32⟩
  | .hbm, ⟨19, _⟩ => ⟨S1x500, .f32⟩
  | .hbm, ⟨20, _⟩ => ⟨S10000x500, .f32⟩
  | .hbm, ⟨21, _⟩ => ⟨S10000x500, .f32⟩
  | .hbm, ⟨22, _⟩ => ⟨S_, .f32⟩
  | .hbm, ⟨23, _⟩ => ⟨S10000x500, .f32⟩
  | .hbm, ⟨24, _⟩ => ⟨S10000x500, .f32⟩
  | .hbm, ⟨25, _⟩ => ⟨S10000x500, .f32⟩
  | .hbm, ⟨26, _⟩ => ⟨S1x500, .f32⟩
  | .hbm, ⟨27, _⟩ => ⟨S10000x500, .f32⟩
  | .hbm, ⟨28, _⟩ => ⟨S10000x500, .f32⟩
  | .hbm, ⟨29, _⟩ => ⟨S_, .f32⟩
  | .hbm, ⟨30, _⟩ => ⟨S10000x500, .f32⟩
  | .hbm, ⟨31, _⟩ => ⟨S10000x500, .f32⟩
  | .hbm, ⟨32, _⟩ => ⟨S10000x2000, .f32⟩
  | .hbm, ⟨33, _⟩ => ⟨S1x2000, .f32⟩
  | .hbm, ⟨34, _⟩ => ⟨S10000x2000, .f32⟩
  | .hbm, ⟨35, _⟩ => ⟨S10000x2000, .f32⟩
  | .hbm, ⟨36, _⟩ => ⟨S_, .f32⟩
  | .hbm, ⟨37, _⟩ => ⟨S10000x2000, .f32⟩
  | .hbm, ⟨38, _⟩ => ⟨S10000x2000, .f32⟩
  | .hbm, ⟨39, _⟩ => ⟨S10000x10, .f32⟩
  | .hbm, ⟨40, _⟩ => ⟨S1x10, .f32⟩
  | .hbm, ⟨41, _⟩ => ⟨S10000x10, .f32⟩
  | .hbm, ⟨42, _⟩ => ⟨S10000x10, .f32⟩
  | .hbm, ⟨43, _⟩ => ⟨S10000x2000, .f32⟩
  | .hbm, ⟨44, _⟩ => ⟨S1x2000, .f32⟩
  | .hbm, ⟨45, _⟩ => ⟨S10000x2000, .f32⟩
  | .hbm, ⟨46, _⟩ => ⟨S10000x2000, .f32⟩
  | .hbm, ⟨47, _⟩ => ⟨S_, .f32⟩
  | .hbm, ⟨48, _⟩ => ⟨S10000x2000, .f32⟩
  | .hbm, ⟨49, _⟩ => ⟨S10000x2000, .f32⟩
  | .hbm, ⟨50, _⟩ => ⟨S10000x500, .f32⟩
  | .hbm, ⟨51, _⟩ => ⟨S1x500, .f32⟩
  | .hbm, ⟨52, _⟩ => ⟨S10000x500, .f32⟩
  | .hbm, ⟨53, _⟩ => ⟨S10000x500, .f32⟩
  | .hbm, ⟨54, _⟩ => ⟨S_, .f32⟩
  | .hbm, ⟨55, _⟩ => ⟨S10000x500, .f32⟩
  | .hbm, ⟨56, _⟩ => ⟨S10000x500, .f32⟩
  | .hbm, ⟨57, _⟩ => ⟨S10000x500, .f32⟩
  | .hbm, ⟨58, _⟩ => ⟨S1x500, .f32⟩
  | .hbm, ⟨59, _⟩ => ⟨S10000x500, .f32⟩
  | .hbm, ⟨60, _⟩ => ⟨S10000x500, .f32⟩
  | .hbm, ⟨61, _⟩ => ⟨S_, .f32⟩
  | .hbm, ⟨62, _⟩ => ⟨S10000x500, .f32⟩
  | .hbm, ⟨63, _⟩ => ⟨S10000x500, .f32⟩
  | .hbm, ⟨64, _⟩ => ⟨S10000x512, .f32⟩
  | .hbm, ⟨65, _⟩ => ⟨S1x512, .f32⟩
  | .hbm, ⟨66, _⟩ => ⟨S10000x512, .f32⟩
  | .hbm, ⟨67, _⟩ => ⟨S10000x512, .f32⟩
  | .hbm, ⟨68, _⟩ => ⟨S10000x1x10, .f32⟩
  | .hbm, ⟨69, _⟩ => ⟨S1x10x10, .f32⟩
  | .hbm, ⟨70, _⟩ => ⟨S10000x10x10, .f32⟩
  | .hbm, ⟨71, _⟩ => ⟨S10000x10x10, .f32⟩
  | .hbm, ⟨72, _⟩ => ⟨S10000x10x10, .f32⟩
  | .hbm, ⟨73, _⟩ => ⟨S10000x10x10, .f32⟩
  | .hbm, ⟨74, _⟩ => ⟨S_, .f32⟩
  | .hbm, ⟨75, _⟩ => ⟨S10000x10, .f32⟩
  | .hbm, ⟨76, _⟩ => ⟨S_, .f32⟩
  | .hbm, ⟨77, _⟩ => ⟨S10000x10, .f32⟩
  | .hbm, ⟨78, _⟩ => ⟨S10000x10, .f32⟩
  | .hbm, ⟨79, _⟩ => ⟨S_, .f32⟩
  | .hbm, ⟨80, _⟩ => ⟨S10000x10, .f32⟩
  | .hbm, ⟨81, _⟩ => ⟨S10000x10, .f32⟩
  | .hbm, ⟨82, _⟩ => ⟨S_, .f32⟩
  | .hbm, ⟨83, _⟩ => ⟨S10000x10, .f32⟩
  | .hbm, ⟨84, _⟩ => ⟨S10000x10, .f32⟩
  | .hbm, ⟨85, _⟩ => ⟨S_, .f32⟩
  | .hbm, ⟨86, _⟩ => ⟨S10000x10, .f32⟩
  | .hbm, ⟨87, _⟩ => ⟨S10000x10, .f32⟩
  | .hbm, ⟨88, _⟩ => ⟨S_, .f32⟩
  | .hbm, ⟨89, _⟩ => ⟨S10000, .f32⟩
  | .hbm, ⟨90, _⟩ => ⟨S10000x1, .f32⟩
  | .hbm, ⟨91, _⟩ => ⟨S10000x10, .f32⟩
  | .hbm, ⟨92, _⟩ => ⟨S10000x10, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call4_cst : Ref sig .tc := ⟨.hbm, 54, rfl⟩
abbrev main_call4_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call5_cst : Ref sig .tc := ⟨.hbm, 61, rfl⟩
abbrev main_call5_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst : Ref sig .tc := ⟨.hbm, 74, rfl⟩
abbrev main_v44 : Ref sig .tc := ⟨.hbm, 75, rfl⟩
abbrev main_cst_0 : Ref sig .tc := ⟨.hbm, 76, rfl⟩
abbrev main_v45 : Ref sig .tc := ⟨.hbm, 77, rfl⟩
abbrev main_v46 : Ref sig .tc := ⟨.hbm, 78, rfl⟩
abbrev main_cst_1 : Ref sig .tc := ⟨.hbm, 79, rfl⟩
abbrev main_v47 : Ref sig .tc := ⟨.hbm, 80, rfl⟩
abbrev main_v48 : Ref sig .tc := ⟨.hbm, 81, rfl⟩
abbrev main_cst_2 : Ref sig .tc := ⟨.hbm, 82, rfl⟩
abbrev main_v49 : Ref sig .tc := ⟨.hbm, 83, rfl⟩
abbrev main_v50 : Ref sig .tc := ⟨.hbm, 84, rfl⟩
abbrev main_cst_3 : Ref sig .tc := ⟨.hbm, 85, rfl⟩
abbrev main_v51 : Ref sig .tc := ⟨.hbm, 86, rfl⟩
abbrev main_v52 : Ref sig .tc := ⟨.hbm, 87, rfl⟩
abbrev main_cst_4 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S10000x500_0_1 : S1x500.BroadcastsInDim S10000x500 (![0, 1] : Fin 2 → Fin S10000x500.rank)
  bcast_S_S10000x500 : S_.BroadcastsInDim S10000x500 (![] : Fin 0 → Fin S10000x500.rank)
  bcast_S2000_S1x2000_1 : S2000.BroadcastsInDim S1x2000 (![1] : Fin 1 → Fin S1x2000.rank)
  bcast_S1x2000_S10000x2000_0_1 : S1x2000.BroadcastsInDim S10000x2000 (![0, 1] : Fin 2 → Fin S10000x2000.rank)
  bcast_S_S10000x2000 : S_.BroadcastsInDim S10000x2000 (![] : Fin 0 → Fin S10000x2000.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S10000x10_S10000x1x10_0_2 : S10000x10.BroadcastsInDim S10000x1x10 (![0, 2] : Fin 2 → Fin S10000x1x10.rank)
  bcast_S10x10_S1x10x10_1_2 : S10x10.BroadcastsInDim S1x10x10 (![1, 2] : Fin 2 → Fin S1x10x10.rank)
  bcast_S10000x1x10_S10000x10x10_0_1_2 : S10000x1x10.BroadcastsInDim S10000x10x10 (![0, 1, 2] : Fin 3 → Fin S10000x10x10.rank)
  bcast_S1x10x10_S10000x10x10_0_1_2 : S1x10x10.BroadcastsInDim S10000x10x10 (![0, 1, 2] : Fin 3 → Fin S10000x10x10.rank)
  reducesTo_S10000x10x10_S10000x10_d2 : S10000x10x10.ReducesTo [2] S10000x10
  h_S_ : 0 < S_.numel
  bcast_S_S10000x10 : S_.BroadcastsInDim S10000x10 (![] : Fin 0 → Fin S10000x10.rank)
  reducesTo_S10000x10_S10000_d1 : S10000x10.ReducesTo [1] S10000
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x512_S512x500_S10000x500_1_0_0_1_n_n_wf : DotDims.WF S10000x512 S512x500 S10000x500 [1] [0] [0] [1] [] []
  dot_S10000x500_S500x500_S10000x500_1_0_0_1_n_n_wf : DotDims.WF S10000x500 S500x500 S10000x500 [1] [0] [0] [1] [] []
  dot_S10000x500_S500x2000_S10000x2000_1_0_0_1_n_n_wf : DotDims.WF S10000x500 S500x2000 S10000x2000 [1] [0] [0] [1] [] []
  dot_S10000x2000_S2000x10_S10000x10_1_0_0_1_n_n_wf : DotDims.WF S10000x2000 S2000x10 S10000x10 [1] [0] [0] [1] [] []
  dot_S10000x10_S10x2000_S10000x2000_1_0_0_1_n_n_wf : DotDims.WF S10000x10 S10x2000 S10000x2000 [1] [0] [0] [1] [] []
  dot_S10000x2000_S2000x500_S10000x500_1_0_0_1_n_n_wf : DotDims.WF S10000x2000 S2000x500 S10000x500 [1] [0] [0] [1] [] []
  dot_S10000x500_S500x512_S10000x512_1_0_0_1_n_n_wf : DotDims.WF S10000x500 S500x512 S10000x512 [1] [0] [0] [1] [] []

variable [Facts₀]

def dot_S10000x512_S512x500_S10000x500_1_0_0_1_n_n : DotDims S10000x512 S512x500 S10000x500 where
  lhsContracting := [1]
  rhsContracting := [0]
  lhsNonContracting := [0]
  rhsNonContracting := [1]
  lhsBatch := []
  rhsBatch := []
  wf := dot_S10000x512_S512x500_S10000x500_1_0_0_1_n_n_wf
def dot_S10000x500_S500x500_S10000x500_1_0_0_1_n_n : DotDims S10000x500 S500x500 S10000x500 where
  lhsContracting := [1]
  rhsContracting := [0]
  lhsNonContracting := [0]
  rhsNonContracting := [1]
  lhsBatch := []
  rhsBatch := []
  wf := dot_S10000x500_S500x500_S10000x500_1_0_0_1_n_n_wf
def dot_S10000x500_S500x2000_S10000x2000_1_0_0_1_n_n : DotDims S10000x500 S500x2000 S10000x2000 where
  lhsContracting := [1]
  rhsContracting := [0]
  lhsNonContracting := [0]
  rhsNonContracting := [1]
  lhsBatch := []
  rhsBatch := []
  wf := dot_S10000x500_S500x2000_S10000x2000_1_0_0_1_n_n_wf
def dot_S10000x2000_S2000x10_S10000x10_1_0_0_1_n_n : DotDims S10000x2000 S2000x10 S10000x10 where
  lhsContracting := [1]
  rhsContracting := [0]
  lhsNonContracting := [0]
  rhsNonContracting := [1]
  lhsBatch := []
  rhsBatch := []
  wf := dot_S10000x2000_S2000x10_S10000x10_1_0_0_1_n_n_wf
def dot_S10000x10_S10x2000_S10000x2000_1_0_0_1_n_n : DotDims S10000x10 S10x2000 S10000x2000 where
  lhsContracting := [1]
  rhsContracting := [0]
  lhsNonContracting := [0]
  rhsNonContracting := [1]
  lhsBatch := []
  rhsBatch := []
  wf := dot_S10000x10_S10x2000_S10000x2000_1_0_0_1_n_n_wf
def dot_S10000x2000_S2000x500_S10000x500_1_0_0_1_n_n : DotDims S10000x2000 S2000x500 S10000x500 where
  lhsContracting := [1]
  rhsContracting := [0]
  lhsNonContracting := [0]
  rhsNonContracting := [1]
  lhsBatch := []
  rhsBatch := []
  wf := dot_S10000x2000_S2000x500_S10000x500_1_0_0_1_n_n_wf
def dot_S10000x500_S500x512_S10000x512_1_0_0_1_n_n : DotDims S10000x500 S500x512 S10000x512 where
  lhsContracting := [1]
  rhsContracting := [0]
  lhsNonContracting := [0]
  rhsNonContracting := [1]
  lhsBatch := []
  rhsBatch := []
  wf := dot_S10000x500_S500x512_S10000x512_1_0_0_1_n_n_wf

class Facts : Prop extends Facts₀ where

variable [Facts]
-- ==== Proof.Net.lean ====
/-
  The network both programs compute, one row at a time, on the extended reals.

  A row `r : Fin K → EReal` goes through a dense layer as `q ↦ (∑ k, r k * w (k, q)) + b q` and through the
  rectifier as `q ↦ max (r q) 0`. The encoder is three rectified dense layers (512 → 500 → 500 → 2000) and a
  plain one (2000 → 10) giving the code `z`; the decoder is three rectified dense layers (10 → 2000 → 500 → 500)
  and a plain one (500 → 512) giving the reconstruction. The soft assignment of a code `z` to the ten centres
  `c j` is Student's t with one degree of freedom: `u j = 1 / (1 + ∑ k, (z k - c j k)²)`, normalised over `j`.
  Every output row depends on the same row of the input only, so the three result arrays are stated row by row.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- A matrix of extended reals with literal extents. -/
abbrev Arr2 (n m : Nat) := (⟨2, ![n, m]⟩ : Shape).Idx → EReal
/-- A vector of extended reals with a literal extent. -/
abbrev Arr1 (n : Nat) := (⟨1, ![n]⟩ : Shape).Idx → EReal

/-- One dense layer applied to one row: `q ↦ (∑ k, r k * w (k, q)) + b q`. -/
def lin {K M : Nat} (w : Arr2 K M) (b : Arr1 M) (r : Fin K → EReal) : Fin M → EReal :=
  fun q => (∑ k : Fin K, r k * w (ix2 k q)) + b (ix1 q)

/-- The rectifier on one row. -/
def relu {M : Nat} (r : Fin M → EReal) : Fin M → EReal := fun q => max (r q) 0

/-- The seventeen parameter arrays. -/
structure Params where
  w1 : Arr2 512 500
  b1 : Arr1 500
  w2 : Arr2 500 500
  b2 : Arr1 500
  w3 : Arr2 500 2000
  b3 : Arr1 2000
  wz : Arr2 2000 10
  bz : Arr1 10
  wd1 : Arr2 10 2000
  bd1 : Arr1 2000
  wd2 : Arr2 2000 500
  bd2 : Arr1 500
  wd3 : Arr2 500 500
  bd3 : Arr1 500
  wx : Arr2 500 512
  bx : Arr1 512
  c : Arr2 10 10

/-- The encoder on one row: the code `z`. -/
def encRow (P : Params) (r : Fin 512 → EReal) : Fin 10 → EReal :=
  lin P.wz P.bz (relu (lin P.w3 P.b3 (relu (lin P.w2 P.b2 (relu (lin P.w1 P.b1 r))))))

/-- The decoder on one code: the reconstructed row. -/
def decRow (P : Params) (z : Fin 10 → EReal) : Fin 512 → EReal :=
  lin P.wx P.bx (relu (lin P.wd3 P.bd3 (relu (lin P.wd2 P.bd2 (relu (lin P.wd1 P.bd1 z))))))

/-- The squared distance of a code to centre `j`, as a sum of squared differences. -/
def dist2 (c : Arr2 10 10) (z : Fin 10 → EReal) (j : Fin 10) : EReal :=
  ∑ k : Fin 10, (z k - c (ix2 j k)) * (z k - c (ix2 j k))

/-- The same squared distance expanded: `|z|² - 2 z·c_j + |c_j|²`. -/
def dist2Exp (c : Arr2 10 10) (z : Fin 10 → EReal) (j : Fin 10) : EReal :=
  ((∑ k : Fin 10, z k * z k) - 2 * ∑ k : Fin 10, z k * c (ix2 j k)) + ∑ k : Fin 10, c (ix2 j k) * c (ix2 j k)

/-- Student's t kernel from a squared distance. -/
def tker (d : EReal) : EReal := Ideal.div 1 (1 + d)

/-- The soft assignment from the ten squared distances: the kernel normalised over the centres. -/
def softOf (d : Fin 10 → EReal) (j : Fin 10) : EReal :=
  Ideal.div (tker (d j)) (∑ j' : Fin 10, tker (d j'))

/-- The soft assignment of a code to the centres. -/
def softRow (c : Arr2 10 10) (z : Fin 10 → EReal) : Fin 10 → EReal := softOf (dist2 c z)

/-- Row `r` of a matrix as a function of the column. -/
abbrev row {n m : Nat} (x : Arr2 n m) (r : Fin n) : Fin m → EReal := fun k => x (ix2 r k)

/-- The code array: row `r` is the encoder on row `r` of `x`. -/
def Gz (P : Params) (x : Arr2 10000 512) : Arr2 10000 10 :=
  fun j => encRow P (row x (j 0)) (j 1)

/-- The reconstruction array. -/
def Gx (P : Params) (x : Arr2 10000 512) : Arr2 10000 512 :=
  fun j => decRow P (encRow P (row x (j 0))) (j 1)

/-- The soft-assignment array. -/
def Gq (P : Params) (x : Arr2 10000 512) : Arr2 10000 10 :=
  fun j => softRow P.c (encRow P (row x (j 0))) (j 1)

theorem Gz_apply (P : Params) (x : Arr2 10000 512) (r : Fin 10000) (q : Fin 10) :
    Gz P x (ix2 r q) = encRow P (row x r) q := rfl

theorem Gx_apply (P : Params) (x : Arr2 10000 512) (r : Fin 10000) (q : Fin 512) :
    Gx P x (ix2 r q) = decRow P (encRow P (row x r)) q := rfl

theorem Gq_apply (P : Params) (x : Arr2 10000 512) (r : Fin 10000) (q : Fin 10) :
    Gq P x (ix2 r q) = softRow P.c (encRow P (row x r)) q := rfl

/-! ## The three float words the programs spell, as extended reals -/

/-- The word of `1.0` denotes `1`. -/
theorem ofBits_one : Ideal.ofBits .f32 0x3F800000#32 = 1 := by
  simp [Ideal.ofBits, Ideal.ieee, -EReal.coe_mul]; norm_num

/-- The word of `2.0` denotes `2`. -/
theorem ofBits_two : Ideal.ofBits .f32 0x40000000#32 = 2 := by
  simp [Ideal.ofBits, Ideal.ieee, -EReal.coe_mul]; norm_num
  first | rfl | norm_cast

/-- Division by one is the identity on every extended real. -/
theorem div_one' (x : EReal) : Ideal.div x 1 = x := by
  have h := Ideal.div_coe (y := 1) one_ne_zero x
  simpa using h

/-- Raising to the power one is the identity on every extended real. -/
theorem pow_one' (x : EReal) : Ideal.pow x 1 = x := by
  induction x using EReal.rec with
  | bot => rfl
  | top => simp [Ideal.pow_top]
  | coe r =>
    have : (1 : EReal) = ((1 : ℝ) : EReal) := rfl
    rw [this, Ideal.pow_coe_coe]
    exact congrArg _ (Real.rpow_one r)

end Cert.Net

end
-- ==== Proof.KLayers.lean ====
/-
  The kernel's layers on one 400-row piece of a block, read at an index on the extended reals.

  A matrix product into the zero accumulator is, at (p, c), the sum over k of x (p, k) * w (k, c); adding the
  bias row broadcast down the rows gives one dense layer of the network on row p; the rectifier is the
  maximum with the zero word. The squared distances to the centres are computed in the expanded form
  |z|² - 2 z·c_j + |c_j|², the row sums being lane reductions and the cross term a product with the
  transposed centres.
-/
import proofs.«103175_g68075231642060_cont_9to1_m_421_26_alg».proof.Proof.Gen.KernelIdeal.Skeleton
import proofs.«103175_g68075231642060_cont_9to1_m_421_26_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KNet

open Cert.KernelIdeal Cert.KernelIdeal.Gen
open Idealize.ShloMosaic Idealize.ShloMosaic.ValueIdx

/-! ## A matrix product read at an index -/

/-- A product of an [n, K] by a [K, M] matrix into the zero accumulator, at (p, c): `∑ k, x (p, k) * w (k, c)`.
    The four hypotheses say which operand coordinates the product's dimension numbers pick. -/
theorem mm_apply {n K M : Nat} (d : DotDims (⟨2, ![n, K]⟩ : Shape) ⟨2, ![K, M]⟩ ⟨2, ![n, M]⟩)
    (hr : d.contr.rank = 1) (hs : d.contr.size ⟨0, by omega⟩ = K)
    (hl0 : ∀ i q, (d.lhsIdx i q ⟨0, Nat.zero_lt_two⟩).val = (i ⟨0, Nat.zero_lt_two⟩).val)
    (hl1 : ∀ i q, (d.lhsIdx i q ⟨1, Nat.one_lt_two⟩).val = (q ⟨0, by omega⟩).val)
    (hr0 : ∀ i q, (d.rhsIdx i q ⟨0, Nat.zero_lt_two⟩).val = (q ⟨0, by omega⟩).val)
    (hr1 : ∀ i q, (d.rhsIdx i q ⟨1, Nat.one_lt_two⟩).val = (i ⟨1, Nat.one_lt_two⟩).val)
    (x : FVec Ideal (⟨2, ![n, K]⟩ : Shape) .f32) (w : FVec Ideal (⟨2, ![K, M]⟩ : Shape) .f32) (p : Fin n) (c : Fin M) :
    matmul d none x w (constant (F := Ideal) ⟨2, ![n, M]⟩ .f32 0x00000000#32) (ix2 p c)
      = ∑ k : Fin K, x (ix2 p k) * w (ix2 k c) := by
  show FloatOps.matmul d none x w (constant (F := Ideal) ⟨2, ![n, M]⟩ .f32 0x00000000#32) (ix2 p c) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The coordinate facts of a product that contracts the left operand's axis 1 with the right operand's axis 0. -/
macro "dot_facts" : tactic => `(tactic| (
  first
  | (intro i q; unfold DotDims.lhsIdx; rw [dif_neg (by decide), dif_pos (by decide)]; rfl)
  | (intro i q; unfold DotDims.rhsIdx; rw [dif_neg (by decide), dif_pos (by decide)]; rfl)
  | (intro i q; exact DotDims.lhsIdx_val_of_single _ rfl i q)
  | (intro i q; exact DotDims.rhsIdx_val_of_single _ rfl i q)))

theorem mm1 (x : FVec Ideal S400x512 .f32) (w : FVec Ideal S512x500 .f32) (p : Fin 400) (c : Fin 500) :
    matmul dot_S400x512_S512x500_S400x500_1_0_0_1_n_n none x w (constant (F := Ideal) S400x500 .f32 0x00000000#32) (ix2 p c)
      = ∑ k : Fin 512, x (ix2 p k) * w (ix2 k c) :=
  mm_apply dot_S400x512_S512x500_S400x500_1_0_0_1_n_n rfl rfl (by dot_facts) (by dot_facts) (by dot_facts) (by dot_facts) x w p c

/-! ## Dense layers and the rectifier on a 400-row piece -/

section Defs
variable {F : FTy → Type} [FloatOps F]

/-- A dense layer on a piece: the product with the weights into the zero accumulator, plus the bias row
    broadcast down the rows. -/
def dense {K M : Nat} (d : DotDims (⟨2, ![400, K]⟩ : Shape) ⟨2, ![K, M]⟩ ⟨2, ![400, M]⟩)
    (hc : (⟨2, ![1, M]⟩ : Shape).ShapeCasts ⟨2, ![1, M]⟩) (hb : (⟨2, ![1, M]⟩ : Shape).Broadcasts ⟨2, ![400, M]⟩)
    (x : FVec F (⟨2, ![400, K]⟩ : Shape) .f32) (w : FVec F (⟨2, ![K, M]⟩ : Shape) .f32) (b : FVec F (⟨2, ![1, M]⟩ : Shape) .f32) :
    FVec F (⟨2, ![400, M]⟩ : Shape) .f32 :=
  addf (matmul d none x w (constant ⟨2, ![400, M]⟩ .f32 0x00000000#32)) (broadcastTo ⟨2, ![400, M]⟩ (shapeCast ⟨2, ![1, M]⟩ b hc) hb)

/-- The rectifier on a vector: the maximum with the zero word. -/
def reluV (S : Shape) (v : FVec F S .f32) : FVec F S .f32 :=
  maximumf v (broadcast S (Scalar.ofBits .f32 0x00000000#32))

end Defs

/-- Row `p` of a piece as a function of the column. -/
abbrev rowOf {n m : Nat} (v : (⟨2, ![n, m]⟩ : Shape).Idx → EReal) (p : Fin n) : Fin m → EReal := fun k => v (ix2 p k)

theorem reluV_apply (S : Shape) (v : FVec Ideal S .f32) (i : S.Idx) : reluV S v i = max (v i) 0 := by
  show max (v i) (Ideal.ofBits .f32 0x00000000#32) = _
  rw [Ideal.ofBits_zero_f32]

/-- A dense layer read on row `p`: the network's layer on that row. The bias block `b` is a [1, M] copy of the
    bias vector `b1`. -/
theorem dense_row {K M : Nat} (d : DotDims (⟨2, ![400, K]⟩ : Shape) ⟨2, ![K, M]⟩ ⟨2, ![400, M]⟩)
    (hr : d.contr.rank = 1) (hs : d.contr.size ⟨0, by omega⟩ = K)
    (hl0 : ∀ i q, (d.lhsIdx i q ⟨0, Nat.zero_lt_two⟩).val = (i ⟨0, Nat.zero_lt_two⟩).val)
    (hl1 : ∀ i q, (d.lhsIdx i q ⟨1, Nat.one_lt_two⟩).val = (q ⟨0, by omega⟩).val)
    (hr0 : ∀ i q, (d.rhsIdx i q ⟨0, Nat.zero_lt_two⟩).val = (q ⟨0, by omega⟩).val)
    (hr1 : ∀ i q, (d.rhsIdx i q ⟨1, Nat.one_lt_two⟩).val = (i ⟨1, Nat.one_lt_two⟩).val)
    (hc : (⟨2, ![1, M]⟩ : Shape).ShapeCasts ⟨2, ![1, M]⟩) (hb : (⟨2, ![1, M]⟩ : Shape).Broadcasts ⟨2, ![400, M]⟩)
    (x : FVec Ideal (⟨2, ![400, K]⟩ : Shape) .f32) (w : FVec Ideal (⟨2, ![K, M]⟩ : Shape) .f32) (b : FVec Ideal (⟨2, ![1, M]⟩ : Shape) .f32)
    (b1 : Net.Arr1 M) (hb1 : ∀ q : Fin M, b (ix2 (0 : Fin 1) q) = b1 (ix1 q)) (p : Fin 400) :
    rowOf (dense d hc hb x w b) p = Net.lin w b1 (rowOf x p) := by
  funext q
  show addf (matmul d none x w (constant (F := Ideal) ⟨2, ![400, M]⟩ .f32 0x00000000#32)) (broadcastTo ⟨2, ![400, M]⟩ (shapeCast ⟨2, ![1, M]⟩ b hc) hb) (ix2 p q) = _
  rw [addf_apply, mm_apply d hr hs hl0 hl1 hr0 hr1, shapeCast_self, broadcastTo_1b_ab_apply, hb1]
  rfl

/-- A rectified vector read on row `p`. -/
theorem reluV_row {m : Nat} (v : FVec Ideal (⟨2, ![400, m]⟩ : Shape) .f32) (p : Fin 400) :
    rowOf (reluV ⟨2, ![400, m]⟩ v) p = Net.relu (rowOf v p) := by
  funext q
  exact reluV_apply _ v _

/-! ## The encoder and the decoder on a piece -/

section Chains
variable {F : FTy → Type} [FloatOps F]

/-- The encoder on a 400-row piece: three rectified dense layers and a plain one. -/
def encK (x : FVec F S400x512 .f32) (w1 : FVec F S512x500 .f32) (b1 : FVec F S1x500 .f32) (w2 : FVec F S500x500 .f32) (b2 : FVec F S1x500 .f32)
    (w3 : FVec F S500x2000 .f32) (b3 : FVec F S1x2000 .f32) (wz : FVec F S2000x10 .f32) (bz : FVec F S1x10 .f32) : FVec F S400x10 .f32 :=
  dense dot_S400x2000_S2000x10_S400x10_1_0_0_1_n_n shapeCasts_S1x10_S1x10 broadcasts_S1x10_S400x10 (reluV S400x2000 (dense dot_S400x500_S500x2000_S400x2000_1_0_0_1_n_n shapeCasts_S1x2000_S1x2000 broadcasts_S1x2000_S400x2000 (reluV S400x500 (dense dot_S400x500_S500x500_S400x500_1_0_0_1_n_n shapeCasts_S1x500_S1x500 broadcasts_S1x500_S400x500 (reluV S400x500 (dense dot_S400x512_S512x500_S400x500_1_0_0_1_n_n shapeCasts_S1x500_S1x500 broadcasts_S1x500_S400x500 x w1 b1)) w2 b2)) w3 b3)) wz bz

/-- The decoder on a 400-row piece of codes. -/
def decK (z : FVec F S400x10 .f32) (wd1 : FVec F S10x2000 .f32) (bd1 : FVec F S1x2000 .f32) (wd2 : FVec F S2000x500 .f32) (bd2 : FVec F S1x500 .f32)
    (wd3 : FVec F S500x500 .f32) (bd3 : FVec F S1x500 .f32) (wx : FVec F S500x512 .f32) (bx : FVec F S1x512 .f32) : FVec F S400x512 .f32 :=
  dense dot_S400x500_S500x512_S400x512_1_0_0_1_n_n shapeCasts_S1x512_S1x512 broadcasts_S1x512_S400x512 (reluV S400x500 (dense dot_S400x500_S500x500_S400x500_1_0_0_1_n_n shapeCasts_S1x500_S1x500 broadcasts_S1x500_S400x500 (reluV S400x500 (dense dot_S400x2000_S2000x500_S400x500_1_0_0_1_n_n shapeCasts_S1x500_S1x500 broadcasts_S1x500_S400x500 (reluV S400x2000 (dense dot_S400x10_S10x2000_S400x2000_1_0_0_1_n_n shapeCasts_S1x2000_S1x2000 broadcasts_S1x2000_S400x2000 z wd1 bd1)) wd2 bd2)) wd3 bd3)) wx bx

end Chains

/-- The encoder on row `p` of a piece is the network's encoder on that row. Each bias block is a [1, M] copy of
    its bias vector. -/
theorem encK_row (x : FVec Ideal S400x512 .f32) (w1 : FVec Ideal S512x500 .f32) (b1 : FVec Ideal S1x500 .f32) (w2 : FVec Ideal S500x500 .f32) (b2 : FVec Ideal S1x500 .f32)
    (w3 : FVec Ideal S500x2000 .f32) (b3 : FVec Ideal S1x2000 .f32) (wz : FVec Ideal S2000x10 .f32) (bz : FVec Ideal S1x10 .f32)
    (c1 : Net.Arr1 500) (c2 : Net.Arr1 500) (c3 : Net.Arr1 2000) (cz : Net.Arr1 10)
    (h1 : ∀ q : Fin 500, b1 (ix2 (0 : Fin 1) q) = c1 (ix1 q)) (h2 : ∀ q : Fin 500, b2 (ix2 (0 : Fin 1) q) = c2 (ix1 q))
    (h3 : ∀ q : Fin 2000, b3 (ix2 (0 : Fin 1) q) = c3 (ix1 q)) (hz : ∀ q : Fin 10, bz (ix2 (0 : Fin 1) q) = cz (ix1 q)) (p : Fin 400) :
    rowOf (encK x w1 b1 w2 b2 w3 b3 wz bz) p
      = Net.lin wz cz (Net.relu (Net.lin w3 c3 (Net.relu (Net.lin w2 c2 (Net.relu (Net.lin w1 c1 (rowOf x p))))))) := by
  unfold encK
  rw [dense_row dot_S400x2000_S2000x10_S400x10_1_0_0_1_n_n rfl rfl (by dot_facts) (by dot_facts) (by dot_facts) (by dot_facts) shapeCasts_S1x10_S1x10 broadcasts_S1x10_S400x10 _ wz bz cz hz p, reluV_row,
    dense_row dot_S400x500_S500x2000_S400x2000_1_0_0_1_n_n rfl rfl (by dot_facts) (by dot_facts) (by dot_facts) (by dot_facts) shapeCasts_S1x2000_S1x2000 broadcasts_S1x2000_S400x2000 _ w3 b3 c3 h3 p, reluV_row,
    dense_row dot_S400x500_S500x500_S400x500_1_0_0_1_n_n rfl rfl (by dot_facts) (by dot_facts) (by dot_facts) (by dot_facts) shapeCasts_S1x500_S1x500 broadcasts_S1x500_S400x500 _ w2 b2 c2 h2 p, reluV_row,
    dense_row dot_S400x512_S512x500_S400x500_1_0_0_1_n_n rfl rfl (by dot_facts) (by dot_facts) (by dot_facts) (by dot_facts) shapeCasts_S1x500_S1x500 broadcasts_S1x500_S400x500 x w1 b1 c1 h1 p]

/-- The decoder on row `p` of a piece of codes is the network's decoder on that row. -/
theorem decK_row (z : FVec Ideal S400x10 .f32) (wd1 : FVec Ideal S10x2000 .f32) (bd1 : FVec Ideal S1x2000 .f32) (wd2 : FVec Ideal S2000x500 .f32) (bd2 : FVec Ideal S1x500 .f32)
    (wd3 : FVec Ideal S500x500 .f32) (bd3 : FVec Ideal S1x500 .f32) (wx : FVec Ideal S500x512 .f32) (bx : FVec Ideal S1x512 .f32)
    (c1 : Net.Arr1 2000) (c2 : Net.Arr1 500) (c3 : Net.Arr1 500) (cx : Net.Arr1 512)
    (h1 : ∀ q : Fin 2000, bd1 (ix2 (0 : Fin 1) q) = c1 (ix1 q)) (h2 : ∀ q : Fin 500, bd2 (ix2 (0 : Fin 1) q) = c2 (ix1 q))
    (h3 : ∀ q : Fin 500, bd3 (ix2 (0 : Fin 1) q) = c3 (ix1 q)) (hx : ∀ q : Fin 512, bx (ix2 (0 : Fin 1) q) = cx (ix1 q)) (p : Fin 400) :
    rowOf (decK z wd1 bd1 wd2 bd2 wd3 bd3 wx bx) p
      = Net.lin wx cx (Net.relu (Net.lin wd3 c3 (Net.relu (Net.lin wd2 c2 (Net.relu (Net.lin wd1 c1 (rowOf z p))))))) := by
  unfold decK
  rw [dense_row dot_S400x500_S500x512_S400x512_1_0_0_1_n_n rfl rfl (by dot_facts) (by dot_facts) (by dot_facts) (by dot_facts) shapeCasts_S1x512_S1x512 broadcasts_S1x512_S400x512 _ wx bx cx hx p, reluV_row,
    dense_row dot_S400x500_S500x500_S400x500_1_0_0_1_n_n rfl rfl (by dot_facts) (by dot_facts) (by dot_facts) (by dot_facts) shapeCasts_S1x500_S1x500 broadcasts_S1x500_S400x500 _ wd3 bd3 c3 h3 p, reluV_row,
    dense_row dot_S400x2000_S2000x500_S400x500_1_0_0_1_n_n rfl rfl (by dot_facts) (by dot_facts) (by dot_facts) (by dot_facts) shapeCasts_S1x500_S1x500 broadcasts_S1x500_S400x500 _ wd2 bd2 c2 h2 p, reluV_row,
    dense_row dot_S400x10_S10x2000_S400x2000_1_0_0_1_n_n rfl rfl (by dot_facts) (by dot_facts) (by dot_facts) (by dot_facts) shapeCasts_S1x2000_S1x2000 broadcasts_S1x2000_S400x2000 z wd1 bd1 c1 h1 p]

end Cert.KernelIdeal.KNet

end
-- ==== Proof.KPieces.lean ====
/-
  The body computes each of the five 400-row pieces of a block by the same chain of layers, cut at different
  places: every piece's code is the encoder of its rows and every piece's reconstruction the decoder of its code.
-/
import proofs.«103175_g68075231642060_cont_9to1_m_421_26_alg».proof.Proof.KLayers

noncomputable section

namespace Cert.KernelIdeal.KNet

open Cert.KernelIdeal Cert.KernelIdeal.Gen Idealize.ShloMosaic Idealize.ShloMosaic.ValueIdx

variable {F : FTy → Type} [FloatOps F]

section Enc
variable (x : Vec F S400x512 .f32) (w1 : Vec F S512x500 .f32) (b1 : Vec F S1x500 .f32) (w2 : Vec F S500x500 .f32) (b2 : Vec F S1x500 .f32)
  (w3 : Vec F S500x2000 .f32) (b3 : Vec F S1x2000 .f32) (wz : Vec F S2000x10 .f32) (bz : Vec F S1x10 .f32)

/-- Piece 1's code. -/
theorem enc_cut1 : k0_pay8 (k0_pay3 x w1 b1 w2 b2) w3 b3 wz bz = encK x w1 b1 w2 b2 w3 b3 wz bz := rfl
/-- Piece 2's code. -/
theorem enc_cut2 : k0_pay16 (k0_pay9 (k0_pay6 (k0_pay4 x w1) (k0_pay5 b1) w2 b2) w3 b3) wz bz = encK x w1 b1 w2 b2 w3 b3 wz bz := rfl
/-- Piece 3's code. -/
theorem enc_cut3 : k0_pay26 (k0_pay17 (k0_pay10 (k0_pay7 x w1 b1) w2 b2) w3 b3) wz bz = encK x w1 b1 w2 b2 w3 b3 wz bz := rfl
/-- Piece 4's code. -/
theorem enc_cut4 : k0_pay33 (k0_pay27 (k0_pay19 (k0_pay18 (k0_pay11 x w1 b1) w2) b2) w3 b3) wz bz = encK x w1 b1 w2 b2 w3 b3 wz bz := rfl
/-- Piece 5's code. -/
theorem enc_cut5 : k0_pay40 (k0_pay34 (k0_pay28 (k0_pay20 x w1 b1) w2 b2) w3 b3) wz bz = encK x w1 b1 w2 b2 w3 b3 wz bz := rfl
end Enc

section Dec
variable (z : FVec F S400x10 .f32) (wd1 : Vec F S10x2000 .f32) (bd1 : Vec F S1x2000 .f32) (wd2 : Vec F S2000x500 .f32) (bd2 : Vec F S1x500 .f32)
  (wd3 : Vec F S500x500 .f32) (bd3 : Vec F S1x500 .f32) (wx : Vec F S500x512 .f32) (bx : Vec F S1x512 .f32)

/-- Piece 1's reconstruction. -/
theorem dec_cut1 : k0_pay35 (k0_pay29 (k0_pay21 (k0_pay15 z wd1 bd1) wd2 bd2) wd3 bd3) wx bx = decK z wd1 bd1 wd2 bd2 wd3 bd3 wx bx := rfl
/-- Piece 2's reconstruction. -/
theorem dec_cut2 : k0_pay41 (k0_pay37 (k0_pay36 (k0_pay30 (k0_pay25 z wd1 bd1) wd2 bd2) wd3) bd3) wx bx = decK z wd1 bd1 wd2 bd2 wd3 bd3 wx bx := rfl
/-- Piece 3's reconstruction. -/
theorem dec_cut3 : k0_pay50 (k0_pay48 (k0_pay42 (k0_pay38 (k0_pay32 z wd1 bd1) wd2 bd2) wd3 bd3) wx) (k0_pay49 bx) = decK z wd1 bd1 wd2 bd2 wd3 bd3 wx bx := rfl
/-- Piece 4's reconstruction. -/
theorem dec_cut4 : k0_pay51 (k0_pay45 (k0_pay43 z wd1 (constant S400x2000 .f32 0x00000000#32) bd1 wd2) (k0_pay44 bd2)) wd3 bd3 wx bx = decK z wd1 bd1 wd2 bd2 wd3 bd3 wx bx := rfl
/-- Piece 5's reconstruction. -/
theorem dec_cut5 : k0_pay1 (k0_pay52 (k0_pay47 z wd1 bd1) wd2 bd2 wd3 bd3) wx bx = decK z wd1 bd1 wd2 bd2 wd3 bd3 wx bx := rfl
end Dec

end Cert.KernelIdeal.KNet

end
-- ==== Proof.KRows.lean ====
/-
  A piece's rows through the encoder and the decoder, stated against the network's parameters: when each weight
  block is the parameter matrix and each bias block is a [1, M] copy of the parameter vector, row p of a piece's
  code is the network's code of row p of the piece, and row p of its reconstruction the network's
  reconstruction of that code.
-/
import proofs.«103175_g68075231642060_cont_9to1_m_421_26_alg».proof.Proof.KLayers

noncomputable section

namespace Cert.KernelIdeal.KNet

open Cert.KernelIdeal Cert.KernelIdeal.Gen Idealize.ShloMosaic Idealize.ShloMosaic.ValueIdx

/-- Row p of a piece's code. -/
theorem enc_rows (P : Net.Params) (xs : FVec Ideal S400x512 .f32)
    (w1 : FVec Ideal S512x500 .f32) (b1 : FVec Ideal S1x500 .f32) (w2 : FVec Ideal S500x500 .f32) (b2 : FVec Ideal S1x500 .f32)
    (w3 : FVec Ideal S500x2000 .f32) (b3 : FVec Ideal S1x2000 .f32) (wz : FVec Ideal S2000x10 .f32) (bz : FVec Ideal S1x10 .f32)
    (hw1 : w1 = P.w1) (hb1 : ∀ q : Fin 500, b1 (ix2 (0 : Fin 1) q) = P.b1 (ix1 q))
    (hw2 : w2 = P.w2) (hb2 : ∀ q : Fin 500, b2 (ix2 (0 : Fin 1) q) = P.b2 (ix1 q))
    (hw3 : w3 = P.w3) (hb3 : ∀ q : Fin 2000, b3 (ix2 (0 : Fin 1) q) = P.b3 (ix1 q))
    (hwz : wz = P.wz) (hbz : ∀ q : Fin 10, bz (ix2 (0 : Fin 1) q) = P.bz (ix1 q))
    (p : Fin 400) (r : Fin 512 → EReal) (hx : rowOf xs p = r) :
    rowOf (encK xs w1 b1 w2 b2 w3 b3 wz bz) p = Net.encRow P r := by
  subst hw1 hw2 hw3 hwz hx
  exact encK_row xs _ b1 _ b2 _ b3 _ bz P.b1 P.b2 P.b3 P.bz hb1 hb2 hb3 hbz p

/-- Row p of a piece's reconstruction, from row p of its code. -/
theorem dec_rows (P : Net.Params) (z : FVec Ideal S400x10 .f32)
    (wd1 : FVec Ideal S10x2000 .f32) (bd1 : FVec Ideal S1x2000 .f32) (wd2 : FVec Ideal S2000x500 .f32) (bd2 : FVec Ideal S1x500 .f32)
    (wd3 : FVec Ideal S500x500 .f32) (bd3 : FVec Ideal S1x500 .f32) (wx : FVec Ideal S500x512 .f32) (bx : FVec Ideal S1x512 .f32)
    (hw1 : wd1 = P.wd1) (hb1 : ∀ q : Fin 2000, bd1 (ix2 (0 : Fin 1) q) = P.bd1 (ix1 q))
    (hw2 : wd2 = P.wd2) (hb2 : ∀ q : Fin 500, bd2 (ix2 (0 : Fin 1) q) = P.bd2 (ix1 q))
    (hw3 : wd3 = P.wd3) (hb3 : ∀ q : Fin 500, bd3 (ix2 (0 : Fin 1) q) = P.bd3 (ix1 q))
    (hwx : wx = P.wx) (hbx : ∀ q : Fin 512, bx (ix2 (0 : Fin 1) q) = P.bx (ix1 q))
    (p : Fin 400) (r : Fin 10 → EReal) (hz : rowOf z p = r) :
    rowOf (decK z wd1 bd1 wd2 bd2 wd3 bd3 wx bx) p = Net.decRow P r := by
  subst hw1 hw2 hw3 hwx hz
  exact decK_row z _ bd1 _ bd2 _ bd3 _ bx P.bd1 P.bd2 P.bd3 P.bx hb1 hb2 hb3 hbx p

end Cert.KernelIdeal.KNet

end
-- ==== Proof.FivePieces.lean ====
/-
  A [2000, M] buffer written by five stores of 400 rows each, at row offsets 0, 400, 800, 1200 and 1600. When the
  payload of the store at offset o is, at (p, q), one function G of the buffer's index at (o + p, q), the buffer
  holds G at every index a store covers.
-/
import Idealize.ShloMosaic.Lib.Pipeline.Value
import Idealize.ShloMosaic.Lib.ValueIdx

noncomputable section

namespace Cert.FivePieces

open Idealize.ShloMosaic Idealize.ShloMosaic.ValueIdx

/-- The rows [o, o + 400) of a [2000, M] buffer. -/
abbrev rows {M : Nat} (o : Nat) (inb : ∀ a, (![o, 0] : Fin 2 → Nat) a + (![400, M] : Fin 2 → Nat) a ≤ (⟨2, ![2000, M]⟩ : Shape).size a) :
    Rect (⟨2, ![2000, M]⟩ : Shape) := Rect.unit (s := ⟨2, ![2000, M]⟩) ![o, 0] ![400, M] inb

/-- A store to those rows whose payload at (p, q) is G at (o + p, q) agrees with G through the rectangle. -/
theorem piece_ok {M : Nat} (o : Nat) (inb : ∀ a, (![o, 0] : Fin 2 → Nat) a + (![400, M] : Fin 2 → Nat) a ≤ (⟨2, ![2000, M]⟩ : Shape).size a)
    (ho : o + 400 ≤ 2000)
    (w : (⟨2, ![400, M]⟩ : Shape).Idx → Elt Ideal .f32) (G : (⟨2, ![2000, M]⟩ : Shape).Idx → Elt Ideal .f32)
    (h : ∀ (p : Fin 400) (q : Fin M), w (ix2 p q) = G (ix2 ⟨o + p.val, by have := p.isLt; omega⟩ q))
    (x : (⟨2, ![400, M]⟩ : Shape).Idx) : w x = G ((rows o inb).emb x) := by
  obtain ⟨p, q, rfl⟩ : ∃ (p : Fin 400) (q : Fin M), x = ix2 p q := ⟨x 0, x 1, eq_ix2 x⟩
  rw [h]
  refine congrArg G (funext fun a => Fin.ext ?_)
  match a with
  | ⟨0, _⟩ => show o + p.val = o + 1 * p.val; omega
  | ⟨1, _⟩ => show q.val = 0 + 1 * q.val; omega

/-- The buffer after the five stores (listed last store first) holds G wherever a store covers. -/
theorem canon5 {M : Nat}
    (inb1 : ∀ a, (![0, 0] : Fin 2 → Nat) a + (![400, M] : Fin 2 → Nat) a ≤ (⟨2, ![2000, M]⟩ : Shape).size a)
    (inb2 : ∀ a, (![400, 0] : Fin 2 → Nat) a + (![400, M] : Fin 2 → Nat) a ≤ (⟨2, ![2000, M]⟩ : Shape).size a)
    (inb3 : ∀ a, (![800, 0] : Fin 2 → Nat) a + (![400, M] : Fin 2 → Nat) a ≤ (⟨2, ![2000, M]⟩ : Shape).size a)
    (inb4 : ∀ a, (![1200, 0] : Fin 2 → Nat) a + (![400, M] : Fin 2 → Nat) a ≤ (⟨2, ![2000, M]⟩ : Shape).size a)
    (inb5 : ∀ a, (![1600, 0] : Fin 2 → Nat) a + (![400, M] : Fin 2 → Nat) a ≤ (⟨2, ![2000, M]⟩ : Shape).size a)
    (w1 w2 w3 w4 w5 : (⟨2, ![400, M]⟩ : Shape).Idx → Elt Ideal .f32) (G : (⟨2, ![2000, M]⟩ : Shape).Idx → Elt Ideal .f32)
    (h1 : ∀ (p : Fin 400) (q : Fin M), w1 (ix2 p q) = G (ix2 ⟨0 + p.val, by have := p.isLt; omega⟩ q))
    (h2 : ∀ (p : Fin 400) (q : Fin M), w2 (ix2 p q) = G (ix2 ⟨400 + p.val, by have := p.isLt; omega⟩ q))
    (h3 : ∀ (p : Fin 400) (q : Fin M), w3 (ix2 p q) = G (ix2 ⟨800 + p.val, by have := p.isLt; omega⟩ q))
    (h4 : ∀ (p : Fin 400) (q : Fin M), w4 (ix2 p q) = G (ix2 ⟨1200 + p.val, by have := p.isLt; omega⟩ q))
    (h5 : ∀ (p : Fin 400) (q : Fin M), w5 (ix2 p q) = G (ix2 ⟨1600 + p.val, by have := p.isLt; omega⟩ q))
    (y : (⟨2, ![2000, M]⟩ : Shape).Idx)
    (hcov : ∃ pc ∈ ([⟨rows 1600 inb5, w5⟩, ⟨rows 1200 inb4, w4⟩, ⟨rows 800 inb3, w3⟩, ⟨rows 400 inb2, w2⟩, ⟨rows 0 inb1, w1⟩] :
      List (View.Piece (Elt Ideal) (⟨2, ![2000, M]⟩ : Shape) .f32)), y ∈ pc.1.set) :
    View.canon ([⟨rows 1600 inb5, w5⟩, ⟨rows 1200 inb4, w4⟩, ⟨rows 800 inb3, w3⟩, ⟨rows 400 inb2, w2⟩, ⟨rows 0 inb1, w1⟩] :
      List (View.Piece (Elt Ideal) (⟨2, ![2000, M]⟩ : Shape) .f32)) y = G y :=
  View.canon_apply_of_pieces G _ (fun pc hpc x => by
    simp only [List.mem_cons, List.not_mem_nil, or_false] at hpc
    rcases hpc with rfl | rfl | rfl | rfl | rfl
    · exact piece_ok 1600 inb5 (by omega) w5 G h5 x
    · exact piece_ok 1200 inb4 (by omega) w4 G h4 x
    · exact piece_ok 800 inb3 (by omega) w3 G h3 x
    · exact piece_ok 400 inb2 (by omega) w2 G h2 x
    · exact piece_ok 0 inb1 (by omega) w1 G h1 x) y hcov

end Cert.FivePieces

end
-- ==== Proof.KSoft.lean ====
/-
  The kernel's soft assignment on a 400-row piece, read on a row.

  The squared distances are computed in the expanded form |z|² - 2 z·c_j + |c_j|²: the two squared norms are lane
  sums, kept as a column and a row and broadcast back, and the cross term is a product with the transposed centres.
  Student's kernel 1 / (1 + d) of them is then divided by its own lane sum. Read at row p and lane j, every lane sum
  is a sum over the ten lanes of row p, every broadcast reads the one entry it copies, and the product is the sum
  over k of z (p, k) * c (j, k): the network's soft assignment of row p's code, from the expanded distances.
-/
import proofs.«103175_g68075231642060_cont_9to1_m_421_26_alg».proof.Proof.KLayers

noncomputable section

namespace Cert.KernelIdeal.KNet

open Cert.KernelIdeal Cert.KernelIdeal.Gen
open Idealize.ShloMosaic Idealize.ShloMosaic.ValueIdx

/-! ## Layout operations the distances use, read at an index -/

section Layout
variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum over the lanes of an [n, m] array, read at row p: the sum over the m lanes of that row. -/
theorem laneSum {n m : ℕ} (src : FVec Ideal (⟨2, ![n, m]⟩ : Shape) .f32) (h : (⟨2, ![n, m]⟩ : Shape).Reduces [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin m, src (ix2 p k) :=
  (Ideal.multiReduction_add_single src _ h hφ hacc (ix1 p)).trans
    (Finset.sum_congr rfl fun k _ => congrArg src (funext fun a => Fin.ext (by
      match a with | ⟨0, _⟩ => rfl | ⟨1, _⟩ => rfl)))

/-- The lane sum kept as a column and broadcast back along the lanes reads, at (p, j), the sum over row p. -/
theorem laneSumKept {n m : ℕ} (src : FVec Ideal (⟨2, ![n, m]⟩ : Shape) .f32) (h : (⟨2, ![n, m]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, m]⟩) (p : Fin n) (j : Fin m) :
    broadcastTo ⟨2, ![n, m]⟩ (shapeCast ⟨2, ![n, 1]⟩ (multiReduction .add [1] ⟨1, ![n]⟩ src 0x00000000#32 h hφ hacc) hc) hb (ix2 p j)
      = ∑ k : Fin m, src (ix2 p k) :=
  (broadcastTo_a1_ab_apply _ hb p j).trans ((shapeCast_a_a1_apply _ hc p 0).trans (laneSum src h hφ hacc p))

/-! ## The soft assignment on a piece -/

section Defs
variable {F : FTy → Type} [FloatOps F]

/-- Student's kernel of a piece of squared distances: one over one plus the distance. -/
def studentK (d : FVec F S400x10 .f32) : FVec F S400x10 .f32 :=
  divf (broadcast S400x10 (Scalar.ofBits .f32 0x3F800000#32)) (addf (k0_pay13 (F := F)) d)

/-- The soft assignment of a 400-row piece of codes z to the centres c. -/
def softK (c : FVec F S10x10 .f32) (z : FVec F S400x10 .f32) : FVec F S400x10 .f32 :=
  k0_pay14 (k0_pay12 c (k0_pay2 c) z) (k0_pay13 (F := F))

/-- The second piece computes the kernel and its lane sum before the division: the same computation. -/
theorem softK_cut2 (c : FVec F S10x10 .f32) (z : FVec F S400x10 .f32) :
    k0_pay24 (k0_pay22 c (k0_pay2 c) z) (k0_pay23 c (k0_pay2 c) z) = softK c z := rfl

/-- The third piece computes everything in one step: the same computation. -/
theorem softK_cut3 (c : FVec F S10x10 .f32) (z : FVec F S400x10 .f32) :
    k0_pay31 c (k0_pay2 c) z = softK c z := rfl

/-- The fourth piece likewise. -/
theorem softK_cut4 (c : FVec F S10x10 .f32) (z : FVec F S400x10 .f32) :
    k0_pay39 c (k0_pay2 c) z = softK c z := rfl

/-- The fifth piece likewise. -/
theorem softK_cut5 (c : FVec F S10x10 .f32) (z : FVec F S400x10 .f32) :
    k0_pay46 c (k0_pay2 c) z = softK c z := rfl

end Defs

/-- The squared norms of the centres, kept as a row: at lane j, the sum of the squares of centre j. -/
theorem cc_apply (c : FVec Ideal S10x10 .f32) (u : Fin 1) (j : Fin 10) :
    k0_pay2 c (ix2 u j) = ∑ k : Fin 10, c (ix2 j k) * c (ix2 j k) :=
  (shapeCast_a_1a_apply (multiReduction .add [1] S10 (mulf c c) 0x00000000#32 reduces_S10x10_S10 (.inl rfl) rfl)
      shapeCasts_S10_S1x10 u j).trans
    (laneSum (mulf c c) reduces_S10x10_S10 (.inl rfl) rfl j)

/-- The expanded squared distance at (p, j), with the centres' squared norms given as a row cc. -/
theorem dist_apply (c : FVec Ideal S10x10 .f32) (cc : FVec Ideal S1x10 .f32) (z : FVec Ideal S400x10 .f32)
    (p : Fin 400) (j : Fin 10) :
    k0_pay12 c cc z (ix2 p j)
      = ((∑ k : Fin 10, z (ix2 p k) * z (ix2 p k)) - 2 * ∑ k : Fin 10, z (ix2 p k) * c (ix2 j k))
        + cc (ix2 (0 : Fin 1) j) := by
  have e1 : broadcastTo S400x10 (shapeCast S400x1 (multiReduction .add [1] S400 (mulf z z) 0x00000000#32
        reduces_S400x10_S400 (.inl rfl) rfl) shapeCasts_S400_S400x1) broadcasts_S400x1_S400x10 (ix2 p j)
      = ∑ k : Fin 10, z (ix2 p k) * z (ix2 p k) :=
    laneSumKept (mulf z z) reduces_S400x10_S400 (.inl rfl) rfl shapeCasts_S400_S400x1 broadcasts_S400x1_S400x10 p j
  have e2 : matmul dot_S400x10_S10x10_S400x10_1_0_0_1_n_n none z
        (transpose S10x10 [1, 0] c transposes_S10x10_p1_0_S10x10) (constant (F := Ideal) S400x10 .f32 0x00000000#32) (ix2 p j)
      = ∑ k : Fin 10, z (ix2 p k) * c (ix2 j k) :=
    (mm_apply dot_S400x10_S10x10_S400x10_1_0_0_1_n_n rfl rfl (by dot_facts) (by dot_facts) (by dot_facts) (by dot_facts)
        z (transpose S10x10 [1, 0] c transposes_S10x10_p1_0_S10x10) p j).trans
      (Finset.sum_congr rfl fun k _ =>
        congrArg (fun t => z (ix2 p k) * t) (transpose_ix2_apply c transposes_S10x10_p1_0_S10x10 k j))
  have e3 : broadcastTo S400x10 cc broadcasts_S1x10_S400x10 (ix2 p j) = cc (ix2 (0 : Fin 1) j) :=
    broadcastTo_1b_ab_apply cc broadcasts_S1x10_S400x10 p j
  show (broadcastTo S400x10 (shapeCast S400x1 (multiReduction .add [1] S400 (mulf z z) 0x00000000#32
          reduces_S400x10_S400 (.inl rfl) rfl) shapeCasts_S400_S400x1) broadcasts_S400x1_S400x10 (ix2 p j)
        - Ideal.ofBits .f32 0x40000000#32
          * matmul dot_S400x10_S10x10_S400x10_1_0_0_1_n_n none z
              (transpose S10x10 [1, 0] c transposes_S10x10_p1_0_S10x10) (constant (F := Ideal) S400x10 .f32 0x00000000#32) (ix2 p j))
      + broadcastTo S400x10 cc broadcasts_S1x10_S400x10 (ix2 p j) = _
  rw [e1, e2, e3, Net.ofBits_two]

/-- Student's kernel at an index. -/
theorem studentK_apply (d : FVec Ideal S400x10 .f32) (i : S400x10.Idx) : studentK d i = Net.tker (d i) := by
  show Ideal.div (Ideal.ofBits .f32 0x3F800000#32) (Ideal.ofBits .f32 0x3F800000#32 + d i) = Ideal.div 1 (1 + d i)
  rw [Net.ofBits_one]

/-- The kernel divided by its lane sum, at (p, j). -/
theorem soft_apply (d : FVec Ideal S400x10 .f32) (p : Fin 400) (j : Fin 10) :
    k0_pay14 d (k0_pay13 (F := Ideal)) (ix2 p j)
      = Ideal.div (studentK d (ix2 p j)) (∑ j' : Fin 10, studentK d (ix2 p j')) := by
  show Ideal.div (studentK d (ix2 p j))
      (broadcastTo S400x10 (shapeCast S400x1 (multiReduction .add [1] S400 (studentK d) 0x00000000#32
        reduces_S400x10_S400 (.inl rfl) rfl) shapeCasts_S400_S400x1) broadcasts_S400x1_S400x10 (ix2 p j)) = _
  exact congrArg (Ideal.div (studentK d (ix2 p j)))
    (laneSumKept (studentK d) reduces_S400x10_S400 (.inl rfl) rfl shapeCasts_S400_S400x1 broadcasts_S400x1_S400x10 p j)

/-- The kernel's soft assignment on row p of a piece is the network's, from the expanded squared distances of
    that row's code to the centres. -/
theorem softK_row (c : FVec Ideal S10x10 .f32) (z : FVec Ideal S400x10 .f32) (p : Fin 400) :
    rowOf (softK c z) p = Net.softOf (Net.dist2Exp c (rowOf z p)) := by
  have hd : ∀ j : Fin 10, k0_pay12 c (k0_pay2 c) z (ix2 p j) = Net.dist2Exp c (rowOf z p) j := fun j => by
    rw [dist_apply, cc_apply]; rfl
  have hu : ∀ j : Fin 10, studentK (k0_pay12 c (k0_pay2 c) z) (ix2 p j) = Net.tker (Net.dist2Exp c (rowOf z p) j) :=
    fun j => by rw [studentK_apply, hd]
  funext j
  show k0_pay14 (k0_pay12 c (k0_pay2 c) z) (k0_pay13 (F := Ideal)) (ix2 p j) = _
  rw [soft_apply]
  simp only [hu]
  rfl

end Cert.KernelIdeal.KNet

end
-- ==== Proof.NetReal.lean ====
/-
  Finiteness on the extended reals, and the expanded squared distance.

  An extended real is called real when it is the image of a real number. Real values are closed under
  addition, multiplication, subtraction, negation, maximum and finite sums, so a dense layer and the
  rectifier map rows of real numbers to rows of real numbers whenever the weights and biases are real,
  and with them the whole encoder and decoder. On real values the extended reals' arithmetic is the
  reals', so the squared distance expands as usual: for real `z k` and `c j k`,
  `∑ k, (z k - c j k)² = ∑ k, (z k)² - 2 ∑ k, z k * c j k + ∑ k, (c j k)²`.
  (On the extended reals in general this fails: distributivity breaks at the infinities.)
-/
import proofs.«103175_g68075231642060_cont_9to1_m_421_26_alg».proof.Proof.Net
import Mathlib.Data.EReal.Basic
import Mathlib.Data.EReal.Operations
import Mathlib.Data.EReal.Inv

noncomputable section

namespace Cert.Net

open Idealize.ShloMosaic Idealize.ShloMosaic.ValueIdx

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.max {x y : EReal} (hx : IsReal x) (hy : IsReal y) : IsReal (max x y) := by
  rcases max_choice x y with h | h
  · rw [h]; exact hx
  · rw [h]; exact hy

/-- A real value is neither infinity. -/
theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum over `Fin n` of real values is real. -/
theorem isReal_sum_fin {n : Nat} (f : Fin n → EReal) (h : ∀ k, IsReal (f k)) : IsReal (∑ k : Fin n, f k) :=
  isReal_sum _ _ fun k _ => h k

/-- Every one of the seventeen parameter arrays holds real numbers only. -/
structure Params.Real (P : Params) : Prop where
  w1 : ∀ i, IsReal (P.w1 i)
  b1 : ∀ i, IsReal (P.b1 i)
  w2 : ∀ i, IsReal (P.w2 i)
  b2 : ∀ i, IsReal (P.b2 i)
  w3 : ∀ i, IsReal (P.w3 i)
  b3 : ∀ i, IsReal (P.b3 i)
  wz : ∀ i, IsReal (P.wz i)
  bz : ∀ i, IsReal (P.bz i)
  wd1 : ∀ i, IsReal (P.wd1 i)
  bd1 : ∀ i, IsReal (P.bd1 i)
  wd2 : ∀ i, IsReal (P.wd2 i)
  bd2 : ∀ i, IsReal (P.bd2 i)
  wd3 : ∀ i, IsReal (P.wd3 i)
  bd3 : ∀ i, IsReal (P.bd3 i)
  wx : ∀ i, IsReal (P.wx i)
  bx : ∀ i, IsReal (P.bx i)
  c : ∀ i, IsReal (P.c i)

/-- A dense layer with real weights and biases maps a real row to a real row. -/
theorem lin_real {K M : Nat} (w : Arr2 K M) (b : Arr1 M) (r : Fin K → EReal)
    (hw : ∀ i, IsReal (w i)) (hb : ∀ i, IsReal (b i)) (hr : ∀ k, IsReal (r k)) :
    ∀ q, IsReal (lin w b r q) := by
  intro q
  unfold lin
  exact (isReal_sum_fin _ fun k => (hr k).mul (hw _)).add (hb _)

/-- The rectifier maps a real row to a real row. -/
theorem relu_real {M : Nat} (r : Fin M → EReal) (hr : ∀ k, IsReal (r k)) : ∀ q, IsReal (relu r q) := by
  intro q
  unfold relu
  exact (hr q).max isReal_zero

/-- With real parameters the encoder maps a real row to a real code. -/
theorem encRow_real (P : Params) (hP : P.Real) (r : Fin 512 → EReal) (hr : ∀ k, IsReal (r k)) :
    ∀ q, IsReal (encRow P r q) := by
  unfold encRow
  exact lin_real _ _ _ hP.wz hP.bz (relu_real _ (lin_real _ _ _ hP.w3 hP.b3
    (relu_real _ (lin_real _ _ _ hP.w2 hP.b2 (relu_real _ (lin_real _ _ _ hP.w1 hP.b1 hr))))))

/-- With real parameters the decoder maps a real code to a real row. -/
theorem decRow_real (P : Params) (hP : P.Real) (z : Fin 10 → EReal) (hz : ∀ k, IsReal (z k)) :
    ∀ q, IsReal (decRow P z q) := by
  unfold decRow
  exact lin_real _ _ _ hP.wx hP.bx (relu_real _ (lin_real _ _ _ hP.wd3 hP.bd3
    (relu_real _ (lin_real _ _ _ hP.wd2 hP.bd2 (relu_real _ (lin_real _ _ _ hP.wd1 hP.bd1 hz))))))

/-- The squared distance of a real code to a real centre is real. -/
theorem dist2_real (c : Arr2 10 10) (z : Fin 10 → EReal) (hc : ∀ i, IsReal (c i)) (hz : ∀ k, IsReal (z k))
    (j : Fin 10) : IsReal (dist2 c z j) := by
  unfold dist2
  exact isReal_sum_fin _ fun k => ((hz k).sub (hc _)).mul ((hz k).sub (hc _))

/-- For a real code and real centres the expanded squared distance `|z|² - 2 z·c_j + |c_j|²` is the sum of
    squared differences: both are images of real numbers, and there the identity is the reals'. -/
theorem dist2Exp_eq (c : Arr2 10 10) (z : Fin 10 → EReal) (hc : ∀ i, IsReal (c i)) (hz : ∀ k, IsReal (z k))
    (j : Fin 10) : dist2Exp c z j = dist2 c z j := by
  choose zr hzr using hz
  choose cr hcr using fun k : Fin 10 => hc (ix2 j k)
  have h2 : (2 : EReal) = ((2 : ℝ) : EReal) := rfl
  unfold dist2Exp dist2
  simp only [hzr, hcr, h2]
  simp only [← EReal.coe_mul, ← EReal.coe_sub, ← coe_sum, ← EReal.coe_add]
  refine congrArg _ ?_
  rw [Finset.mul_sum, ← Finset.sum_sub_distrib, ← Finset.sum_add_distrib]
  exact Finset.sum_congr rfl fun k _ => by ring

/-- So the soft assignment computed from the expanded distances is the soft assignment. -/
theorem softRow_exp (c : Arr2 10 10) (z : Fin 10 → EReal) (hc : ∀ i, IsReal (c i)) (hz : ∀ k, IsReal (z k)) :
    softOf (dist2Exp c z) = softRow c z := by
  have h : dist2Exp c z = dist2 c z := funext (dist2Exp_eq c z hc hz)
  rw [softRow, h]

end Cert.Net

end
-- ==== Proof.KOut.lean ====
/-
  What the body leaves in each output block, over arbitrary contents of the eighteen input blocks: when the
  loads of the weight and bias blocks are the network's parameters and the five 400-row pieces of the x block
  hold rows R0 (o + p) of the input array, the block of codes holds at (u, q) the network's code of row R0 u,
  the block of reconstructions its reconstruction, and the block of soft assignments its soft assignment.
-/
import proofs.«103175_g68075231642060_cont_9to1_m_421_26_alg».proof.Proof.Gen.KernelIdeal.Frame
import proofs.«103175_g68075231642060_cont_9to1_m_421_26_alg».proof.Proof.KPieces
import proofs.«103175_g68075231642060_cont_9to1_m_421_26_alg».proof.Proof.KRows
import proofs.«103175_g68075231642060_cont_9to1_m_421_26_alg».proof.Proof.FivePieces
import proofs.«103175_g68075231642060_cont_9to1_m_421_26_alg».proof.Proof.KSoft
import proofs.«103175_g68075231642060_cont_9to1_m_421_26_alg».proof.Proof.NetReal

noncomputable section

namespace Cert.KernelIdeal.KOut

open Cert.KernelIdeal Cert.KernelIdeal.Gen Cert.KernelIdeal.KNet Cert.FivePieces
open Idealize.ShloMosaic Idealize.ShloMosaic.ValueIdx

/-- The loads of the parameter blocks are the network's parameters (a bias block being a [1, M] copy of its vector). -/
structure Loads (P : Net.Params) (x1 : Vec Ideal S512x500 .f32) (x2 : Vec Ideal S1x500 .f32) (x3 : Vec Ideal S500x500 .f32) (x4 : Vec Ideal S1x500 .f32) (x5 : Vec Ideal S500x2000 .f32) (x6 : Vec Ideal S1x2000 .f32) (x7 : Vec Ideal S2000x10 .f32) (x8 : Vec Ideal S1x10 .f32) (x9 : Vec Ideal S10x2000 .f32) (x10 : Vec Ideal S1x2000 .f32) (x11 : Vec Ideal S2000x500 .f32) (x12 : Vec Ideal S1x500 .f32) (x13 : Vec Ideal S500x500 .f32) (x14 : Vec Ideal S1x500 .f32) (x15 : Vec Ideal S500x512 .f32) (x16 : Vec Ideal S1x512 .f32) (x17 : Vec Ideal S10x10 .f32) : Prop where
  w1 : (View.ld x1 r0_6 : FVec Ideal S512x500 .f32) = P.w1
  b1 : ∀ q : Fin 500, (View.ld x2 r0_7 : FVec Ideal S1x500 .f32) (ix2 (0 : Fin 1) q) = P.b1 (ix1 q)
  w2 : (View.ld x3 r0_8 : FVec Ideal S500x500 .f32) = P.w2
  b2 : ∀ q : Fin 500, (View.ld x4 r0_7 : FVec Ideal S1x500 .f32) (ix2 (0 : Fin 1) q) = P.b2 (ix1 q)
  w3 : (View.ld x5 r0_9 : FVec Ideal S500x2000 .f32) = P.w3
  b3 : ∀ q : Fin 2000, (View.ld x6 r0_10 : FVec Ideal S1x2000 .f32) (ix2 (0 : Fin 1) q) = P.b3 (ix1 q)
  wz : (View.ld x7 r0_11 : FVec Ideal S2000x10 .f32) = P.wz
  bz : ∀ q : Fin 10, (View.ld x8 r0_12 : FVec Ideal S1x10 .f32) (ix2 (0 : Fin 1) q) = P.bz (ix1 q)
  wd1 : (View.ld x9 r0_14 : FVec Ideal S10x2000 .f32) = P.wd1
  bd1 : ∀ q : Fin 2000, (View.ld x10 r0_10 : FVec Ideal S1x2000 .f32) (ix2 (0 : Fin 1) q) = P.bd1 (ix1 q)
  wd2 : (View.ld x11 r0_15 : FVec Ideal S2000x500 .f32) = P.wd2
  bd2 : ∀ q : Fin 500, (View.ld x12 r0_7 : FVec Ideal S1x500 .f32) (ix2 (0 : Fin 1) q) = P.bd2 (ix1 q)
  wd3 : (View.ld x13 r0_8 : FVec Ideal S500x500 .f32) = P.wd3
  bd3 : ∀ q : Fin 500, (View.ld x14 r0_7 : FVec Ideal S1x500 .f32) (ix2 (0 : Fin 1) q) = P.bd3 (ix1 q)
  wx : (View.ld x15 r0_18 : FVec Ideal S500x512 .f32) = P.wx
  bx : ∀ q : Fin 512, (View.ld x16 r0_19 : FVec Ideal S1x512 .f32) (ix2 (0 : Fin 1) q) = P.bx (ix1 q)
  c : (View.ld x17 r0_0 : FVec Ideal S10x10 .f32) = P.c

/-- The five pieces of the x block hold rows R0 (o + p) of the input array. -/
structure XRows (X : Net.Arr2 10000 512) (R0 : Fin 2000 → Fin 10000) (x0 : Vec Ideal S2000x512 .f32) : Prop where
  r1 : ∀ p : Fin 400, rowOf (View.ld x0 r0_1 : FVec Ideal S400x512 .f32) p = Net.row X (R0 ⟨0 + p.val, by have := p.isLt; omega⟩)
  r2 : ∀ p : Fin 400, rowOf (View.ld x0 r0_2 : FVec Ideal S400x512 .f32) p = Net.row X (R0 ⟨400 + p.val, by have := p.isLt; omega⟩)
  r3 : ∀ p : Fin 400, rowOf (View.ld x0 r0_3 : FVec Ideal S400x512 .f32) p = Net.row X (R0 ⟨800 + p.val, by have := p.isLt; omega⟩)
  r4 : ∀ p : Fin 400, rowOf (View.ld x0 r0_4 : FVec Ideal S400x512 .f32) p = Net.row X (R0 ⟨1200 + p.val, by have := p.isLt; omega⟩)
  r5 : ∀ p : Fin 400, rowOf (View.ld x0 r0_5 : FVec Ideal S400x512 .f32) p = Net.row X (R0 ⟨1600 + p.val, by have := p.isLt; omega⟩)

variable (P : Net.Params) (X : Net.Arr2 10000 512) (R0 : Fin 2000 → Fin 10000)
variable (x0 : Vec Ideal S2000x512 .f32) (x1 : Vec Ideal S512x500 .f32) (x2 : Vec Ideal S1x500 .f32) (x3 : Vec Ideal S500x500 .f32) (x4 : Vec Ideal S1x500 .f32) (x5 : Vec Ideal S500x2000 .f32) (x6 : Vec Ideal S1x2000 .f32) (x7 : Vec Ideal S2000x10 .f32) (x8 : Vec Ideal S1x10 .f32) (x9 : Vec Ideal S10x2000 .f32) (x10 : Vec Ideal S1x2000 .f32) (x11 : Vec Ideal S2000x500 .f32) (x12 : Vec Ideal S1x500 .f32) (x13 : Vec Ideal S500x500 .f32) (x14 : Vec Ideal S1x500 .f32) (x15 : Vec Ideal S500x512 .f32) (x16 : Vec Ideal S1x512 .f32) (x17 : Vec Ideal S10x10 .f32)

/-- The block of codes. -/
theorem out20_eq (hL : Loads P x1 x2 x3 x4 x5 x6 x7 x8 x9 x10 x11 x12 x13 x14 x15 x16 x17) (hX : XRows X R0 x0) (y : S2000x10.Idx) :
    out0_20 x0 x1 x2 x3 x4 x5 x6 x7 x8 x9 x10 x11 x12 x13 x14 x15 x16 x17 y = (fun y : (⟨2, ![2000, 10]⟩ : Shape).Idx => Net.Gz P X (ix2 (R0 (y 0)) (y 1))) y := by
  unfold out0_20
  refine canon5 (M := 10) _ _ _ _ _ _ _ _ _ _ (fun y : (⟨2, ![2000, 10]⟩ : Shape).Idx => Net.Gz P X (ix2 (R0 (y 0)) (y 1))) ?_ ?_ ?_ ?_ ?_ y (cover0_20 _ _ _ _ _ y)
  · intro p q
    show (encK (F := Ideal) (View.ld x0 r0_1) (View.ld x1 r0_6) (View.ld x2 r0_7) (View.ld x3 r0_8) (View.ld x4 r0_7) (View.ld x5 r0_9) (View.ld x6 r0_10) (View.ld x7 r0_11) (View.ld x8 r0_12)) (ix2 p q) = Net.encRow P (Net.row X (R0 ⟨0 + p.val, by have := p.isLt; omega⟩)) q
    exact congrFun (enc_rows P _ _ _ _ _ _ _ _ _ hL.w1 hL.b1 hL.w2 hL.b2 hL.w3 hL.b3 hL.wz hL.bz p _ (hX.r1 p)) q
  · intro p q
    show (encK (F := Ideal) (View.ld x0 r0_2) (View.ld x1 r0_6) (View.ld x2 r0_7) (View.ld x3 r0_8) (View.ld x4 r0_7) (View.ld x5 r0_9) (View.ld x6 r0_10) (View.ld x7 r0_11) (View.ld x8 r0_12)) (ix2 p q) = Net.encRow P (Net.row X (R0 ⟨400 + p.val, by have := p.isLt; omega⟩)) q
    exact congrFun (enc_rows P _ _ _ _ _ _ _ _ _ hL.w1 hL.b1 hL.w2 hL.b2 hL.w3 hL.b3 hL.wz hL.bz p _ (hX.r2 p)) q
  · intro p q
    show (encK (F := Ideal) (View.ld x0 r0_3) (View.ld x1 r0_6) (View.ld x2 r0_7) (View.ld x3 r0_8) (View.ld x4 r0_7) (View.ld x5 r0_9) (View.ld x6 r0_10) (View.ld x7 r0_11) (View.ld x8 r0_12)) (ix2 p q) = Net.encRow P (Net.row X (R0 ⟨800 + p.val, by have := p.isLt; omega⟩)) q
    exact congrFun (enc_rows P _ _ _ _ _ _ _ _ _ hL.w1 hL.b1 hL.w2 hL.b2 hL.w3 hL.b3 hL.wz hL.bz p _ (hX.r3 p)) q
  · intro p q
    show (encK (F := Ideal) (View.ld x0 r0_4) (View.ld x1 r0_6) (View.ld x2 r0_7) (View.ld x3 r0_8) (View.ld x4 r0_7) (View.ld x5 r0_9) (View.ld x6 r0_10) (View.ld x7 r0_11) (View.ld x8 r0_12)) (ix2 p q) = Net.encRow P (Net.row X (R0 ⟨1200 + p.val, by have := p.isLt; omega⟩)) q
    exact congrFun (enc_rows P _ _ _ _ _ _ _ _ _ hL.w1 hL.b1 hL.w2 hL.b2 hL.w3 hL.b3 hL.wz hL.bz p _ (hX.r4 p)) q
  · intro p q
    show (encK (F := Ideal) (View.ld x0 r0_5) (View.ld x1 r0_6) (View.ld x2 r0_7) (View.ld x3 r0_8) (View.ld x4 r0_7) (View.ld x5 r0_9) (View.ld x6 r0_10) (View.ld x7 r0_11) (View.ld x8 r0_12)) (ix2 p q) = Net.encRow P (Net.row X (R0 ⟨1600 + p.val, by have := p.isLt; omega⟩)) q
    exact congrFun (enc_rows P _ _ _ _ _ _ _ _ _ hL.w1 hL.b1 hL.w2 hL.b2 hL.w3 hL.b3 hL.wz hL.bz p _ (hX.r5 p)) q

/-- The block of reconstructions. -/
theorem out18_eq (hL : Loads P x1 x2 x3 x4 x5 x6 x7 x8 x9 x10 x11 x12 x13 x14 x15 x16 x17) (hX : XRows X R0 x0) (y : S2000x512.Idx) :
    out0_18 x0 x1 x2 x3 x4 x5 x6 x7 x8 x9 x10 x11 x12 x13 x14 x15 x16 x17 y = (fun y : (⟨2, ![2000, 512]⟩ : Shape).Idx => Net.Gx P X (ix2 (R0 (y 0)) (y 1))) y := by
  unfold out0_18
  refine canon5 (M := 512) _ _ _ _ _ _ _ _ _ _ (fun y : (⟨2, ![2000, 512]⟩ : Shape).Idx => Net.Gx P X (ix2 (R0 (y 0)) (y 1))) ?_ ?_ ?_ ?_ ?_ y (cover0_18 _ _ _ _ _ y)
  · intro p q
    show decK (F := Ideal) (encK (F := Ideal) (View.ld x0 r0_1) (View.ld x1 r0_6) (View.ld x2 r0_7) (View.ld x3 r0_8) (View.ld x4 r0_7) (View.ld x5 r0_9) (View.ld x6 r0_10) (View.ld x7 r0_11) (View.ld x8 r0_12)) (View.ld x9 r0_14) (View.ld x10 r0_10) (View.ld x11 r0_15) (View.ld x12 r0_7) (View.ld x13 r0_8) (View.ld x14 r0_7) (View.ld x15 r0_18) (View.ld x16 r0_19) (ix2 p q) = Net.decRow P (Net.encRow P (Net.row X (R0 ⟨0 + p.val, by have := p.isLt; omega⟩))) q
    exact congrFun (dec_rows P _ _ _ _ _ _ _ _ _ hL.wd1 hL.bd1 hL.wd2 hL.bd2 hL.wd3 hL.bd3 hL.wx hL.bx p _ (enc_rows P _ _ _ _ _ _ _ _ _ hL.w1 hL.b1 hL.w2 hL.b2 hL.w3 hL.b3 hL.wz hL.bz p _ (hX.r1 p))) q
  · intro p q
    show decK (F := Ideal) (encK (F := Ideal) (View.ld x0 r0_2) (View.ld x1 r0_6) (View.ld x2 r0_7) (View.ld x3 r0_8) (View.ld x4 r0_7) (View.ld x5 r0_9) (View.ld x6 r0_10) (View.ld x7 r0_11) (View.ld x8 r0_12)) (View.ld x9 r0_14) (View.ld x10 r0_10) (View.ld x11 r0_15) (View.ld x12 r0_7) (View.ld x13 r0_8) (View.ld x14 r0_7) (View.ld x15 r0_18) (View.ld x16 r0_19) (ix2 p q) = Net.decRow P (Net.encRow P (Net.row X (R0 ⟨400 + p.val, by have := p.isLt; omega⟩))) q
    exact congrFun (dec_rows P _ _ _ _ _ _ _ _ _ hL.wd1 hL.bd1 hL.wd2 hL.bd2 hL.wd3 hL.bd3 hL.wx hL.bx p _ (enc_rows P _ _ _ _ _ _ _ _ _ hL.w1 hL.b1 hL.w2 hL.b2 hL.w3 hL.b3 hL.wz hL.bz p _ (hX.r2 p))) q
  · intro p q
    show decK (F := Ideal) (encK (F := Ideal) (View.ld x0 r0_3) (View.ld x1 r0_6) (View.ld x2 r0_7) (View.ld x3 r0_8) (View.ld x4 r0_7) (View.ld x5 r0_9) (View.ld x6 r0_10) (View.ld x7 r0_11) (View.ld x8 r0_12)) (View.ld x9 r0_14) (View.ld x10 r0_10) (View.ld x11 r0_15) (View.ld x12 r0_7) (View.ld x13 r0_8) (View.ld x14 r0_7) (View.ld x15 r0_18) (View.ld x16 r0_19) (ix2 p q) = Net.decRow P (Net.encRow P (Net.row X (R0 ⟨800 + p.val, by have := p.isLt; omega⟩))) q
    exact congrFun (dec_rows P _ _ _ _ _ _ _ _ _ hL.wd1 hL.bd1 hL.wd2 hL.bd2 hL.wd3 hL.bd3 hL.wx hL.bx p _ (enc_rows P _ _ _ _ _ _ _ _ _ hL.w1 hL.b1 hL.w2 hL.b2 hL.w3 hL.b3 hL.wz hL.bz p _ (hX.r3 p))) q
  · intro p q
    show decK (F := Ideal) (encK (F := Ideal) (View.ld x0 r0_4) (View.ld x1 r0_6) (View.ld x2 r0_7) (View.ld x3 r0_8) (View.ld x4 r0_7) (View.ld x5 r0_9) (View.ld x6 r0_10) (View.ld x7 r0_11) (View.ld x8 r0_12)) (View.ld x9 r0_14) (View.ld x10 r0_10) (View.ld x11 r0_15) (View.ld x12 r0_7) (View.ld x13 r0_8) (View.ld x14 r0_7) (View.ld x15 r0_18) (View.ld x16 r0_19) (ix2 p q) = Net.decRow P (Net.encRow P (Net.row X (R0 ⟨1200 + p.val, by have := p.isLt; omega⟩))) q
    exact congrFun (dec_rows P _ _ _ _ _ _ _ _ _ hL.wd1 hL.bd1 hL.wd2 hL.bd2 hL.wd3 hL.bd3 hL.wx hL.bx p _ (enc_rows P _ _ _ _ _ _ _ _ _ hL.w1 hL.b1 hL.w2 hL.b2 hL.w3 hL.b3 hL.wz hL.bz p _ (hX.r4 p))) q
  · intro p q
    show decK (F := Ideal) (encK (F := Ideal) (View.ld x0 r0_5) (View.ld x1 r0_6) (View.ld x2 r0_7) (View.ld x3 r0_8) (View.ld x4 r0_7) (View.ld x5 r0_9) (View.ld x6 r0_10) (View.ld x7 r0_11) (View.ld x8 r0_12)) (View.ld x9 r0_14) (View.ld x10 r0_10) (View.ld x11 r0_15) (View.ld x12 r0_7) (View.ld x13 r0_8) (View.ld x14 r0_7) (View.ld x15 r0_18) (View.ld x16 r0_19) (ix2 p q) = Net.decRow P (Net.encRow P (Net.row X (R0 ⟨1600 + p.val, by have := p.isLt; omega⟩))) q
    exact congrFun (dec_rows P _ _ _ _ _ _ _ _ _ hL.wd1 hL.bd1 hL.wd2 hL.bd2 hL.wd3 hL.bd3 hL.wx hL.bx p _ (enc_rows P _ _ _ _ _ _ _ _ _ hL.w1 hL.b1 hL.w2 hL.b2 hL.w3 hL.b3 hL.wz hL.bz p _ (hX.r5 p))) q

/-- The block of soft assignments. The body computes each squared distance in the expanded form; for finite
    codes and centres that is the sum of squared differences. -/
theorem out19_eq (hL : Loads P x1 x2 x3 x4 x5 x6 x7 x8 x9 x10 x11 x12 x13 x14 x15 x16 x17) (hX : XRows X R0 x0) (hP : P.Real) (hXr : ∀ i, Net.IsReal (X i)) (y : S2000x10.Idx) :
    out0_19 x0 x1 x2 x3 x4 x5 x6 x7 x8 x9 x10 x11 x12 x13 x14 x15 x16 x17 y = (fun y : (⟨2, ![2000, 10]⟩ : Shape).Idx => Net.Gq P X (ix2 (R0 (y 0)) (y 1))) y := by
  unfold out0_19
  refine canon5 (M := 10) _ _ _ _ _ _ _ _ _ _ (fun y : (⟨2, ![2000, 10]⟩ : Shape).Idx => Net.Gq P X (ix2 (R0 (y 0)) (y 1))) ?_ ?_ ?_ ?_ ?_ y (cover0_19 _ _ _ _ _ y)
  · intro p q
    show softK (F := Ideal) (View.ld x17 r0_0) (encK (F := Ideal) (View.ld x0 r0_1) (View.ld x1 r0_6) (View.ld x2 r0_7) (View.ld x3 r0_8) (View.ld x4 r0_7) (View.ld x5 r0_9) (View.ld x6 r0_10) (View.ld x7 r0_11) (View.ld x8 r0_12)) (ix2 p q) = Net.softRow P.c (Net.encRow P (Net.row X (R0 ⟨0 + p.val, by have := p.isLt; omega⟩))) q
    have hz := (enc_rows P _ _ _ _ _ _ _ _ _ hL.w1 hL.b1 hL.w2 hL.b2 hL.w3 hL.b3 hL.wz hL.bz p _ (hX.r1 p))
    refine (congrFun (softK_row _ _ p) q).trans ?_
    rw [hz, hL.c]
    exact congrFun (Net.softRow_exp P.c _ hP.c (Net.encRow_real P hP _ (fun k => hXr _))) q
  · intro p q
    show softK (F := Ideal) (View.ld x17 r0_0) (encK (F := Ideal) (View.ld x0 r0_2) (View.ld x1 r0_6) (View.ld x2 r0_7) (View.ld x3 r0_8) (View.ld x4 r0_7) (View.ld x5 r0_9) (View.ld x6 r0_10) (View.ld x7 r0_11) (View.ld x8 r0_12)) (ix2 p q) = Net.softRow P.c (Net.encRow P (Net.row X (R0 ⟨400 + p.val, by have := p.isLt; omega⟩))) q
    have hz := (enc_rows P _ _ _ _ _ _ _ _ _ hL.w1 hL.b1 hL.w2 hL.b2 hL.w3 hL.b3 hL.wz hL.bz p _ (hX.r2 p))
    refine (congrFun (softK_row _ _ p) q).trans ?_
    rw [hz, hL.c]
    exact congrFun (Net.softRow_exp P.c _ hP.c (Net.encRow_real P hP _ (fun k => hXr _))) q
  · intro p q
    show softK (F := Ideal) (View.ld x17 r0_0) (encK (F := Ideal) (View.ld x0 r0_3) (View.ld x1 r0_6) (View.ld x2 r0_7) (View.ld x3 r0_8) (View.ld x4 r0_7) (View.ld x5 r0_9) (View.ld x6 r0_10) (View.ld x7 r0_11) (View.ld x8 r0_12)) (ix2 p q) = Net.softRow P.c (Net.encRow P (Net.row X (R0 ⟨800 + p.val, by have := p.isLt; omega⟩))) q
    have hz := (enc_rows P _ _ _ _ _ _ _ _ _ hL.w1 hL.b1 hL.w2 hL.b2 hL.w3 hL.b3 hL.wz hL.bz p _ (hX.r3 p))
    refine (congrFun (softK_row _ _ p) q).trans ?_
    rw [hz, hL.c]
    exact congrFun (Net.softRow_exp P.c _ hP.c (Net.encRow_real P hP _ (fun k => hXr _))) q
  · intro p q
    show softK (F := Ideal) (View.ld x17 r0_0) (encK (F := Ideal) (View.ld x0 r0_4) (View.ld x1 r0_6) (View.ld x2 r0_7) (View.ld x3 r0_8) (View.ld x4 r0_7) (View.ld x5 r0_9) (View.ld x6 r0_10) (View.ld x7 r0_11) (View.ld x8 r0_12)) (ix2 p q) = Net.softRow P.c (Net.encRow P (Net.row X (R0 ⟨1200 + p.val, by have := p.isLt; omega⟩))) q
    have hz := (enc_rows P _ _ _ _ _ _ _ _ _ hL.w1 hL.b1 hL.w2 hL.b2 hL.w3 hL.b3 hL.wz hL.bz p _ (hX.r4 p))
    refine (congrFun (softK_row _ _ p) q).trans ?_
    rw [hz, hL.c]
    exact congrFun (Net.softRow_exp P.c _ hP.c (Net.encRow_real P hP _ (fun k => hXr _))) q
  · intro p q
    show softK (F := Ideal) (View.ld x17 r0_0) (encK (F := Ideal) (View.ld x0 r0_5) (View.ld x1 r0_6) (View.ld x2 r0_7) (View.ld x3 r0_8) (View.ld x4 r0_7) (View.ld x5 r0_9) (View.ld x6 r0_10) (View.ld x7 r0_11) (View.ld x8 r0_12)) (ix2 p q) = Net.softRow P.c (Net.encRow P (Net.row X (R0 ⟨1600 + p.val, by have := p.isLt; omega⟩))) q
    have hz := (enc_rows P _ _ _ _ _ _ _ _ _ hL.w1 hL.b1 hL.w2 hL.b2 hL.w3 hL.b3 hL.wz hL.bz p _ (hX.r5 p))
    refine (congrFun (softK_row _ _ p) q).trans ?_
    rw [hz, hL.c]
    exact congrFun (Net.softRow_exp P.c _ hP.c (Net.encRow_real P hP _ (fun k => hXr _))) q

end Cert.KernelIdeal.KOut

end
-- ==== Proof.KBlocks.lean ====
/-
  The blocks the region's input windows hold, read from the argument arrays.

  The grid has five points. Window 0 holds, at point `t`, rows `2000 t … 2000 t + 1999` of the input array
  (all 512 columns); the body reads that block in five pieces of 400 rows. Every other input window holds its
  whole array at every point: the weight matrices and the centres as they are, and each bias vector `[M]`
  reshaped to one row `[1, M]`, whose entry `(0, q)` is entry `q` of the vector. A block's coordinate in the
  array is always (block index) × (block size) + (coordinate inside the block); the block indices are decided
  once over the five points.
-/
import proofs.«103175_g68075231642060_cont_9to1_m_421_26_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KBlocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid has five points. -/
theorem N5 : cfg0.N = 5 := Gen.N_0

/-! ## The windows' block indices, decided over the grid -/

/-- Window 0 moves down the rows with the point and stays in column block 0. -/
theorem idx0 : ∀ t : Fin cfg0.N, win0_0.index t (0 : Fin 2) = t.val ∧ win0_0.index t (1 : Fin 2) = 0 :=
  (by decide +kernel : ∀ t : Fin grid0.N, _)
/-- Window 1 stays at block (0, 0). -/
theorem idx1 : ∀ t : Fin cfg0.N, win0_1.index t (0 : Fin 2) = 0 ∧ win0_1.index t (1 : Fin 2) = 0 :=
  (by decide +kernel : ∀ t : Fin grid0.N, _)
/-- Window 2 stays at block (0, 0). -/
theorem idx2 : ∀ t : Fin cfg0.N, win0_2.index t (0 : Fin 2) = 0 ∧ win0_2.index t (1 : Fin 2) = 0 :=
  (by decide +kernel : ∀ t : Fin grid0.N, _)
/-- Window 3 stays at block (0, 0). -/
theorem idx3 : ∀ t : Fin cfg0.N, win0_3.index t (0 : Fin 2) = 0 ∧ win0_3.index t (1 : Fin 2) = 0 :=
  (by decide +kernel : ∀ t : Fin grid0.N, _)
/-- Window 4 stays at block (0, 0). -/
theorem idx4 : ∀ t : Fin cfg0.N, win0_4.index t (0 : Fin 2) = 0 ∧ win0_4.index t (1 : Fin 2) = 0 :=
  (by decide +kernel : ∀ t : Fin grid0.N, _)
/-- Window 5 stays at block (0, 0). -/
theorem idx5 : ∀ t : Fin cfg0.N, win0_5.index t (0 : Fin 2) = 0 ∧ win0_5.index t (1 : Fin 2) = 0 :=
  (by decide +kernel : ∀ t : Fin grid0.N, _)
/-- Window 6 stays at block (0, 0). -/
theorem idx6 : ∀ t : Fin cfg0.N, win0_6.index t (0 : Fin 2) = 0 ∧ win0_6.index t (1 : Fin 2) = 0 :=
  (by decide +kernel : ∀ t : Fin grid0.N, _)
/-- Window 7 stays at block (0, 0). -/
theorem idx7 : ∀ t : Fin cfg0.N, win0_7.index t (0 : Fin 2) = 0 ∧ win0_7.index t (1 : Fin 2) = 0 :=
  (by decide +kernel : ∀ t : Fin grid0.N, _)
/-- Window 8 stays at block (0, 0). -/
theorem idx8 : ∀ t : Fin cfg0.N, win0_8.index t (0 : Fin 2) = 0 ∧ win0_8.index t (1 : Fin 2) = 0 :=
  (by decide +kernel : ∀ t : Fin grid0.N, _)
/-- Window 9 stays at block (0, 0). -/
theorem idx9 : ∀ t : Fin cfg0.N, win0_9.index t (0 : Fin 2) = 0 ∧ win0_9.index t (1 : Fin 2) = 0 :=
  (by decide +kernel : ∀ t : Fin grid0.N, _)
/-- Window 10 stays at block (0, 0). -/
theorem idx10 : ∀ t : Fin cfg0.N, win0_10.index t (0 : Fin 2) = 0 ∧ win0_10.index t (1 : Fin 2) = 0 :=
  (by decide +kernel : ∀ t : Fin grid0.N, _)
/-- Window 11 stays at block (0, 0). -/
theorem idx11 : ∀ t : Fin cfg0.N, win0_11.index t (0 : Fin 2) = 0 ∧ win0_11.index t (1 : Fin 2) = 0 :=
  (by decide +kernel : ∀ t : Fin grid0.N, _)
/-- Window 12 stays at block (0, 0). -/
theorem idx12 : ∀ t : Fin cfg0.N, win0_12.index t (0 : Fin 2) = 0 ∧ win0_12.index t (1 : Fin 2) = 0 :=
  (by decide +kernel : ∀ t : Fin grid0.N, _)
/-- Window 13 stays at block (0, 0). -/
theorem idx13 : ∀ t : Fin cfg0.N, win0_13.index t (0 : Fin 2) = 0 ∧ win0_13.index t (1 : Fin 2) = 0 :=
  (by decide +kernel : ∀ t : Fin grid0.N, _)
/-- Window 14 stays at block (0, 0). -/
theorem idx14 : ∀ t : Fin cfg0.N, win0_14.index t (0 : Fin 2) = 0 ∧ win0_14.index t (1 : Fin 2) = 0 :=
  (by decide +kernel : ∀ t : Fin grid0.N, _)
/-- Window 15 stays at block (0, 0). -/
theorem idx15 : ∀ t : Fin cfg0.N, win0_15.index t (0 : Fin 2) = 0 ∧ win0_15.index t (1 : Fin 2) = 0 :=
  (by decide +kernel : ∀ t : Fin grid0.N, _)
/-- Window 16 stays at block (0, 0). -/
theorem idx16 : ∀ t : Fin cfg0.N, win0_16.index t (0 : Fin 2) = 0 ∧ win0_16.index t (1 : Fin 2) = 0 :=
  (by decide +kernel : ∀ t : Fin grid0.N, _)
/-- Window 17 stays at block (0, 0). -/
theorem idx17 : ∀ t : Fin cfg0.N, win0_17.index t (0 : Fin 2) = 0 ∧ win0_17.index t (1 : Fin 2) = 0 :=
  (by decide +kernel : ∀ t : Fin grid0.N, _)

/-- The whole-shape rectangle at zero offsets places an index at itself. -/
theorem idx_whole2 {n0 n1 : Nat}
    (inb : ∀ a, (![0, 0] : Fin 2 → Nat) a + (⟨2, ![n0, n1]⟩ : Shape).size a ≤ (⟨2, ![n0, n1]⟩ : Shape).size a)
    (y : (⟨2, ![n0, n1]⟩ : Shape).Idx) :
    (Rect.unit (s := ⟨2, ![n0, n1]⟩) ![0, 0] (⟨2, ![n0, n1]⟩ : Shape).size inb).idx y = y := by
  funext a
  apply Fin.ext
  match a with
  | ⟨0, _⟩ => show 0 + 1 * (y 0).val = (y 0).val; omega
  | ⟨1, _⟩ => show 0 + 1 * (y 1).val = (y 1).val; omega

/-! ## Window 0: the input rows of point `t` -/

/-- Window 0's block at point `t`, at block index `y`: the input array at row `2000 t + y₀`, column `y₁`. -/
theorem iblk0_apply (c : Dev nD) (t : Fin cfg0.N) (y : S2000x512.Idx) :
    (iblk m c 0 t : Vec F S2000x512 .f32) y
      = m ((c : Thread nD τ).loc main_arg0) (ix2 ⟨2000 * t.val + (y 0).val, by
          have := t.isLt; have h : cfg0.N = 5 := N5; have := idx2_lt0 y; omega⟩ ⟨(y 1).val, idx2_lt1 y⟩) := by
  unfold iblk
  rw [View.read_apply]
  show V m c main_arg0 (((cfg0.win 0).blk t).view.emb y) = _
  rw [V_main_arg0]
  refine congrArg _ ?_
  obtain ⟨e0, e1⟩ := idx0 t
  funext a
  apply Fin.ext
  match a with
  | ⟨0, _⟩ => show win0_0.index t (0 : Fin 2) * 2000 + 1 * (y 0).val = 2000 * t.val + (y 0).val; rw [e0]; omega
  | ⟨1, _⟩ => show win0_0.index t (1 : Fin 2) * 512 + 1 * (y 1).val = (y 1).val; rw [e1]; omega

/-- Piece 1 of the block (rows 0 … 399): row `p`, column `k` is the input array at row `2000 t + 0 + p`. -/
theorem x_ld1 (c : Dev nD) (t : Fin cfg0.N) (p : Fin 400) (k : Fin 512) :
    View.ld (iblk m c 0 t) r0_1 (ix2 p k) = m ((c : Thread nD τ).loc main_arg0) (ix2 ⟨2000 * t.val + 0 + p.val, by
      have := t.isLt; have := p.isLt; have h : cfg0.N = 5 := N5; omega⟩ k) := by
  show (iblk m c 0 t : Vec F S2000x512 .f32) (r0_1.idx (ix2 p k)) = _
  rw [iblk0_apply]
  refine congrArg _ ?_
  funext a
  apply Fin.ext
  match a with
  | ⟨0, _⟩ => show 2000 * t.val + (0 + 1 * p.val) = 2000 * t.val + 0 + p.val; omega
  | ⟨1, _⟩ => show 0 + 1 * k.val = k.val; omega

/-- Piece 2 of the block (rows 400 … 799): row `p`, column `k` is the input array at row `2000 t + 400 + p`. -/
theorem x_ld2 (c : Dev nD) (t : Fin cfg0.N) (p : Fin 400) (k : Fin 512) :
    View.ld (iblk m c 0 t) r0_2 (ix2 p k) = m ((c : Thread nD τ).loc main_arg0) (ix2 ⟨2000 * t.val + 400 + p.val, by
      have := t.isLt; have := p.isLt; have h : cfg0.N = 5 := N5; omega⟩ k) := by
  show (iblk m c 0 t : Vec F S2000x512 .f32) (r0_2.idx (ix2 p k)) = _
  rw [iblk0_apply]
  refine congrArg _ ?_
  funext a
  apply Fin.ext
  match a with
  | ⟨0, _⟩ => show 2000 * t.val + (400 + 1 * p.val) = 2000 * t.val + 400 + p.val; omega
  | ⟨1, _⟩ => show 0 + 1 * k.val = k.val; omega

/-- Piece 3 of the block (rows 800 … 1199): row `p`, column `k` is the input array at row `2000 t + 800 + p`. -/
theorem x_ld3 (c : Dev nD) (t : Fin cfg0.N) (p : Fin 400) (k : Fin 512) :
    View.ld (iblk m c 0 t) r0_3 (ix2 p k) = m ((c : Thread nD τ).loc main_arg0) (ix2 ⟨2000 * t.val + 800 + p.val, by
      have := t.isLt; have := p.isLt; have h : cfg0.N = 5 := N5; omega⟩ k) := by
  show (iblk m c 0 t : Vec F S2000x512 .f32) (r0_3.idx (ix2 p k)) = _
  rw [iblk0_apply]
  refine congrArg _ ?_
  funext a
  apply Fin.ext
  match a with
  | ⟨0, _⟩ => show 2000 * t.val + (800 + 1 * p.val) = 2000 * t.val + 800 + p.val; omega
  | ⟨1, _⟩ => show 0 + 1 * k.val = k.val; omega

/-- Piece 4 of the block (rows 1200 … 1599): row `p`, column `k` is the input array at row `2000 t + 1200 + p`. -/
theorem x_ld4 (c : Dev nD) (t : Fin cfg0.N) (p : Fin 400) (k : Fin 512) :
    View.ld (iblk m c 0 t) r0_4 (ix2 p k) = m ((c : Thread nD τ).loc main_arg0) (ix2 ⟨2000 * t.val + 1200 + p.val, by
      have := t.isLt; have := p.isLt; have h : cfg0.N = 5 := N5; omega⟩ k) := by
  show (iblk m c 0 t : Vec F S2000x512 .f32) (r0_4.idx (ix2 p k)) = _
  rw [iblk0_apply]
  refine congrArg _ ?_
  funext a
  apply Fin.ext
  match a with
  | ⟨0, _⟩ => show 2000 * t.val + (1200 + 1 * p.val) = 2000 * t.val + 1200 + p.val; omega
  | ⟨1, _⟩ => show 0 + 1 * k.val = k.val; omega

/-- Piece 5 of the block (rows 1600 … 1999): row `p`, column `k` is the input array at row `2000 t + 1600 + p`. -/
theorem x_ld5 (c : Dev nD) (t : Fin cfg0.N) (p : Fin 400) (k : Fin 512) :
    View.ld (iblk m c 0 t) r0_5 (ix2 p k) = m ((c : Thread nD τ).loc main_arg0) (ix2 ⟨2000 * t.val + 1600 + p.val, by
      have := t.isLt; have := p.isLt; have h : cfg0.N = 5 := N5; omega⟩ k) := by
  show (iblk m c 0 t : Vec F S2000x512 .f32) (r0_5.idx (ix2 p k)) = _
  rw [iblk0_apply]
  refine congrArg _ ?_
  funext a
  apply Fin.ext
  match a with
  | ⟨0, _⟩ => show 2000 * t.val + (1600 + 1 * p.val) = 2000 * t.val + 1600 + p.val; omega
  | ⟨1, _⟩ => show 0 + 1 * k.val = k.val; omega

/-! ## The weight matrices and the centres: whole arrays -/

/-- Window 1's block is its whole array, at every point. -/
theorem iblk1_apply (c : Dev nD) (t : Fin cfg0.N) (y : S512x500.Idx) :
    (iblk m c 1 t : Vec F S512x500 .f32) y = m ((c : Thread nD τ).loc main_arg1) y := by
  unfold iblk
  rw [View.read_apply]
  show V m c main_arg1 (((cfg0.win 1).blk t).view.emb y) = _
  rw [V_main_arg1]
  refine congrArg _ ?_
  obtain ⟨e0, e1⟩ := idx1 t
  funext a
  apply Fin.ext
  match a with
  | ⟨0, _⟩ => show win0_1.index t (0 : Fin 2) * 512 + 1 * (y 0).val = (y 0).val; rw [e0]; omega
  | ⟨1, _⟩ => show win0_1.index t (1 : Fin 2) * 500 + 1 * (y 1).val = (y 1).val; rw [e1]; omega

/-- So the body's whole-block load from window 1 is the argument array. -/
theorem w_ld1 (c : Dev nD) (t : Fin cfg0.N) :
    (View.ld (iblk m c 1 t) r0_6 : Vec F S512x500 .f32) = m ((c : Thread nD τ).loc main_arg1) := by
  funext y
  show (iblk m c 1 t : Vec F S512x500 .f32) (r0_6.idx y) = _
  rw [iblk1_apply]
  exact congrArg _ (idx_whole2 _ y)

/-- Window 3's block is its whole array, at every point. -/
theorem iblk3_apply (c : Dev nD) (t : Fin cfg0.N) (y : S500x500.Idx) :
    (iblk m c 3 t : Vec F S500x500 .f32) y = m ((c : Thread nD τ).loc main_arg3) y := by
  unfold iblk
  rw [View.read_apply]
  show V m c main_arg3 (((cfg0.win 3).blk t).view.emb y) = _
  rw [V_main_arg3]
  refine congrArg _ ?_
  obtain ⟨e0, e1⟩ := idx3 t
  funext a
  apply Fin.ext
  match a with
  | ⟨0, _⟩ => show win0_3.index t (0 : Fin 2) * 500 + 1 * (y 0).val = (y 0).val; rw [e0]; omega
  | ⟨1, _⟩ => show win0_3.index t (1 : Fin 2) * 500 + 1 * (y 1).val = (y 1).val; rw [e1]; omega

/-- So the body's whole-block load from window 3 is the argument array. -/
theorem w_ld3 (c : Dev nD) (t : Fin cfg0.N) :
    (View.ld (iblk m c 3 t) r0_8 : Vec F S500x500 .f32) = m ((c : Thread nD τ).loc main_arg3) := by
  funext y
  show (iblk m c 3 t : Vec F S500x500 .f32) (r0_8.idx y) = _
  rw [iblk3_apply]
  exact congrArg _ (idx_whole2 _ y)

/-- Window 5's block is its whole array, at every point. -/
theorem iblk5_apply (c : Dev nD) (t : Fin cfg0.N) (y : S500x2000.Idx) :
    (iblk m c 5 t : Vec F S500x2000 .f32) y = m ((c : Thread nD τ).loc main_arg5) y := by
  unfold iblk
  rw [View.read_apply]
  show V m c main_arg5 (((cfg0.win 5).blk t).view.emb y) = _
  rw [V_main_arg5]
  refine congrArg _ ?_
  obtain ⟨e0, e1⟩ := idx5 t
  funext a
  apply Fin.ext
  match a with
  | ⟨0, _⟩ => show win0_5.index t (0 : Fin 2) * 500 + 1 * (y 0).val = (y 0).val; rw [e0]; omega
  | ⟨1, _⟩ => show win0_5.index t (1 : Fin 2) * 2000 + 1 * (y 1).val = (y 1).val; rw [e1]; omega

/-- So the body's whole-block load from window 5 is the argument array. -/
theorem w_ld5 (c : Dev nD) (t : Fin cfg0.N) :
    (View.ld (iblk m c 5 t) r0_9 : Vec F S500x2000 .f32) = m ((c : Thread nD τ).loc main_arg5) := by
  funext y
  show (iblk m c 5 t : Vec F S500x2000 .f32) (r0_9.idx y) = _
  rw [iblk5_apply]
  exact congrArg _ (idx_whole2 _ y)

/-- Window 7's block is its whole array, at every point. -/
theorem iblk7_apply (c : Dev nD) (t : Fin cfg0.N) (y : S2000x10.Idx) :
    (iblk m c 7 t : Vec F S2000x10 .f32) y = m ((c : Thread nD τ).loc main_arg7) y := by
  unfold iblk
  rw [View.read_apply]
  show V m c main_arg7 (((cfg0.win 7).blk t).view.emb y) = _
  rw [V_main_arg7]
  refine congrArg _ ?_
  obtain ⟨e0, e1⟩ := idx7 t
  funext a
  apply Fin.ext
  match a with
  | ⟨0, _⟩ => show win0_7.index t (0 : Fin 2) * 2000 + 1 * (y 0).val = (y 0).val; rw [e0]; omega
  | ⟨1, _⟩ => show win0_7.index t (1 : Fin 2) * 10 + 1 * (y 1).val = (y 1).val; rw [e1]; omega

/-- So the body's whole-block load from window 7 is the argument array. -/
theorem w_ld7 (c : Dev nD) (t : Fin cfg0.N) :
    (View.ld (iblk m c 7 t) r0_11 : Vec F S2000x10 .f32) = m ((c : Thread nD τ).loc main_arg7) := by
  funext y
  show (iblk m c 7 t : Vec F S2000x10 .f32) (r0_11.idx y) = _
  rw [iblk7_apply]
  exact congrArg _ (idx_whole2 _ y)

/-- Window 9's block is its whole array, at every point. -/
theorem iblk9_apply (c : Dev nD) (t : Fin cfg0.N) (y : S10x2000.Idx) :
    (iblk m c 9 t : Vec F S10x2000 .f32) y = m ((c : Thread nD τ).loc main_arg9) y := by
  unfold iblk
  rw [View.read_apply]
  show V m c main_arg9 (((cfg0.win 9).blk t).view.emb y) = _
  rw [V_main_arg9]
  refine congrArg _ ?_
  obtain ⟨e0, e1⟩ := idx9 t
  funext a
  apply Fin.ext
  match a with
  | ⟨0, _⟩ => show win0_9.index t (0 : Fin 2) * 10 + 1 * (y 0).val = (y 0).val; rw [e0]; omega
  | ⟨1, _⟩ => show win0_9.index t (1 : Fin 2) * 2000 + 1 * (y 1).val = (y 1).val; rw [e1]; omega

/-- So the body's whole-block load from window 9 is the argument array. -/
theorem w_ld9 (c : Dev nD) (t : Fin cfg0.N) :
    (View.ld (iblk m c 9 t) r0_14 : Vec F S10x2000 .f32) = m ((c : Thread nD τ).loc main_arg9) := by
  funext y
  show (iblk m c 9 t : Vec F S10x2000 .f32) (r0_14.idx y) = _
  rw [iblk9_apply]
  exact congrArg _ (idx_whole2 _ y)

/-- Window 11's block is its whole array, at every point. -/
theorem iblk11_apply (c : Dev nD) (t : Fin cfg0.N) (y : S2000x500.Idx) :
    (iblk m c 11 t : Vec F S2000x500 .f32) y = m ((c : Thread nD τ).loc main_arg11) y := by
  unfold iblk
  rw [View.read_apply]
  show V m c main_arg11 (((cfg0.win 11).blk t).view.emb y) = _
  rw [V_main_arg11]
  refine congrArg _ ?_
  obtain ⟨e0, e1⟩ := idx11 t
  funext a
  apply Fin.ext
  match a with
  | ⟨0, _⟩ => show win0_11.index t (0 : Fin 2) * 2000 + 1 * (y 0).val = (y 0).val; rw [e0]; omega
  | ⟨1, _⟩ => show win0_11.index t (1 : Fin 2) * 500 + 1 * (y 1).val = (y 1).val; rw [e1]; omega

/-- So the body's whole-block load from window 11 is the argument array. -/
theorem w_ld11 (c : Dev nD) (t : Fin cfg0.N) :
    (View.ld (iblk m c 11 t) r0_15 : Vec F S2000x500 .f32) = m ((c : Thread nD τ).loc main_arg11) := by
  funext y
  show (iblk m c 11 t : Vec F S2000x500 .f32) (r0_15.idx y) = _
  rw [iblk11_apply]
  exact congrArg _ (idx_whole2 _ y)

/-- Window 13's block is its whole array, at every point. -/
theorem iblk13_apply (c : Dev nD) (t : Fin cfg0.N) (y : S500x500.Idx) :
    (iblk m c 13 t : Vec F S500x500 .f32) y = m ((c : Thread nD τ).loc main_arg13) y := by
  unfold iblk
  rw [View.read_apply]
  show V m c main_arg13 (((cfg0.win 13).blk t).view.emb y) = _
  rw [V_main_arg13]
  refine congrArg _ ?_
  obtain ⟨e0, e1⟩ := idx13 t
  funext a
  apply Fin.ext
  match a with
  | ⟨0, _⟩ => show win0_13.index t (0 : Fin 2) * 500 + 1 * (y 0).val = (y 0).val; rw [e0]; omega
  | ⟨1, _⟩ => show win0_13.index t (1 : Fin 2) * 500 + 1 * (y 1).val = (y 1).val; rw [e1]; omega

/-- So the body's whole-block load from window 13 is the argument array. -/
theorem w_ld13 (c : Dev nD) (t : Fin cfg0.N) :
    (View.ld (iblk m c 13 t) r0_8 : Vec F S500x500 .f32) = m ((c : Thread nD τ).loc main_arg13) := by
  funext y
  show (iblk m c 13 t : Vec F S500x500 .f32) (r0_8.idx y) = _
  rw [iblk13_apply]
  exact congrArg _ (idx_whole2 _ y)

/-- Window 15's block is its whole array, at every point. -/
theorem iblk15_apply (c : Dev nD) (t : Fin cfg0.N) (y : S500x512.Idx) :
    (iblk m c 15 t : Vec F S500x512 .f32) y = m ((c : Thread nD τ).loc main_arg15) y := by
  unfold iblk
  rw [View.read_apply]
  show V m c main_arg15 (((cfg0.win 15).blk t).view.emb y) = _
  rw [V_main_arg15]
  refine congrArg _ ?_
  obtain ⟨e0, e1⟩ := idx15 t
  funext a
  apply Fin.ext
  match a with
  | ⟨0, _⟩ => show win0_15.index t (0 : Fin 2) * 500 + 1 * (y 0).val = (y 0).val; rw [e0]; omega
  | ⟨1, _⟩ => show win0_15.index t (1 : Fin 2) * 512 + 1 * (y 1).val = (y 1).val; rw [e1]; omega

/-- So the body's whole-block load from window 15 is the argument array. -/
theorem w_ld15 (c : Dev nD) (t : Fin cfg0.N) :
    (View.ld (iblk m c 15 t) r0_18 : Vec F S500x512 .f32) = m ((c : Thread nD τ).loc main_arg15) := by
  funext y
  show (iblk m c 15 t : Vec F S500x512 .f32) (r0_18.idx y) = _
  rw [iblk15_apply]
  exact congrArg _ (idx_whole2 _ y)

/-- Window 17's block is its whole array, at every point. -/
theorem iblk17_apply (c : Dev nD) (t : Fin cfg0.N) (y : S10x10.Idx) :
    (iblk m c 17 t : Vec F S10x10 .f32) y = m ((c : Thread nD τ).loc main_arg17) y := by
  unfold iblk
  rw [View.read_apply]
  show V m c main_arg17 (((cfg0.win 17).blk t).view.emb y) = _
  rw [V_main_arg17]
  refine congrArg _ ?_
  obtain ⟨e0, e1⟩ := idx17 t
  funext a
  apply Fin.ext
  match a with
  | ⟨0, _⟩ => show win0_17.index t (0 : Fin 2) * 10 + 1 * (y 0).val = (y 0).val; rw [e0]; omega
  | ⟨1, _⟩ => show win0_17.index t (1 : Fin 2) * 10 + 1 * (y 1).val = (y 1).val; rw [e1]; omega

/-- So the body's whole-block load from window 17 is the argument array. -/
theorem w_ld17 (c : Dev nD) (t : Fin cfg0.N) :
    (View.ld (iblk m c 17 t) r0_0 : Vec F S10x10 .f32) = m ((c : Thread nD τ).loc main_arg17) := by
  funext y
  show (iblk m c 17 t : Vec F S10x10 .f32) (r0_0.idx y) = _
  rw [iblk17_apply]
  exact congrArg _ (idx_whole2 _ y)

/-! ## The bias vectors: each reshaped to one row before the region -/

/-- The array window 2 stages, as the region finds it: the bias vector `[500]` reshaped to `[1, 500]`. -/
theorem V_main_v0 (c : Dev nD) :
    (V m c main_v0 : S1x500.Idx → Elt F .f32) = shapeCast S1x500 (m ((c : Thread nD τ).loc main_arg2)) shapeCasts_S500_S1x500 := by
  dsimp only [Gen.V, Gen.hostOps0]
  after_results
  rfl

/-- Window 2's block is that whole row, at every point. -/
theorem iblk2_apply (c : Dev nD) (t : Fin cfg0.N) (y : S1x500.Idx) :
    (iblk m c 2 t : Vec F S1x500 .f32) y = shapeCast S1x500 (m ((c : Thread nD τ).loc main_arg2)) shapeCasts_S500_S1x500 y := by
  unfold iblk
  rw [View.read_apply]
  show V m c main_v0 (((cfg0.win 2).blk t).view.emb y) = _
  rw [V_main_v0]
  refine congrArg _ ?_
  obtain ⟨e0, e1⟩ := idx2 t
  funext a
  apply Fin.ext
  match a with
  | ⟨0, _⟩ => show win0_2.index t (0 : Fin 2) * 1 + 1 * (y 0).val = (y 0).val; rw [e0]; omega
  | ⟨1, _⟩ => show win0_2.index t (1 : Fin 2) * 500 + 1 * (y 1).val = (y 1).val; rw [e1]; omega

/-- So the body's load from window 2 at `(0, q)` is entry `q` of the bias vector. -/
theorem b_ld2 (c : Dev nD) (t : Fin cfg0.N) (q : Fin 500) :
    View.ld (iblk m c 2 t) r0_7 (ix2 (0 : Fin 1) q) = m ((c : Thread nD τ).loc main_arg2) (ix1 q) := by
  show (iblk m c 2 t : Vec F S1x500 .f32) (r0_7.idx (ix2 (0 : Fin 1) q)) = _
  rw [iblk2_apply, idx_whole2]
  exact shapeCast_a_1a_apply _ _ 0 q

/-- The array window 4 stages, as the region finds it: the bias vector `[500]` reshaped to `[1, 500]`. -/
theorem V_main_v1 (c : Dev nD) :
    (V m c main_v1 : S1x500.Idx → Elt F .f32) = shapeCast S1x500 (m ((c : Thread nD τ).loc main_arg4)) shapeCasts_S500_S1x500 := by
  dsimp only [Gen.V, Gen.hostOps0]
  after_results
  rfl

/-- Window 4's block is that whole row, at every point. -/
theorem iblk4_apply (c : Dev nD) (t : Fin cfg0.N) (y : S1x500.Idx) :
    (iblk m c 4 t : Vec F S1x500 .f32) y = shapeCast S1x500 (m ((c : Thread nD τ).loc main_arg4)) shapeCasts_S500_S1x500 y := by
  unfold iblk
  rw [View.read_apply]
  show V m c main_v1 (((cfg0.win 4).blk t).view.emb y) = _
  rw [V_main_v1]
  refine congrArg _ ?_
  obtain ⟨e0, e1⟩ := idx4 t
  funext a
  apply Fin.ext
  match a with
  | ⟨0, _⟩ => show win0_4.index t (0 : Fin 2) * 1 + 1 * (y 0).val = (y 0).val; rw [e0]; omega
  | ⟨1, _⟩ => show win0_4.index t (1 : Fin 2) * 500 + 1 * (y 1).val = (y 1).val; rw [e1]; omega

/-- So the body's load from window 4 at `(0, q)` is entry `q` of the bias vector. -/
theorem b_ld4 (c : Dev nD) (t : Fin cfg0.N) (q : Fin 500) :
    View.ld (iblk m c 4 t) r0_7 (ix2 (0 : Fin 1) q) = m ((c : Thread nD τ).loc main_arg4) (ix1 q) := by
  show (iblk m c 4 t : Vec F S1x500 .f32) (r0_7.idx (ix2 (0 : Fin 1) q)) = _
  rw [iblk4_apply, idx_whole2]
  exact shapeCast_a_1a_apply _ _ 0 q

/-- The array window 6 stages, as the region finds it: the bias vector `[2000]` reshaped to `[1, 2000]`. -/
theorem V_main_v2 (c : Dev nD) :
    (V m c main_v2 : S1x2000.Idx → Elt F .f32) = shapeCast S1x2000 (m ((c : Thread nD τ).loc main_arg6)) shapeCasts_S2000_S1x2000 := by
  dsimp only [Gen.V, Gen.hostOps0]
  after_results
  rfl

/-- Window 6's block is that whole row, at every point. -/
theorem iblk6_apply (c : Dev nD) (t : Fin cfg0.N) (y : S1x2000.Idx) :
    (iblk m c 6 t : Vec F S1x2000 .f32) y = shapeCast S1x2000 (m ((c : Thread nD τ).loc main_arg6)) shapeCasts_S2000_S1x2000 y := by
  unfold iblk
  rw [View.read_apply]
  show V m c main_v2 (((cfg0.win 6).blk t).view.emb y) = _
  rw [V_main_v2]
  refine congrArg _ ?_
  obtain ⟨e0, e1⟩ := idx6 t
  funext a
  apply Fin.ext
  match a with
  | ⟨0, _⟩ => show win0_6.index t (0 : Fin 2) * 1 + 1 * (y 0).val = (y 0).val; rw [e0]; omega
  | ⟨1, _⟩ => show win0_6.index t (1 : Fin 2) * 2000 + 1 * (y 1).val = (y 1).val; rw [e1]; omega

/-- So the body's load from window 6 at `(0, q)` is entry `q` of the bias vector. -/
theorem b_ld6 (c : Dev nD) (t : Fin cfg0.N) (q : Fin 2000) :
    View.ld (iblk m c 6 t) r0_10 (ix2 (0 : Fin 1) q) = m ((c : Thread nD τ).loc main_arg6) (ix1 q) := by
  show (iblk m c 6 t : Vec F S1x2000 .f32) (r0_10.idx (ix2 (0 : Fin 1) q)) = _
  rw [iblk6_apply, idx_whole2]
  exact shapeCast_a_1a_apply _ _ 0 q

/-- The array window 8 stages, as the region finds it: the bias vector `[10]` reshaped to `[1, 10]`. -/
theorem V_main_v3 (c : Dev nD) :
    (V m c main_v3 : S1x10.Idx → Elt F .f32) = shapeCast S1x10 (m ((c : Thread nD τ).loc main_arg8)) shapeCasts_S10_S1x10 := by
  dsimp only [Gen.V, Gen.hostOps0]
  after_results
  rfl

/-- Window 8's block is that whole row, at every point. -/
theorem iblk8_apply (c : Dev nD) (t : Fin cfg0.N) (y : S1x10.Idx) :
    (iblk m c 8 t : Vec F S1x10 .f32) y = shapeCast S1x10 (m ((c : Thread nD τ).loc main_arg8)) shapeCasts_S10_S1x10 y := by
  unfold iblk
  rw [View.read_apply]
  show V m c main_v3 (((cfg0.win 8).blk t).view.emb y) = _
  rw [V_main_v3]
  refine congrArg _ ?_
  obtain ⟨e0, e1⟩ := idx8 t
  funext a
  apply Fin.ext
  match a with
  | ⟨0, _⟩ => show win0_8.index t (0 : Fin 2) * 1 + 1 * (y 0).val = (y 0).val; rw [e0]; omega
  | ⟨1, _⟩ => show win0_8.index t (1 : Fin 2) * 10 + 1 * (y 1).val = (y 1).val; rw [e1]; omega

/-- So the body's load from window 8 at `(0, q)` is entry `q` of the bias vector. -/
theorem b_ld8 (c : Dev nD) (t : Fin cfg0.N) (q : Fin 10) :
    View.ld (iblk m c 8 t) r0_12 (ix2 (0 : Fin 1) q) = m ((c : Thread nD τ).loc main_arg8) (ix1 q) := by
  show (iblk m c 8 t : Vec F S1x10 .f32) (r0_12.idx (ix2 (0 : Fin 1) q)) = _
  rw [iblk8_apply, idx_whole2]
  exact shapeCast_a_1a_apply _ _ 0 q

/-- The array window 10 stages, as the region finds it: the bias vector `[2000]` reshaped to `[1, 2000]`. -/
theorem V_main_v4 (c : Dev nD) :
    (V m c main_v4 : S1x2000.Idx → Elt F .f32) = shapeCast S1x2000 (m ((c : Thread nD τ).loc main_arg10)) shapeCasts_S2000_S1x2000 := by
  dsimp only [Gen.V, Gen.hostOps0]
  after_results
  rfl

/-- Window 10's block is that whole row, at every point. -/
theorem iblk10_apply (c : Dev nD) (t : Fin cfg0.N) (y : S1x2000.Idx) :
    (iblk m c 10 t : Vec F S1x2000 .f32) y = shapeCast S1x2000 (m ((c : Thread nD τ).loc main_arg10)) shapeCasts_S2000_S1x2000 y := by
  unfold iblk
  rw [View.read_apply]
  show V m c main_v4 (((cfg0.win 10).blk t).view.emb y) = _
  rw [V_main_v4]
  refine congrArg _ ?_
  obtain ⟨e0, e1⟩ := idx10 t
  funext a
  apply Fin.ext
  match a with
  | ⟨0, _⟩ => show win0_10.index t (0 : Fin 2) * 1 + 1 * (y 0).val = (y 0).val; rw [e0]; omega
  | ⟨1, _⟩ => show win0_10.index t (1 : Fin 2) * 2000 + 1 * (y 1).val = (y 1).val; rw [e1]; omega

/-- So the body's load from window 10 at `(0, q)` is entry `q` of the bias vector. -/
theorem b_ld10 (c : Dev nD) (t : Fin cfg0.N) (q : Fin 2000) :
    View.ld (iblk m c 10 t) r0_10 (ix2 (0 : Fin 1) q) = m ((c : Thread nD τ).loc main_arg10) (ix1 q) := by
  show (iblk m c 10 t : Vec F S1x2000 .f32) (r0_10.idx (ix2 (0 : Fin 1) q)) = _
  rw [iblk10_apply, idx_whole2]
  exact shapeCast_a_1a_apply _ _ 0 q

/-- The array window 12 stages, as the region finds it: the bias vector `[500]` reshaped to `[1, 500]`. -/
theorem V_main_v5 (c : Dev nD) :
    (V m c main_v5 : S1x500.Idx → Elt F .f32) = shapeCast S1x500 (m ((c : Thread nD τ).loc main_arg12)) shapeCasts_S500_S1x500 := by
  dsimp only [Gen.V, Gen.hostOps0]
  after_results
  rfl

/-- Window 12's block is that whole row, at every point. -/
theorem iblk12_apply (c : Dev nD) (t : Fin cfg0.N) (y : S1x500.Idx) :
    (iblk m c 12 t : Vec F S1x500 .f32) y = shapeCast S1x500 (m ((c : Thread nD τ).loc main_arg12)) shapeCasts_S500_S1x500 y := by
  unfold iblk
  rw [View.read_apply]
  show V m c main_v5 (((cfg0.win 12).blk t).view.emb y) = _
  rw [V_main_v5]
  refine congrArg _ ?_
  obtain ⟨e0, e1⟩ := idx12 t
  funext a
  apply Fin.ext
  match a with
  | ⟨0, _⟩ => show win0_12.index t (0 : Fin 2) * 1 + 1 * (y 0).val = (y 0).val; rw [e0]; omega
  | ⟨1, _⟩ => show win0_12.index t (1 : Fin 2) * 500 + 1 * (y 1).val = (y 1).val; rw [e1]; omega

/-- So the body's load from window 12 at `(0, q)` is entry `q` of the bias vector. -/
theorem b_ld12 (c : Dev nD) (t : Fin cfg0.N) (q : Fin 500) :
    View.ld (iblk m c 12 t) r0_7 (ix2 (0 : Fin 1) q) = m ((c : Thread nD τ).loc main_arg12) (ix1 q) := by
  show (iblk m c 12 t : Vec F S1x500 .f32) (r0_7.idx (ix2 (0 : Fin 1) q)) = _
  rw [iblk12_apply, idx_whole2]
  exact shapeCast_a_1a_apply _ _ 0 q

/-- The array window 14 stages, as the region finds it: the bias vector `[500]` reshaped to `[1, 500]`. -/
theorem V_main_v6 (c : Dev nD) :
    (V m c main_v6 : S1x500.Idx → Elt F .f32) = shapeCast S1x500 (m ((c : Thread nD τ).loc main_arg14)) shapeCasts_S500_S1x500 := by
  dsimp only [Gen.V, Gen.hostOps0]
  after_results
  rfl

/-- Window 14's block is that whole row, at every point. -/
theorem iblk14_apply (c : Dev nD) (t : Fin cfg0.N) (y : S1x500.Idx) :
    (iblk m c 14 t : Vec F S1x500 .f32) y = shapeCast S1x500 (m ((c : Thread nD τ).loc main_arg14)) shapeCasts_S500_S1x500 y := by
  unfold iblk
  rw [View.read_apply]
  show V m c main_v6 (((cfg0.win 14).blk t).view.emb y) = _
  rw [V_main_v6]
  refine congrArg _ ?_
  obtain ⟨e0, e1⟩ := idx14 t
  funext a
  apply Fin.ext
  match a with
  | ⟨0, _⟩ => show win0_14.index t (0 : Fin 2) * 1 + 1 * (y 0).val = (y 0).val; rw [e0]; omega
  | ⟨1, _⟩ => show win0_14.index t (1 : Fin 2) * 500 + 1 * (y 1).val = (y 1).val; rw [e1]; omega

/-- So the body's load from window 14 at `(0, q)` is entry `q` of the bias vector. -/
theorem b_ld14 (c : Dev nD) (t : Fin cfg0.N) (q : Fin 500) :
    View.ld (iblk m c 14 t) r0_7 (ix2 (0 : Fin 1) q) = m ((c : Thread nD τ).loc main_arg14) (ix1 q) := by
  show (iblk m c 14 t : Vec F S1x500 .f32) (r0_7.idx (ix2 (0 : Fin 1) q)) = _
  rw [iblk14_apply, idx_whole2]
  exact shapeCast_a_1a_apply _ _ 0 q

/-- The array window 16 stages, as the region finds it: the bias vector `[512]` reshaped to `[1, 512]`. -/
theorem V_main_v7 (c : Dev nD) :
    (V m c main_v7 : S1x512.Idx → Elt F .f32) = shapeCast S1x512 (m ((c : Thread nD τ).loc main_arg16)) shapeCasts_S512_S1x512 := by
  dsimp only [Gen.V, Gen.hostOps0]
  after_results
  rfl

/-- Window 16's block is that whole row, at every point. -/
theorem iblk16_apply (c : Dev nD) (t : Fin cfg0.N) (y : S1x512.Idx) :
    (iblk m c 16 t : Vec F S1x512 .f32) y = shapeCast S1x512 (m ((c : Thread nD τ).loc main_arg16)) shapeCasts_S512_S1x512 y := by
  unfold iblk
  rw [View.read_apply]
  show V m c main_v7 (((cfg0.win 16).blk t).view.emb y) = _
  rw [V_main_v7]
  refine congrArg _ ?_
  obtain ⟨e0, e1⟩ := idx16 t
  funext a
  apply Fin.ext
  match a with
  | ⟨0, _⟩ => show win0_16.index t (0 : Fin 2) * 1 + 1 * (y 0).val = (y 0).val; rw [e0]; omega
  | ⟨1, _⟩ => show win0_16.index t (1 : Fin 2) * 512 + 1 * (y 1).val = (y 1).val; rw [e1]; omega

/-- So the body's load from window 16 at `(0, q)` is entry `q` of the bias vector. -/
theorem b_ld16 (c : Dev nD) (t : Fin cfg0.N) (q : Fin 512) :
    View.ld (iblk m c 16 t) r0_19 (ix2 (0 : Fin 1) q) = m ((c : Thread nD τ).loc main_arg16) (ix1 q) := by
  show (iblk m c 16 t : Vec F S1x512 .f32) (r0_19.idx (ix2 (0 : Fin 1) q)) = _
  rw [iblk16_apply, idx_whole2]
  exact shapeCast_a_1a_apply _ _ 0 q

end Cert.KernelIdeal.KBlocks

end
-- ==== Proof.KCover.lean ====
/-
  The output windows' blocks cover their arrays.

  Each of the three outputs is written back in five blocks of 2000 rows, the block of grid point t starting at row
  2000 t and spanning every column. So element (u, q) of point t's block sits at row 2000 t + u, column q, of the
  array, and row r of the array lies in the block of point r / 2000: every index is covered.
-/
import proofs.«103175_g68075231642060_cont_9to1_m_421_26_alg».proof.Proof.Gen.KernelIdeal.Value
import Idealize.ShloMosaic.Lib.Pipeline.Value
import Idealize.ShloMosaic.Lib.ValueIdx

noncomputable section

namespace Cert.KernelIdeal.KCover

open Cert.KernelIdeal Cert.KernelIdeal.Gen Idealize.ShloMosaic Idealize.ShloMosaic.TcCoe Idealize.ShloMosaic.ValueIdx Idealize.SL.Sem

/-- The array row of row u of grid point t's block. -/
def rowAt (t : Fin cfg0.N) (u : Fin 2000) : Fin 10000 :=
  ⟨2000 * t.val + u.val, by have := t.isLt; have := u.isLt; have h : cfg0.N = 5 := N_0; omega⟩

/-! ## Output window 18 -/

/-- The index map of window 18, decided over the grid: point t's block is block (t, 0). -/
theorem idx_facts18 : ∀ t : Fin cfg0.N, win0_18.index t (0 : Fin 2) = t.val ∧ win0_18.index t (1 : Fin 2) = 0 :=
  (by decide +kernel : ∀ t : Fin grid0.N, _)

/-- An index of the array is in point t's block iff each coordinate is in the block's range on its axis. -/
theorem mem_blk18 (t : Fin cfg0.N) (i : S10000x512.Idx) :
    i ∈ ((cfg0.win 18).blk t).view.set ↔ ∀ a : Fin 2, win0_18.index t a * S2000x512.size a ≤ (i a).val
      ∧ (i a).val < win0_18.index t a * S2000x512.size a + S2000x512.size a := by
  show i ∈ ((View.whole main_v8_0).slice (win0_18.rect t)).set ↔ _
  rw [View.set_slice_whole, Rect.mem_set_unit]
  exact Iff.rfl

/-- Element (u, q) of point t's block is element (2000 t + u, q) of the array. -/
theorem emb18 (t : Fin cfg0.N) (u : Fin 2000) (q : Fin 512) :
    ((cfg0.win 18).blk t).view.emb (ix2 u q) = ix2 (rowAt t u) q := by
  obtain ⟨e0, e1⟩ := idx_facts18 t
  funext a; apply Fin.ext
  match a with
  | ⟨0, _⟩ =>
    show win0_18.index t (0 : Fin 2) * 2000 + 1 * u.val = 2000 * t.val + u.val
    omega
  | ⟨1, _⟩ =>
    show win0_18.index t (1 : Fin 2) * 512 + 1 * q.val = q.val
    omega

/-- Every index of the array is in the block of the point its row falls in, and every point writes back. -/
theorem cover18 : ∀ i : S10000x512.Idx,
    ∃ t : Fin cfg0.N, (cfg0.win 18).flush t = true ∧ i ∈ ((cfg0.win 18).blk t).view.set := by
  intro i
  have hi0 : (i 0).val < 10000 := (i 0).isLt
  have hi1 : (i 1).val < 512 := (i 1).isLt
  have hN : cfg0.N = 5 := N_0
  have hN' : grid0.N = 5 := N_0
  obtain ⟨t, ht⟩ : ∃ t : Fin cfg0.N, t.val = (i 0).val / 2000 := ⟨⟨(i 0).val / 2000, by omega⟩, rfl⟩
  obtain ⟨e0, e1⟩ := idx_facts18 t
  refine ⟨t, flush0_18 t, ?_⟩
  rw [mem_blk18]
  intro a
  match a with
  | ⟨0, _⟩ =>
    show win0_18.index t (0 : Fin 2) * 2000 ≤ (i 0).val ∧ (i 0).val < win0_18.index t (0 : Fin 2) * 2000 + 2000
    omega
  | ⟨1, _⟩ =>
    show win0_18.index t (1 : Fin 2) * 512 ≤ (i 1).val ∧ (i 1).val < win0_18.index t (1 : Fin 2) * 512 + 512
    omega

/-! ## Output window 19 -/

/-- The index map of window 19, decided over the grid: point t's block is block (t, 0). -/
theorem idx_facts19 : ∀ t : Fin cfg0.N, win0_19.index t (0 : Fin 2) = t.val ∧ win0_19.index t (1 : Fin 2) = 0 :=
  (by decide +kernel : ∀ t : Fin grid0.N, _)

/-- An index of the array is in point t's block iff each coordinate is in the block's range on its axis. -/
theorem mem_blk19 (t : Fin cfg0.N) (i : S10000x10.Idx) :
    i ∈ ((cfg0.win 19).blk t).view.set ↔ ∀ a : Fin 2, win0_19.index t a * S2000x10.size a ≤ (i a).val
      ∧ (i a).val < win0_19.index t a * S2000x10.size a + S2000x10.size a := by
  show i ∈ ((View.whole main_v8_1).slice (win0_19.rect t)).set ↔ _
  rw [View.set_slice_whole, Rect.mem_set_unit]
  exact Iff.rfl

/-- Element (u, q) of point t's block is element (2000 t + u, q) of the array. -/
theorem emb19 (t : Fin cfg0.N) (u : Fin 2000) (q : Fin 10) :
    ((cfg0.win 19).blk t).view.emb (ix2 u q) = ix2 (rowAt t u) q := by
  obtain ⟨e0, e1⟩ := idx_facts19 t
  funext a; apply Fin.ext
  match a with
  | ⟨0, _⟩ =>
    show win0_19.index t (0 : Fin 2) * 2000 + 1 * u.val = 2000 * t.val + u.val
    omega
  | ⟨1, _⟩ =>
    show win0_19.index t (1 : Fin 2) * 10 + 1 * q.val = q.val
    omega

/-- Every index of the array is in the block of the point its row falls in, and every point writes back. -/
theorem cover19 : ∀ i : S10000x10.Idx,
    ∃ t : Fin cfg0.N, (cfg0.win 19).flush t = true ∧ i ∈ ((cfg0.win 19).blk t).view.set := by
  intro i
  have hi0 : (i 0).val < 10000 := (i 0).isLt
  have hi1 : (i 1).val < 10 := (i 1).isLt
  have hN : cfg0.N = 5 := N_0
  have hN' : grid0.N = 5 := N_0
  obtain ⟨t, ht⟩ : ∃ t : Fin cfg0.N, t.val = (i 0).val / 2000 := ⟨⟨(i 0).val / 2000, by omega⟩, rfl⟩
  obtain ⟨e0, e1⟩ := idx_facts19 t
  refine ⟨t, flush0_19 t, ?_⟩
  rw [mem_blk19]
  intro a
  match a with
  | ⟨0, _⟩ =>
    show win0_19.index t (0 : Fin 2) * 2000 ≤ (i 0).val ∧ (i 0).val < win0_19.index t (0 : Fin 2) * 2000 + 2000
    omega
  | ⟨1, _⟩ =>
    show win0_19.index t (1 : Fin 2) * 10 ≤ (i 1).val ∧ (i 1).val < win0_19.index t (1 : Fin 2) * 10 + 10
    omega

/-! ## Output window 20 -/

/-- The index map of window 20, decided over the grid: point t's block is block (t, 0). -/
theorem idx_facts20 : ∀ t : Fin cfg0.N, win0_20.index t (0 : Fin 2) = t.val ∧ win0_20.index t (1 : Fin 2) = 0 :=
  (by decide +kernel : ∀ t : Fin grid0.N, _)

/-- An index of the array is in point t's block iff each coordinate is in the block's range on its axis. -/
theorem mem_blk20 (t : Fin cfg0.N) (i : S10000x10.Idx) :
    i ∈ ((cfg0.win 20).blk t).view.set ↔ ∀ a : Fin 2, win0_20.index t a * S2000x10.size a ≤ (i a).val
      ∧ (i a).val < win0_20.index t a * S2000x10.size a + S2000x10.size a := by
  show i ∈ ((View.whole main_v8_2).slice (win0_20.rect t)).set ↔ _
  rw [View.set_slice_whole, Rect.mem_set_unit]
  exact Iff.rfl

/-- Element (u, q) of point t's block is element (2000 t + u, q) of the array. -/
theorem emb20 (t : Fin cfg0.N) (u : Fin 2000) (q : Fin 10) :
    ((cfg0.win 20).blk t).view.emb (ix2 u q) = ix2 (rowAt t u) q := by
  obtain ⟨e0, e1⟩ := idx_facts20 t
  funext a; apply Fin.ext
  match a with
  | ⟨0, _⟩ =>
    show win0_20.index t (0 : Fin 2) * 2000 + 1 * u.val = 2000 * t.val + u.val
    omega
  | ⟨1, _⟩ =>
    show win0_20.index t (1 : Fin 2) * 10 + 1 * q.val = q.val
    omega

/-- Every index of the array is in the block of the point its row falls in, and every point writes back. -/
theorem cover20 : ∀ i : S10000x10.Idx,
    ∃ t : Fin cfg0.N, (cfg0.win 20).flush t = true ∧ i ∈ ((cfg0.win 20).blk t).view.set := by
  intro i
  have hi0 : (i 0).val < 10000 := (i 0).isLt
  have hi1 : (i 1).val < 10 := (i 1).isLt
  have hN : cfg0.N = 5 := N_0
  have hN' : grid0.N = 5 := N_0
  obtain ⟨t, ht⟩ : ∃ t : Fin cfg0.N, t.val = (i 0).val / 2000 := ⟨⟨(i 0).val / 2000, by omega⟩, rfl⟩
  obtain ⟨e0, e1⟩ := idx_facts20 t
  refine ⟨t, flush0_20 t, ?_⟩
  rw [mem_blk20]
  intro a
  match a with
  | ⟨0, _⟩ =>
    show win0_20.index t (0 : Fin 2) * 2000 ≤ (i 0).val ∧ (i 0).val < win0_20.index t (0 : Fin 2) * 2000 + 2000
    omega
  | ⟨1, _⟩ =>
    show win0_20.index t (1 : Fin 2) * 10 ≤ (i 1).val ∧ (i 1).val < win0_20.index t (1 : Fin 2) * 10 + 10
    omega

end Cert.KernelIdeal.KCover

end
-- ==== Proof.KFinal.lean ====
/-
  The kernel's three result arrays after its run, as functions of the argument arrays: grid point t writes rows
  [2000 t, 2000 t + 2000) of each result, every row of a block being the network on the same row of the input; the
  five points' blocks cover the 10000 rows, so the arrays are the network's reconstruction, soft assignment and
  code of the input, row by row.
-/
import proofs.«103175_g68075231642060_cont_9to1_m_421_26_alg».proof.Proof.Gen.KernelIdeal.Value
import proofs.«103175_g68075231642060_cont_9to1_m_421_26_alg».proof.Proof.KOut
import proofs.«103175_g68075231642060_cont_9to1_m_421_26_alg».proof.Proof.KBlocks
import proofs.«103175_g68075231642060_cont_9to1_m_421_26_alg».proof.Proof.KCover

noncomputable section

namespace Cert.KernelIdeal.KFinal

open Cert.KernelIdeal Cert.KernelIdeal.Gen Cert.KernelIdeal.KNet Cert.KernelIdeal.KBlocks Cert.KernelIdeal.KCover
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The network's parameters: the seventeen parameter arrays as launched. -/
abbrev P (c : Dev nD) : Net.Params := Net.Params.mk (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The input array as launched. -/
abbrev X (c : Dev nD) : Net.Arr2 10000 512 := m ((c : Thread nD τ).loc main_arg0)

/-- At every grid point the parameter windows' blocks are the parameters. -/
theorem loads (c : Dev nD) (t : Fin cfg0.N) : KOut.Loads (P m c) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  ⟨w_ld1 m c t, b_ld2 m c t, w_ld3 m c t, b_ld4 m c t, w_ld5 m c t, b_ld6 m c t, w_ld7 m c t, b_ld8 m c t, w_ld9 m c t, b_ld10 m c t,
    w_ld11 m c t, b_ld12 m c t, w_ld13 m c t, b_ld14 m c t, w_ld15 m c t, b_ld16 m c t, w_ld17 m c t⟩

/-- At grid point t the x window's block holds rows 2000 t + u of the input. -/
theorem xrows (c : Dev nD) (t : Fin cfg0.N) : KOut.XRows (X m c) (rowAt t) (iblk m c 0 t) :=
  ⟨fun p => funext fun k => (x_ld1 m c t p k).trans (congrArg (fun r => X m c (ix2 r k)) (Fin.ext (by show 2000 * t.val + 0 + p.val = 2000 * t.val + (0 + p.val); omega))),
    fun p => funext fun k => (x_ld2 m c t p k).trans (congrArg (fun r => X m c (ix2 r k)) (Fin.ext (by show 2000 * t.val + 400 + p.val = 2000 * t.val + (400 + p.val); omega))),
    fun p => funext fun k => (x_ld3 m c t p k).trans (congrArg (fun r => X m c (ix2 r k)) (Fin.ext (by show 2000 * t.val + 800 + p.val = 2000 * t.val + (800 + p.val); omega))),
    fun p => funext fun k => (x_ld4 m c t p k).trans (congrArg (fun r => X m c (ix2 r k)) (Fin.ext (by show 2000 * t.val + 1200 + p.val = 2000 * t.val + (1200 + p.val); omega))),
    fun p => funext fun k => (x_ld5 m c t p k).trans (congrArg (fun r => X m c (ix2 r k)) (Fin.ext (by show 2000 * t.val + 1600 + p.val = 2000 * t.val + (1600 + p.val); omega)))⟩

/-- What point t writes back to the reconstruction array is block t of the network's reconstruction. -/
theorem flushed18_eq (c : Dev nD) (t : Fin cfg0.N) :
    (dats m 0 c).flushed 18 t = ((cfg0.win 18).blk t).view.read (Elt Ideal) (Net.Gx (P m c) (X m c)) := by
  rw [Value.flushed18]
  funext y
  obtain ⟨u, q, rfl⟩ : ∃ (u : Fin 2000) (q : Fin 512), y = ix2 u q := ⟨y 0, y 1, eq_ix2 y⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 u q) = Net.Gx (P m c) (X m c) (((cfg0.win 18).blk t).view.emb (ix2 u q))
  rw [emb18]
  exact KOut.out18_eq (P m c) (X m c) (rowAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (loads m c t) (xrows m c t) (ix2 u q)

/-- What point t writes back to the code array is block t of the network's code. -/
theorem flushed20_eq (c : Dev nD) (t : Fin cfg0.N) :
    (dats m 0 c).flushed 20 t = ((cfg0.win 20).blk t).view.read (Elt Ideal) (Net.Gz (P m c) (X m c)) := by
  rw [Value.flushed20]
  funext y
  obtain ⟨u, q, rfl⟩ : ∃ (u : Fin 2000) (q : Fin 10), y = ix2 u q := ⟨y 0, y 1, eq_ix2 y⟩
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 u q) = Net.Gz (P m c) (X m c) (((cfg0.win 20).blk t).view.emb (ix2 u q))
  rw [emb20]
  exact KOut.out20_eq (P m c) (X m c) (rowAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (loads m c t) (xrows m c t) (ix2 u q)

/-- What point t writes back to the soft-assignment array is block t of the network's soft assignment, for
    finite inputs. -/
theorem flushed19_eq (c : Dev nD) (hP : (P m c).Real) (hX : ∀ i, Net.IsReal (X m c i)) (t : Fin cfg0.N) :
    (dats m 0 c).flushed 19 t = ((cfg0.win 19).blk t).view.read (Elt Ideal) (Net.Gq (P m c) (X m c)) := by
  rw [Value.flushed19]
  funext y
  obtain ⟨u, q, rfl⟩ : ∃ (u : Fin 2000) (q : Fin 10), y = ix2 u q := ⟨y 0, y 1, eq_ix2 y⟩
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 u q) = Net.Gq (P m c) (X m c) (((cfg0.win 19).blk t).view.emb (ix2 u q))
  rw [emb19]
  exact KOut.out19_eq (P m c) (X m c) (rowAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (loads m c t) (xrows m c t) hP hX (ix2 u q)

/-- The reconstruction array after the run. -/
theorem final18 (c : Dev nD) : (dats m 0 c).arrAt 18 cfg0.N = Net.Gx (P m c) (X m c) :=
  (dats m 0 c).arrAt_eq_of_cover 18 (Net.Gx (P m c) (X m c)) (fun t _ => flushed18_eq m c t) cover18

/-- The soft-assignment array after the run, for finite inputs. -/
theorem final19 (c : Dev nD) (hP : (P m c).Real) (hX : ∀ i, Net.IsReal (X m c i)) :
    (dats m 0 c).arrAt 19 cfg0.N = Net.Gq (P m c) (X m c) :=
  (dats m 0 c).arrAt_eq_of_cover 19 (Net.Gq (P m c) (X m c)) (fun t _ => flushed19_eq m c hP hX t) cover19

/-- The code array after the run. -/
theorem final20 (c : Dev nD) : (dats m 0 c).arrAt 20 cfg0.N = Net.Gz (P m c) (X m c) :=
  (dats m 0 c).arrAt_eq_of_cover 20 (Net.Gz (P m c) (X m c)) (fun t _ => flushed20_eq m c t) cover20

/-- The kernel's run from finite inputs: every weakly fair execution terminates with the three result arrays at
    the network's reconstruction, soft assignment and code of the input, and the arguments unchanged. -/
theorem run (hP : ∀ c, (P m c).Real) (hX : ∀ c i, Net.IsReal (X m c i)) :
    θ_run defs (onTc (τ := τ) (main (F := Ideal))) ⟨m, fun _ => 0, ρ⟩ fun r => ∀ c : Dev nD,
      r.2.mem ((c : Thread nD τ).loc main_v8_0) = Net.Gx (P m c) (X m c)
      ∧ r.2.mem ((c : Thread nD τ).loc main_v8_1) = Net.Gq (P m c) (X m c)
      ∧ r.2.mem ((c : Thread nD τ).loc main_v8_2) = Net.Gz (P m c) (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final18 m c), (h c).2.1.trans (final19 m c (hP c) (hX c)),
      (h c).2.2.1.trans (final20 m c), (h c).2.2.2⟩)
    (Value.run_blocks m ρ)

end Cert.KernelIdeal.KFinal

end
-- ==== Proof.RefNet.lean ====
/-
  The reference program is the network.

  Each dense layer of the reference is a contraction, a broadcast bias and, for the rectified layers, a maximum with
  a broadcast zero. Read at row r and column q, the contraction is the sum over k of h k * w (k, q) for the previous
  layer's row h, the bias is b q and the zero is 0: one dense layer of the network applied to h. The layers are read
  one after another, each using the one before it under the sum. The soft assignment sums the squared differences of
  the code and a centre over the last axis, divides by the constant one, adds one, inverts, raises to the power one
  and normalises over the centres: Student's kernel of the squared distances, normalised.
-/
import proofs.«103175_g68075231642060_cont_9to1_m_421_26_alg».proof.Proof.Gen.ReferenceIdeal.Read
import proofs.«103175_g68075231642060_cont_9to1_m_421_26_alg».proof.Proof.Net
import Idealize.ShloMosaic.Lib.ValueIdx
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx Cert.Net

/-- The first encoder layer, rectified, read at row `r`, column `q`. -/
theorem h1_apply (x0 : (⟨S10000x512, .f32⟩ : BufTy).Contents (Elt Ideal)) (x1 : (⟨S512x500, .f32⟩ : BufTy).Contents (Elt Ideal)) (x2 : (⟨S500, .f32⟩ : BufTy).Contents (Elt Ideal))
    (r : Fin 10000) (q : Fin 500) :
    val_main_v4 (F := Ideal) x0 x1 x2 (ix2 r q) = (relu (lin x1 x2 (row x0 r))) q := by
  rw [val_main_v4_apply, val_main_v3_apply, val_main_v0_apply, val_main_v2_apply, val_main_v1_apply, val_main_call0_v0_apply, val_main_call0_cst_apply]
  have el : ∀ k : Fin 512, lidx_main_v0 (ix2 r q) k = ix2 r k := fun k => funext fun a => by
    match a with | ⟨0, _⟩ => rfl | ⟨1, _⟩ => rfl
  have er : ∀ k : Fin 512, ridx_main_v0 (ix2 r q) k = ix2 k q := fun k => funext fun a => by
    match a with | ⟨0, _⟩ => rfl | ⟨1, _⟩ => rfl
  have eb : idx_main_v1 (idx_main_v2 (ix2 r q)) = ix1 q := funext fun a => by
    match a with | ⟨0, _⟩ => rfl
  simp only [el, er, eb]
  simp only [Ideal.maximumf_def, Ideal.addf_def, Ideal.ofBits_def, Ideal.ofBits_zero_f32]
  rfl

/-- The second encoder layer, rectified. -/
theorem h2_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal))
    (r : Fin 10000) (q : Fin 500) :
    val_main_v9 (F := Ideal) x0 x1 x2 x3 x4 (ix2 r q) = (relu (lin x3 x4 (relu (lin x1 x2 (row x0 r))))) q := by
  rw [val_main_v9_apply, val_main_v8_apply, val_main_v5_apply, val_main_v7_apply, val_main_v6_apply, val_main_call1_v0_apply, val_main_call1_cst_apply]
  have el : ∀ k : Fin 500, lidx_main_v5 (ix2 r q) k = ix2 r k := fun k => funext fun a => by
    match a with | ⟨0, _⟩ => rfl | ⟨1, _⟩ => rfl
  have er : ∀ k : Fin 500, ridx_main_v5 (ix2 r q) k = ix2 k q := fun k => funext fun a => by
    match a with | ⟨0, _⟩ => rfl | ⟨1, _⟩ => rfl
  have eb : idx_main_v6 (idx_main_v7 (ix2 r q)) = ix1 q := funext fun a => by
    match a with | ⟨0, _⟩ => rfl
  simp only [el, er, eb, h1_apply]
  simp only [Ideal.maximumf_def, Ideal.addf_def, Ideal.ofBits_def, Ideal.ofBits_zero_f32]
  rfl

/-- The third encoder layer, rectified. -/
theorem h3_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal))
    (r : Fin 10000) (q : Fin 2000) :
    val_main_v14 (F := Ideal) x0 x1 x2 x3 x4 x5 x6 (ix2 r q) = (relu (lin x5 x6 (relu (lin x3 x4 (relu (lin x1 x2 (row x0 r))))))) q := by
  rw [val_main_v14_apply, val_main_v13_apply, val_main_v10_apply, val_main_v12_apply, val_main_v11_apply, val_main_call2_v0_apply, val_main_call2_cst_apply]
  have el : ∀ k : Fin 500, lidx_main_v10 (ix2 r q) k = ix2 r k := fun k => funext fun a => by
    match a with | ⟨0, _⟩ => rfl | ⟨1, _⟩ => rfl
  have er : ∀ k : Fin 500, ridx_main_v10 (ix2 r q) k = ix2 k q := fun k => funext fun a => by
    match a with | ⟨0, _⟩ => rfl | ⟨1, _⟩ => rfl
  have eb : idx_main_v11 (idx_main_v12 (ix2 r q)) = ix1 q := funext fun a => by
    match a with | ⟨0, _⟩ => rfl
  simp only [el, er, eb, h2_apply]
  simp only [Ideal.maximumf_def, Ideal.addf_def, Ideal.ofBits_def, Ideal.ofBits_zero_f32]
  rfl

/-- The fourth encoder layer, not rectified: the code `z`. -/
theorem h4_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal))
    (r : Fin 10000) (q : Fin 10) :
    val_main_v18 (F := Ideal) x0 x1 x2 x3 x4 x5 x6 x7 x8 (ix2 r q) = (lin x7 x8 (relu (lin x5 x6 (relu (lin x3 x4 (relu (lin x1 x2 (row x0 r)))))))) q := by
  rw [val_main_v18_apply, val_main_v15_apply, val_main_v17_apply, val_main_v16_apply]
  have el : ∀ k : Fin 2000, lidx_main_v15 (ix2 r q) k = ix2 r k := fun k => funext fun a => by
    match a with | ⟨0, _⟩ => rfl | ⟨1, _⟩ => rfl
  have er : ∀ k : Fin 2000, ridx_main_v15 (ix2 r q) k = ix2 k q := fun k => funext fun a => by
    match a with | ⟨0, _⟩ => rfl | ⟨1, _⟩ => rfl
  have eb : idx_main_v16 (idx_main_v17 (ix2 r q)) = ix1 q := funext fun a => by
    match a with | ⟨0, _⟩ => rfl
  simp only [el, er, eb, h3_apply]
  simp only [Ideal.addf_def]
  rfl

/-- The first decoder layer, rectified, applied to the code. -/
theorem h5_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal))
    (r : Fin 10000) (q : Fin 2000) :
    val_main_v23 (F := Ideal) x0 x1 x2 x3 x4 x5 x6 x7 x8 x9 x10 (ix2 r q) = (relu (lin x9 x10 (lin x7 x8 (relu (lin x5 x6 (relu (lin x3 x4 (relu (lin x1 x2 (row x0 r)))))))))) q := by
  rw [val_main_v23_apply, val_main_v22_apply, val_main_v19_apply, val_main_v21_apply, val_main_v20_apply, val_main_call3_v0_apply, val_main_call3_cst_apply]
  have el : ∀ k : Fin 10, lidx_main_v19 (ix2 r q) k = ix2 r k := fun k => funext fun a => by
    match a with | ⟨0, _⟩ => rfl | ⟨1, _⟩ => rfl
  have er : ∀ k : Fin 10, ridx_main_v19 (ix2 r q) k = ix2 k q := fun k => funext fun a => by
    match a with | ⟨0, _⟩ => rfl | ⟨1, _⟩ => rfl
  have eb : idx_main_v20 (idx_main_v21 (ix2 r q)) = ix1 q := funext fun a => by
    match a with | ⟨0, _⟩ => rfl
  simp only [el, er, eb, h4_apply]
  simp only [Ideal.maximumf_def, Ideal.addf_def, Ideal.ofBits_def, Ideal.ofBits_zero_f32]
  rfl

/-- The second decoder layer, rectified. -/
theorem h6_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal))
    (r : Fin 10000) (q : Fin 500) :
    val_main_v28 (F := Ideal) x0 x1 x2 x3 x4 x5 x6 x7 x8 x9 x10 x11 x12 (ix2 r q) = (relu (lin x11 x12 (relu (lin x9 x10 (lin x7 x8 (relu (lin x5 x6 (relu (lin x3 x4 (relu (lin x1 x2 (row x0 r)))))))))))) q := by
  rw [val_main_v28_apply, val_main_v27_apply, val_main_v24_apply, val_main_v26_apply, val_main_v25_apply, val_main_call4_v0_apply, val_main_call4_cst_apply]
  have el : ∀ k : Fin 2000, lidx_main_v24 (ix2 r q) k = ix2 r k := fun k => funext fun a => by
    match a with | ⟨0, _⟩ => rfl | ⟨1, _⟩ => rfl
  have er : ∀ k : Fin 2000, ridx_main_v24 (ix2 r q) k = ix2 k q := fun k => funext fun a => by
    match a with | ⟨0, _⟩ => rfl | ⟨1, _⟩ => rfl
  have eb : idx_main_v25 (idx_main_v26 (ix2 r q)) = ix1 q := funext fun a => by
    match a with | ⟨0, _⟩ => rfl
  simp only [el, er, eb, h5_apply]
  simp only [Ideal.maximumf_def, Ideal.addf_def, Ideal.ofBits_def, Ideal.ofBits_zero_f32]
  rfl

/-- The third decoder layer, rectified. -/
theorem h7_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal)) (x13 : (⟨S500x500, .f32⟩ : BufTy).Contents (Elt Ideal)) (x14 : (⟨S500, .f32⟩ : BufTy).Contents (Elt Ideal))
    (r : Fin 10000) (q : Fin 500) :
    val_main_v33 (F := Ideal) x0 x1 x2 x3 x4 x5 x6 x7 x8 x9 x10 x11 x12 x13 x14 (ix2 r q) = (relu (lin x13 x14 (relu (lin x11 x12 (relu (lin x9 x10 (lin x7 x8 (relu (lin x5 x6 (relu (lin x3 x4 (relu (lin x1 x2 (row x0 r)))))))))))))) q := by
  rw [val_main_v33_apply, val_main_v32_apply, val_main_v29_apply, val_main_v31_apply, val_main_v30_apply, val_main_call5_v0_apply, val_main_call5_cst_apply]
  have el : ∀ k : Fin 500, lidx_main_v29 (ix2 r q) k = ix2 r k := fun k => funext fun a => by
    match a with | ⟨0, _⟩ => rfl | ⟨1, _⟩ => rfl
  have er : ∀ k : Fin 500, ridx_main_v29 (ix2 r q) k = ix2 k q := fun k => funext fun a => by
    match a with | ⟨0, _⟩ => rfl | ⟨1, _⟩ => rfl
  have eb : idx_main_v30 (idx_main_v31 (ix2 r q)) = ix1 q := funext fun a => by
    match a with | ⟨0, _⟩ => rfl
  simp only [el, er, eb, h6_apply]
  simp only [Ideal.maximumf_def, Ideal.addf_def, Ideal.ofBits_def, Ideal.ofBits_zero_f32]
  rfl

/-- The fourth decoder layer, not rectified: the reconstruction. -/
theorem h8_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal)) (x13 : (⟨S500x500, .f32⟩ : BufTy).Contents (Elt Ideal)) (x14 : (⟨S500, .f32⟩ : BufTy).Contents (Elt Ideal)) (x15 : (⟨S500x512, .f32⟩ : BufTy).Contents (Elt Ideal)) (x16 : (⟨S512, .f32⟩ : BufTy).Contents (Elt Ideal))
    (r : Fin 10000) (q : Fin 512) :
    val_main_v37 (F := Ideal) x0 x1 x2 x3 x4 x5 x6 x7 x8 x9 x10 x11 x12 x13 x14 x15 x16 (ix2 r q) = (lin x15 x16 (relu (lin x13 x14 (relu (lin x11 x12 (relu (lin x9 x10 (lin x7 x8 (relu (lin x5 x6 (relu (lin x3 x4 (relu (lin x1 x2 (row x0 r))))))))))))))) q := by
  rw [val_main_v37_apply, val_main_v34_apply, val_main_v36_apply, val_main_v35_apply]
  have el : ∀ k : Fin 500, lidx_main_v34 (ix2 r q) k = ix2 r k := fun k => funext fun a => by
    match a with | ⟨0, _⟩ => rfl | ⟨1, _⟩ => rfl
  have er : ∀ k : Fin 500, ridx_main_v34 (ix2 r q) k = ix2 k q := fun k => funext fun a => by
    match a with | ⟨0, _⟩ => rfl | ⟨1, _⟩ => rfl
  have eb : idx_main_v35 (idx_main_v36 (ix2 r q)) = ix1 q := funext fun a => by
    match a with | ⟨0, _⟩ => rfl
  simp only [el, er, eb, h7_apply]
  simp only [Ideal.addf_def]
  rfl

/-- The sum over the last axis of the squared differences is the squared distance of the code of row r to centre j. -/
theorem d_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x17 : (⟨S10x10, .f32⟩ : BufTy).Contents (Elt Ideal))
    (r : Fin 10000) (j : Fin 10) :
    val_main_v44 (F := Ideal) x0 x1 x2 x3 x4 x5 x6 x7 x8 x17 (ix2 r j)
      = dist2 x17 (fun k : Fin 10 => val_main_v18 (F := Ideal) x0 x1 x2 x3 x4 x5 x6 x7 x8 (ix2 r k)) j := by
  rw [val_main_v44_apply, val_main_cst_apply]
  have ez : ∀ k : Fin 10, idx_main_v38 (idx_main_v40 (idx_main_v44 (ix2 r j) k)) = ix2 r k := fun k => funext fun a => by
    match a with | ⟨0, _⟩ => rfl | ⟨1, _⟩ => rfl
  have ec : ∀ k : Fin 10, idx_main_v39 (idx_main_v41 (idx_main_v44 (ix2 r j) k)) = ix2 j k := fun k => funext fun a => by
    match a with | ⟨0, _⟩ => rfl | ⟨1, _⟩ => rfl
  simp only [val_main_v43_apply, val_main_v42_apply, val_main_v40_apply, val_main_v38_apply, val_main_v41_apply,
    val_main_v39_apply, ez, ec]
  simp only [Ideal.mulf_def, Ideal.subf_def, Ideal.ofBits_def, Ideal.ofBits_zero_f32, zero_add]
  rfl

/-- Dividing by the constant one, adding one, inverting and raising to the power one is Student's kernel. -/
theorem u_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x17 : (⟨S10x10, .f32⟩ : BufTy).Contents (Elt Ideal))
    (i : S10000x10.Idx) :
    val_main_v52 (F := Ideal) x0 x1 x2 x3 x4 x5 x6 x7 x8 x17 i
      = tker (val_main_v44 (F := Ideal) x0 x1 x2 x3 x4 x5 x6 x7 x8 x17 i) := by
  rw [val_main_v52_apply, val_main_v50_apply, val_main_v49_apply, val_main_cst_2_apply, val_main_v48_apply,
    val_main_v47_apply, val_main_cst_1_apply, val_main_v46_apply, val_main_v45_apply, val_main_cst_0_apply,
    val_main_v51_apply, val_main_cst_3_apply]
  simp only [Ideal.hostPowf_def, Ideal.hostDivf_def, Ideal.addf_def, Ideal.ofBits_def, ofBits_one, div_one', pow_one']
  rfl

/-- The normalised kernel is the soft assignment of the code of row r. -/
theorem q_apply (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x17 : (⟨S10x10, .f32⟩ : BufTy).Contents (Elt Ideal))
    (r : Fin 10000) (j : Fin 10) :
    val_main_v56 (F := Ideal) x0 x1 x2 x3 x4 x5 x6 x7 x8 x17 (ix2 r j)
      = softRow x17 (fun k : Fin 10 => val_main_v18 (F := Ideal) x0 x1 x2 x3 x4 x5 x6 x7 x8 (ix2 r k)) j := by
  rw [val_main_v56_apply, val_main_v55_apply, val_main_v54_apply, val_main_v53_apply, val_main_cst_4_apply]
  have es : ∀ k : Fin 10, idx_main_v53 (idx_main_v54 (idx_main_v55 (ix2 r j))) k = ix2 r k := fun k => funext fun a => by
    match a with | ⟨0, _⟩ => rfl | ⟨1, _⟩ => rfl
  simp only [es, u_apply, d_apply]
  simp only [Ideal.hostDivf_def, Ideal.ofBits_def, Ideal.ofBits_zero_f32, zero_add]
  rfl

/-! ## The three result arrays -/

/-- The reference's code array is the network's. -/
theorem z_eq (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal)) (x13 : (⟨S500x500, .f32⟩ : BufTy).Contents (Elt Ideal)) (x14 : (⟨S500, .f32⟩ : BufTy).Contents (Elt Ideal)) (x15 : (⟨S500x512, .f32⟩ : BufTy).Contents (Elt Ideal)) (x16 : (⟨S512, .f32⟩ : BufTy).Contents (Elt Ideal)) (x17 : (⟨S10x10, .f32⟩ : BufTy).Contents (Elt Ideal)) :
    val_main_v18 (F := Ideal) x0 x1 x2 x3 x4 x5 x6 x7 x8 = Gz (Params.mk x1 x2 x3 x4 x5 x6 x7 x8 x9 x10 x11 x12 x13 x14 x15 x16 x17) x0 := by
  funext j
  obtain ⟨r, q, rfl⟩ : ∃ (r : Fin 10000) (q : Fin 10), j = ix2 r q := ⟨j 0, j 1, eq_ix2 j⟩
  rw [Gz_apply]
  exact h4_apply x0 x1 x2 x3 x4 x5 x6 x7 x8 r q

/-- The reference's reconstruction array is the network's. -/
theorem xbar_eq (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal)) (x13 : (⟨S500x500, .f32⟩ : BufTy).Contents (Elt Ideal)) (x14 : (⟨S500, .f32⟩ : BufTy).Contents (Elt Ideal)) (x15 : (⟨S500x512, .f32⟩ : BufTy).Contents (Elt Ideal)) (x16 : (⟨S512, .f32⟩ : BufTy).Contents (Elt Ideal)) (x17 : (⟨S10x10, .f32⟩ : BufTy).Contents (Elt Ideal)) :
    val_main_v37 (F := Ideal) x0 x1 x2 x3 x4 x5 x6 x7 x8 x9 x10 x11 x12 x13 x14 x15 x16 = Gx (Params.mk x1 x2 x3 x4 x5 x6 x7 x8 x9 x10 x11 x12 x13 x14 x15 x16 x17) x0 := by
  funext j
  obtain ⟨r, q, rfl⟩ : ∃ (r : Fin 10000) (q : Fin 512), j = ix2 r q := ⟨j 0, j 1, eq_ix2 j⟩
  rw [Gx_apply]
  exact h8_apply x0 x1 x2 x3 x4 x5 x6 x7 x8 x9 x10 x11 x12 x13 x14 x15 x16 r q

/-- The reference's soft-assignment array is the network's. -/
theorem q_eq (x0 : (⟨S10000x512, .f32⟩ : BufTy).Contents (Elt Ideal)) (x1 : (⟨S512x500, .f32⟩ : BufTy).Contents (Elt Ideal)) (x2 : (⟨S500, .f32⟩ : BufTy).Contents (Elt Ideal)) (x3 : (⟨S500x500, .f32⟩ : BufTy).Contents (Elt Ideal)) (x4 : (⟨S500, .f32⟩ : BufTy).Contents (Elt Ideal)) (x5 : (⟨S500x2000, .f32⟩ : BufTy).Contents (Elt Ideal)) (x6 : (⟨S2000, .f32⟩ : BufTy).Contents (Elt Ideal)) (x7 : (⟨S2000x10, .f32⟩ : BufTy).Contents (Elt Ideal)) (x8 : (⟨S10, .f32⟩ : BufTy).Contents (Elt Ideal)) (x9 : (⟨S10x2000, .f32⟩ : BufTy).Contents (Elt Ideal)) (x10 : (⟨S2000, .f32⟩ : BufTy).Contents (Elt Ideal)) (x11 : (⟨S2000x500, .f32⟩ : BufTy).Contents (Elt Ideal)) (x12 : (⟨S500, .f32⟩ : BufTy).Contents (Elt Ideal)) (x13 : (⟨S500x500, .f32⟩ : BufTy).Contents (Elt Ideal)) (x14 : (⟨S500, .f32⟩ : BufTy).Contents (Elt Ideal)) (x15 : (⟨S500x512, .f32⟩ : BufTy).Contents (Elt Ideal)) (x16 : (⟨S512, .f32⟩ : BufTy).Contents (Elt Ideal)) (x17 : (⟨S10x10, .f32⟩ : BufTy).Contents (Elt Ideal)) :
    val_main_v56 (F := Ideal) x0 x1 x2 x3 x4 x5 x6 x7 x8 x17 = Gq (Params.mk x1 x2 x3 x4 x5 x6 x7 x8 x9 x10 x11 x12 x13 x14 x15 x16 x17) x0 := by
  funext j
  obtain ⟨r, q, rfl⟩ : ∃ (r : Fin 10000) (q : Fin 10), j = ix2 r q := ⟨j 0, j 1, eq_ix2 j⟩
  rw [Gq_apply, q_apply]
  have hz : (fun k : Fin 10 => val_main_v18 (F := Ideal) x0 x1 x2 x3 x4 x5 x6 x7 x8 (ix2 r k)) = encRow (Params.mk x1 x2 x3 x4 x5 x6 x7 x8 x9 x10 x11 x12 x13 x14 x15 x16 x17) (row x0 r) := funext fun k => h4_apply x0 x1 x2 x3 x4 x5 x6 x7 x8 r k
  rw [hz]

end Cert.ReferenceIdeal.RefNet

end
-- ==== Proof.PreReal.lean ====
/-
  The precondition read back: every input is a real number.

  The precondition takes, for each of the eighteen argument arrays, the conjunction over all entries of
  `|x| < +∞`, and conjoins the eighteen results. `|x|` is `max x (-x)`, which is `+∞` at both infinities,
  so `|x| < +∞` holds exactly at the images of real numbers. Hence, when the precondition's value is one,
  every entry of every argument array is real.
-/
import proofs.«103175_g68075231642060_cont_9to1_m_421_26_alg».proof.Pre_finite_inputs
import proofs.«103175_g68075231642060_cont_9to1_m_421_26_alg».proof.Proof.Gen.Pre_finite_inputs
import proofs.«103175_g68075231642060_cont_9to1_m_421_26_alg».proof.Proof.NetReal
import Idealize.ShloMosaic.Lib.ReduceAll
import Idealize.ShloMosaic.Lib.ValueIdx

noncomputable section

namespace Cert.Net.Pre

open Idealize.ShloMosaic Idealize.ShloMosaic.ValueIdx Cert.Pre_finite_inputs

/-- The word of `+∞` denotes the top element. -/
theorem ofBits_inf : Ideal.ofBits .f32 0x7F800000#32 = ⊤ := by simp [Ideal.ofBits, Ideal.ieee]

/-- An extended real whose absolute value `max x (-x)` is below `+∞` is real: at either infinity the
    absolute value is `+∞`. -/
theorem isReal_of_abs_lt (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- The scalar shape has one index. -/
instance : Subsingleton S_.Idx := ⟨fun a b => funext fun d => d.elim0⟩

/-- One array of any shape: if the conjunction over all entries of `|x| < +∞` is one, every entry is real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
      init hr hu ix0 = 1#1) :
    ∀ i, IsReal (x i) := by
  intro i
  have h := Host.reduce_andi_all _ _ hr hu ix0 e i
  have h' : Ideal.cmp .olt (max (x i) (-(x i))) (Ideal.ofBits .f32 0x7F800000#32) = 1#1 := h
  rw [ofBits_inf] at h'
  exact isReal_of_abs_lt _ h'

/-- A conjunction of two one-bit arrays at an index is the conjunction of the bits. -/
theorem andi_apply {s : Shape} {w : Nat} (a b : IVec s w) (i : s.Idx) : andi a b i = IntOp.andi (a i) (b i) := rfl

/-- Under the precondition the input array and all seventeen parameter arrays hold real numbers only. -/
theorem real_of_pre [h : Cert.Pre_finite_inputs.Facts]
    (x0 : FVec Ideal Cert.Pre_finite_inputs.S10000x512 .f32)
    (x1 : FVec Ideal Cert.Pre_finite_inputs.S512x500 .f32)
    (x2 : FVec Ideal Cert.Pre_finite_inputs.S500 .f32)
    (x3 : FVec Ideal Cert.Pre_finite_inputs.S500x500 .f32)
    (x4 : FVec Ideal Cert.Pre_finite_inputs.S500 .f32)
    (x5 : FVec Ideal Cert.Pre_finite_inputs.S500x2000 .f32)
    (x6 : FVec Ideal Cert.Pre_finite_inputs.S2000 .f32)
    (x7 : FVec Ideal Cert.Pre_finite_inputs.S2000x10 .f32)
    (x8 : FVec Ideal Cert.Pre_finite_inputs.S10 .f32)
    (x9 : FVec Ideal Cert.Pre_finite_inputs.S10x2000 .f32)
    (x10 : FVec Ideal Cert.Pre_finite_inputs.S2000 .f32)
    (x11 : FVec Ideal Cert.Pre_finite_inputs.S2000x500 .f32)
    (x12 : FVec Ideal Cert.Pre_finite_inputs.S500 .f32)
    (x13 : FVec Ideal Cert.Pre_finite_inputs.S500x500 .f32)
    (x14 : FVec Ideal Cert.Pre_finite_inputs.S500 .f32)
    (x15 : FVec Ideal Cert.Pre_finite_inputs.S500x512 .f32)
    (x16 : FVec Ideal Cert.Pre_finite_inputs.S512 .f32)
    (x17 : FVec Ideal Cert.Pre_finite_inputs.S10x10 .f32)
    (hpre : Cert.Pre_finite_inputs.fn (F := Ideal) x0 x1 x2 x3 x4 x5 x6 x7 x8 x9 x10 x11 x12 x13 x14 x15 x16 x17 = (fun _ => 1#1)) :
    (∀ i, Cert.Net.IsReal (x0 i)) ∧ Cert.Net.Params.Real ⟨x1, x2, x3, x4, x5, x6, x7, x8, x9, x10, x11, x12, x13, x14, x15, x16, x17⟩ := by
  have h0 := congrFun hpre ix0
  dsimp only [Cert.Pre_finite_inputs.fn, fn_part1, fn_part2, fn_part3, fn_part4, fn_part5] at h0
  simp only [andi_apply, IntOp.andi_eq_one] at h0
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h0
  exact ⟨isReal_of_all x0 _ _ _ _ h0,
    ⟨isReal_of_all x1 _ _ _ _ h1,
     isReal_of_all x2 _ _ _ _ h2,
     isReal_of_all x3 _ _ _ _ h3,
     isReal_of_all x4 _ _ _ _ h4,
     isReal_of_all x5 _ _ _ _ h5,
     isReal_of_all x6 _ _ _ _ h6,
     isReal_of_all x7 _ _ _ _ h7,
     isReal_of_all x8 _ _ _ _ h8,
     isReal_of_all x9 _ _ _ _ h9,
     isReal_of_all x10 _ _ _ _ h10,
     isReal_of_all x11 _ _ _ _ h11,
     isReal_of_all x12 _ _ _ _ h12,
     isReal_of_all x13 _ _ _ _ h13,
     isReal_of_all x14 _ _ _ _ h14,
     isReal_of_all x15 _ _ _ _ h15,
     isReal_of_all x16 _ _ _ _ h16,
     isReal_of_all x17 _ _ _ _ h17⟩⟩

end Cert.Net.Pre

end
-- ==== Proof.lean ====
/-
  The kernel fuses an autoencoder's forward pass with Student's t soft assignment of the codes to ten centres:
  four encoder layers (512 → 500 → 500 → 2000 → 10, the first three rectified), four decoder layers
  (10 → 2000 → 500 → 500 → 512, the first three rectified), and q_ij = u_ij / ∑_j u_ij with
  u_ij = 1 / (1 + |z_i - c_j|²). It tiles the 10000 rows in five blocks of 2000 and each block in five pieces of
  400 rows; every output row depends on the same input row only, so on the extended reals each result array is,
  row by row, the same function of the inputs as the reference's whole-array computation: a matrix product is
  the exact sum of products whatever its tiling, a lane sum the exact sum, and a change of layout the identity
  on values. The one place the two programs differ is the squared distance, which the kernel expands as
  |z|² - 2 z·c + |c|² and the reference sums as ∑ (z_k - c_k)²: these agree for finite z and c (distributivity
  fails at the infinities), and z is finite because the inputs are and sums, products and maxima of finite
  numbers are finite. The reference's division by 1.0 and power 1.0 are the identity on every extended real.
-/
import proofs.«103175_g68075231642060_cont_9to1_m_421_26_alg».proof.Defs
import proofs.«103175_g68075231642060_cont_9to1_m_421_26_alg».proof.Proof.Gen.Kernel
import proofs.«103175_g68075231642060_cont_9to1_m_421_26_alg».proof.Proof.Gen.Kernel.Frame
import proofs.«103175_g68075231642060_cont_9to1_m_421_26_alg».proof.Proof.Gen.KernelIdeal
import proofs.«103175_g68075231642060_cont_9to1_m_421_26_alg».proof.Proof.Gen.KernelIdeal.Frame
import proofs.«103175_g68075231642060_cont_9to1_m_421_26_alg».proof.Proof.Gen.KernelIdeal.Value
import proofs.«103175_g68075231642060_cont_9to1_m_421_26_alg».proof.Proof.Gen.ReferenceIdeal
import proofs.«103175_g68075231642060_cont_9to1_m_421_26_alg».proof.Proof.Gen.ReferenceIdeal.Run
import proofs.«103175_g68075231642060_cont_9to1_m_421_26_alg».proof.Proof.Gen.ReferenceIdeal.Read
import proofs.«103175_g68075231642060_cont_9to1_m_421_26_alg».proof.Proof.Gen.Pre_finite_inputs
import proofs.«103175_g68075231642060_cont_9to1_m_421_26_alg».proof.Proof.KFinal
import proofs.«103175_g68075231642060_cont_9to1_m_421_26_alg».proof.Proof.RefNet
import proofs.«103175_g68075231642060_cont_9to1_m_421_26_alg».proof.Proof.PreReal
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Equal parameter arrays give equal parameters. -/
theorem params_congr {a1 b1 : Cert.Net.Arr2 512 500} {a2 b2 : Cert.Net.Arr1 500} {a3 b3 : Cert.Net.Arr2 500 500} {a4 b4 : Cert.Net.Arr1 500} {a5 b5 : Cert.Net.Arr2 500 2000} {a6 b6 : Cert.Net.Arr1 2000} {a7 b7 : Cert.Net.Arr2 2000 10} {a8 b8 : Cert.Net.Arr1 10} {a9 b9 : Cert.Net.Arr2 10 2000} {a10 b10 : Cert.Net.Arr1 2000} {a11 b11 : Cert.Net.Arr2 2000 500} {a12 b12 : Cert.Net.Arr1 500} {a13 b13 : Cert.Net.Arr2 500 500} {a14 b14 : Cert.Net.Arr1 500} {a15 b15 : Cert.Net.Arr2 500 512} {a16 b16 : Cert.Net.Arr1 512} {a17 b17 : Cert.Net.Arr2 10 10}
    (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) :
    Cert.Net.Params.mk a1 a2 a3 a4 a5 a6 a7 a8 a9 a10 a11 a12 a13 a14 a15 a16 a17 = Cert.Net.Params.mk b1 b2 b3 b4 b5 b6 b7 b8 b9 b10 b11 b12 b13 b14 b15 b16 b17 := by
  subst h1 h2 h3 h4 h5 h6 h7 h8 h9 h10 h11 h12 h13 h14 h15 h16 h17
  rfl

/-- The network's three results depend on the parameters and the input only. -/
theorem net_congr {P Q : Cert.Net.Params} {x y : Cert.Net.Arr2 10000 512} (hP : P = Q) (hx : x = y) :
    Cert.Net.Gx P x = Cert.Net.Gx Q y ∧ Cert.Net.Gq P x = Cert.Net.Gq Q y ∧ Cert.Net.Gz P x = Cert.Net.Gz Q y := by
  subst hP hx
  exact ⟨rfl, rfl, rfl⟩

/-- From memories that agree on finite inputs both idealized programs end with the network's reconstruction, soft
    assignment and code of the input in their three results. -/
theorem algebraic : Cert.algebraic_KernelIdeal_ReferenceIdeal := by
  intro m ρ m' ρ' hpre hagree
  have hreal := fun c => Cert.Net.Pre.real_of_pre _ _ _ _ _ _ _ _ _ _ _ _ _ _ _ _ _ _ (hpre c)
  refine ⟨fun c => Cert.Net.Gx (Cert.KernelIdeal.KFinal.P m c) (Cert.KernelIdeal.KFinal.X m c),
    fun c => Cert.Net.Gq (Cert.KernelIdeal.KFinal.P m c) (Cert.KernelIdeal.KFinal.X m c),
    fun c => Cert.Net.Gz (Cert.KernelIdeal.KFinal.P m c) (Cert.KernelIdeal.KFinal.X m c),
    Cert.KernelIdeal.KFinal.run m ρ (fun c => (hreal c).2) (fun c => (hreal c).1), ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17⟩ := hagree c
  have hG := net_congr (params_congr e1 e2 e3 e4 e5 e6 e7 e8 e9 e10 e11 e12 e13 e14 e15 e16 e17) e0
  refine ⟨(h c).1.trans ?_, (h c).2.1.trans ?_, (h c).2.2.1.trans ?_, (h c).2.2.2⟩
  · exact ((Cert.ReferenceIdeal.Read.val_main_v37_eq _ _ _ _ _ _ _ _ _ _ _ _ _ _ _ _ _).trans
      (Cert.ReferenceIdeal.RefNet.xbar_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)))).trans hG.1
  · exact ((Cert.ReferenceIdeal.Read.val_main_v56_eq m' c).trans
      (Cert.ReferenceIdeal.RefNet.q_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)))).trans hG.2.1
  · exact ((Cert.ReferenceIdeal.Read.val_main_v18_eq _ _ _ _ _ _ _ _ _).trans
      (Cert.ReferenceIdeal.RefNet.z_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)))).trans hG.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
